-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v241)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v241) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v263) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x2 : Shape := ⟨2, ![50000, 2]⟩
abbrev S2x500000 : Shape := ⟨2, ![2, 500000]⟩
abbrev S500000x2 : Shape := ⟨2, ![500000, 2]⟩
abbrev S120x128 : Shape := ⟨2, ![120, 128]⟩
abbrev S3x128 : Shape := ⟨2, ![3, 128]⟩
abbrev S3x5x128 : Shape := ⟨3, ![3, 5, 128]⟩
abbrev S3x3x128 : Shape := ⟨3, ![3, 3, 128]⟩
abbrev S3x128x256 : Shape := ⟨3, ![3, 128, 256]⟩
abbrev S3x256 : Shape := ⟨2, ![3, 256]⟩
abbrev S3x256x128 : Shape := ⟨3, ![3, 256, 128]⟩
abbrev S_ : Shape := ⟨0, ![]⟩

class Facts : Prop where
  bcast_S_S120x128 : S_.BroadcastsInDim S120x128 (![] : Fin 0 → Fin S120x128.rank)
  reducesTo_S120x128_S_d0_1 : S120x128.ReducesTo [0, 1] S_
  h_S_ : 0 < S_.numel
  bcast_S_S3x128 : S_.BroadcastsInDim S3x128 (![] : Fin 0 → Fin S3x128.rank)
  reducesTo_S3x128_S_d0_1 : S3x128.ReducesTo [0, 1] S_
  bcast_S_S3x5x128 : S_.BroadcastsInDim S3x5x128 (![] : Fin 0 → Fin S3x5x128.rank)
  reducesTo_S3x5x128_S_d0_1_2 : S3x5x128.ReducesTo [0, 1, 2] S_
  bcast_S_S3x3x128 : S_.BroadcastsInDim S3x3x128 (![] : Fin 0 → Fin S3x3x128.rank)
  reducesTo_S3x3x128_S_d0_1_2 : S3x3x128.ReducesTo [0, 1, 2] S_
  bcast_S_S3x128x256 : S_.BroadcastsInDim S3x128x256 (![] : Fin 0 → Fin S3x128x256.rank)
  reducesTo_S3x128x256_S_d0_1_2 : S3x128x256.ReducesTo [0, 1, 2] S_
  bcast_S_S3x256 : S_.BroadcastsInDim S3x256 (![] : Fin 0 → Fin S3x256.rank)
  reducesTo_S3x256_S_d0_1 : S3x256.ReducesTo [0, 1] S_
  bcast_S_S3x256x128 : S_.BroadcastsInDim S3x256x128 (![] : Fin 0 → Fin S3x256x128.rank)
  reducesTo_S3x256x128_S_d0_1_2 : S3x256x128.ReducesTo [0, 1, 2] S_

variable [Facts]

def fn_part2 {F : FTy → Type} [FloatOps F] (main_arg10 : FVec F S3x128 .f32) (main_arg11 : FVec F S3x128 .f32) (main_arg12 : FVec F S3x128 .f32) (main_v33 : IVec S_ 1) : IVec S_ 1 :=
  let main_v34 : FVec F S3x128 .f32 := Host.absf main_arg10
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128 .f32 := Host.absf main_arg11
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S3x128 .f32 := Host.absf main_arg12
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  main_v48

def fn_part1 {F : FTy → Type} [FloatOps F] (main_arg7 : FVec F S3x128x256 .f32) (main_arg8 : FVec F S3x256 .f32) (main_arg9 : FVec F S3x256x128 .f32) (main_arg10 : FVec F S3x128 .f32) (main_arg11 : FVec F S3x128 .f32) (main_arg12 : FVec F S3x128 .f32) (main_v13 : IVec S_ 1) (main_v16 : IVec S3x3x128 1) : IVec S_ 1 :=
  let main_c_5 : IVec S_ 1 := constantI S_ 1 1#1
  let main_v17 : IVec S_ 1 := (fun x v => Host.reduce IntOp.andi x v reducesTo_S3x3x128_S_d0_1_2 h_S_) main_v16 main_c_5
  let main_v18 : IVec S_ 1 := andi main_v13 main_v17
  let main_v19 : FVec F S3x128x256 .f32 := Host.absf main_arg7
  let main_cst_6 : FVec F S_ .f32 := constant S_ .f32 0x7F800000#32
  let main_v20 : FVec F S3x128x256 .f32 := broadcastInDim S3x128x256 ![] bcast_S_S3x128x256 main_cst_6
  let main_v21 : IVec S3x128x256 1 := cmpf .olt main_v19 main_v20
  let main_c_7 : IVec S_ 1 := constantI S_ 1 1#1
  let main_v22 : IVec S_ 1 := (fun x v => Host.reduce IntOp.andi x v reducesTo_S3x128x256_S_d0_1_2 h_S_) main_v21 main_c_7
  let main_v23 : IVec S_ 1 := andi main_v18 main_v22
  let main_v24 : FVec F S3x256 .f32 := Host.absf main_arg8
  let main_cst_8 : FVec F S_ .f32 := constant S_ .f32 0x7F800000#32
  let main_v25 : FVec F S3x256 .f32 := broadcastInDim S3x256 ![] bcast_S_S3x256 main_cst_8
  let main_v26 : IVec S3x256 1 := cmpf .olt main_v24 main_v25
  let main_c_9 : IVec S_ 1 := constantI S_ 1 1#1
  let main_v27 : IVec S_ 1 := (fun x v => Host.reduce IntOp.andi x v reducesTo_S3x256_S_d0_1 h_S_) main_v26 main_c_9
  let main_v28 : IVec S_ 1 := andi main_v23 main_v27
  let main_v29 : FVec F S3x256x128 .f32 := Host.absf main_arg9
  let main_cst_10 : FVec F S_ .f32 := constant S_ .f32 0x7F800000#32
  let main_v30 : FVec F S3x256x128 .f32 := broadcastInDim S3x256x128 ![] bcast_S_S3x256x128 main_cst_10
  let main_v31 : IVec S3x256x128 1 := cmpf .olt main_v29 main_v30
  let main_c_11 : IVec S_ 1 := constantI S_ 1 1#1
  let main_v32 : IVec S_ 1 := (fun x v => Host.reduce IntOp.andi x v reducesTo_S3x256x128_S_d0_1_2 h_S_) main_v31 main_c_11
  let main_v33 : IVec S_ 1 := andi main_v28 main_v32
  fn_part2 (F := F) main_arg10 main_arg11 main_arg12 main_v33

def fn {F : FTy → Type} [FloatOps F] (main_arg0 : IVec S50000x2 32) (main_arg1 : IVec S2x500000 32) (main_arg2 : IVec S500000x2 32) (main_arg3 : FVec F S120x128 .f32) (main_arg4 : FVec F S3x128 .f32) (main_arg5 : FVec F S3x5x128 .f32) (main_arg6 : FVec F S3x3x128 .f32) (main_arg7 : FVec F S3x128x256 .f32) (main_arg8 : FVec F S3x256 .f32) (main_arg9 : FVec F S3x256x128 .f32) (main_arg10 : FVec F S3x128 .f32) (main_arg11 : FVec F S3x128 .f32) (main_arg12 : FVec F S3x128 .f32) : IVec S_ 1 :=
  let main_v0 : FVec F S120x128 .f32 := Host.absf main_arg3
  let main_cst : FVec F S_ .f32 := constant S_ .f32 0x7F800000#32
  let main_v1 : FVec F S120x128 .f32 := broadcastInDim S120x128 ![] bcast_S_S120x128 main_cst
  let main_v2 : IVec S120x128 1 := cmpf .olt main_v0 main_v1
  let main_c : IVec S_ 1 := constantI S_ 1 1#1
  let main_v3 : IVec S_ 1 := (fun x v => Host.reduce IntOp.andi x v reducesTo_S120x128_S_d0_1 h_S_) main_v2 main_c
  let main_v4 : FVec F S3x128 .f32 := Host.absf main_arg4
  let main_cst_0 : FVec F S_ .f32 := constant S_ .f32 0x7F800000#32
  let main_v5 : FVec F S3x128 .f32 := broadcastInDim S3x128 ![] bcast_S_S3x128 main_cst_0
  let main_v6 : IVec S3x128 1 := cmpf .olt main_v4 main_v5
  let main_c_1 : IVec S_ 1 := constantI S_ 1 1#1
  let main_v7 : IVec S_ 1 := (fun x v => Host.reduce IntOp.andi x v reducesTo_S3x128_S_d0_1 h_S_) main_v6 main_c_1
  let main_v8 : IVec S_ 1 := andi main_v3 main_v7
  let main_v9 : FVec F S3x5x128 .f32 := Host.absf main_arg5
  let main_cst_2 : FVec F S_ .f32 := constant S_ .f32 0x7F800000#32
  let main_v10 : FVec F S3x5x128 .f32 := broadcastInDim S3x5x128 ![] bcast_S_S3x5x128 main_cst_2
  let main_v11 : IVec S3x5x128 1 := cmpf .olt main_v9 main_v10
  let main_c_3 : IVec S_ 1 := constantI S_ 1 1#1
  let main_v12 : IVec S_ 1 := (fun x v => Host.reduce IntOp.andi x v reducesTo_S3x5x128_S_d0_1_2 h_S_) main_v11 main_c_3
  let main_v13 : IVec S_ 1 := andi main_v8 main_v12
  let main_v14 : FVec F S3x3x128 .f32 := Host.absf main_arg6
  let main_cst_4 : FVec F S_ .f32 := constant S_ .f32 0x7F800000#32
  let main_v15 : FVec F S3x3x128 .f32 := broadcastInDim S3x3x128 ![] bcast_S_S3x3x128 main_cst_4
  let main_v16 : IVec S3x3x128 1 := cmpf .olt main_v14 main_v15
  fn_part1 (F := F) main_arg7 main_arg8 main_arg9 main_arg10 main_arg11 main_arg12 main_v13 main_v16
-- ==== Kernel.lean ====
abbrev S50000x2 : Shape := ⟨2, ![50000, 2]⟩
abbrev S2x500000 : Shape := ⟨2, ![2, 500000]⟩
abbrev S500000x2 : Shape := ⟨2, ![500000, 2]⟩
abbrev S120x128 : Shape := ⟨2, ![120, 128]⟩
abbrev S3x128 : Shape := ⟨2, ![3, 128]⟩
abbrev S3x5x128 : Shape := ⟨3, ![3, 5, 128]⟩
abbrev S3x3x128 : Shape := ⟨3, ![3, 3, 128]⟩
abbrev S3x128x256 : Shape := ⟨3, ![3, 128, 256]⟩
abbrev S3x256 : Shape := ⟨2, ![3, 256]⟩
abbrev S3x256x128 : Shape := ⟨3, ![3, 256, 128]⟩
abbrev S50000x1 : Shape := ⟨2, ![50000, 1]⟩
abbrev S50000 : Shape := ⟨1, ![50000]⟩
abbrev S_ : Shape := ⟨0, ![]⟩
abbrev S50000x128 : Shape := ⟨2, ![50000, 128]⟩
abbrev S1x500000 : Shape := ⟨2, ![1, 500000]⟩
abbrev S500000 : Shape := ⟨1, ![500000]⟩
abbrev S550000 : Shape := ⟨1, ![550000]⟩
abbrev S500000x1 : Shape := ⟨2, ![500000, 1]⟩
abbrev S3x1x256 : Shape := ⟨3, ![3, 1, 256]⟩
abbrev S3x1x128 : Shape := ⟨3, ![3, 1, 128]⟩
abbrev S1x5x128 : Shape := ⟨3, ![1, 5, 128]⟩
abbrev S5x128 : Shape := ⟨2, ![5, 128]⟩
abbrev S550000x1 : Shape := ⟨2, ![550000, 1]⟩
abbrev S550000x128 : Shape := ⟨2, ![550000, 128]⟩
abbrev S1x3x128 : Shape := ⟨3, ![1, 3, 128]⟩
abbrev S1x128x256 : Shape := ⟨3, ![1, 128, 256]⟩
abbrev S128x256 : Shape := ⟨2, ![128, 256]⟩
abbrev S1x1x256 : Shape := ⟨3, ![1, 1, 256]⟩
abbrev S1x256 : Shape := ⟨2, ![1, 256]⟩
abbrev S1x256x128 : Shape := ⟨3, ![1, 256, 128]⟩
abbrev S256x128 : Shape := ⟨2, ![256, 128]⟩
abbrev S1x1x128 : Shape := ⟨3, ![1, 1, 128]⟩
abbrev S1x128 : Shape := ⟨2, ![1, 128]⟩
abbrev S5000x128 : Shape := ⟨2, ![5000, 128]⟩
abbrev S5000x256 : Shape := ⟨2, ![5000, 256]⟩
abbrev S128 : Shape := ⟨1, ![128]⟩

abbrev nBuf : Space → Nat
  | .hbm => 301
  | .vmem => 24
  | .smem => 0
  | _ => 0

abbrev hbmTy0_0 (i : Nat) : BufTy := match i % 128 with
  | 0 => ⟨S50000x2, .i32⟩
  | 1 => ⟨S2x500000, .i32⟩
  | 2 => ⟨S500000x2, .i32⟩
  | 3 => ⟨S120x128, .f32⟩
  | 4 => ⟨S3x128, .f32⟩
  | 5 => ⟨S3x5x128, .f32⟩
  | 6 => ⟨S3x3x128, .f32⟩
  | 7 => ⟨S3x128x256, .f32⟩
  | 8 => ⟨S3x256, .f32⟩
  | 9 => ⟨S3x256x128, .f32⟩
  | 10 => ⟨S3x128, .f32⟩
  | 11 => ⟨S3x128, .f32⟩
  | 12 => ⟨S3x128, .f32⟩
  | 13 => ⟨S50000x1, .i32⟩
  | 14 => ⟨S50000, .i32⟩
  | 15 => ⟨S_, .i32⟩
  | 16 => ⟨S50000, .i32⟩
  | 17 => ⟨S50000, .i1⟩
  | 18 => ⟨S_, .i32⟩
  | 19 => ⟨S50000, .i32⟩
  | 20 => ⟨S50000, .i32⟩
  | 21 => ⟨S50000, .i32⟩
  | 22 => ⟨S50000x1, .i32⟩
  | 23 => ⟨S50000x128, .f32⟩
  | 24 => ⟨S50000x1, .i32⟩
  | 25 => ⟨S50000, .i32⟩
  | 26 => ⟨S_, .i32⟩
  | 27 => ⟨S50000, .i32⟩
  | 28 => ⟨S50000, .i1⟩
  | 29 => ⟨S_, .i32⟩
  | 30 => ⟨S50000, .i32⟩
  | 31 => ⟨S50000, .i32⟩
  | 32 => ⟨S50000, .i32⟩
  | 33 => ⟨S50000x1, .i32⟩
  | 34 => ⟨S50000x128, .f32⟩
  | 35 => ⟨S50000x128, .f32⟩
  | 36 => ⟨S50000, .i32⟩
  | 37 => ⟨S1x500000, .i32⟩
  | 38 => ⟨S500000, .i32⟩
  | 39 => ⟨S550000, .i32⟩
  | 40 => ⟨S1x500000, .i32⟩
  | 41 => ⟨S500000, .i32⟩
  | 42 => ⟨S550000, .i32⟩
  | 43 => ⟨S500000x1, .i32⟩
  | 44 => ⟨S500000, .i32⟩
  | 45 => ⟨S_, .i32⟩
  | 46 => ⟨S50000, .i32⟩
  | 47 => ⟨S550000, .i32⟩
  | 48 => ⟨S500000x1, .i32⟩
  | 49 => ⟨S500000, .i32⟩
  | 50 => ⟨S_, .i32⟩
  | 51 => ⟨S50000, .i32⟩
  | 52 => ⟨S550000, .i32⟩
  | 53 => ⟨S3x1x256, .f32⟩
  | 54 => ⟨S3x1x128, .f32⟩
  | 55 => ⟨S1x5x128, .f32⟩
  | 56 => ⟨S5x128, .f32⟩
  | 57 => ⟨S_, .i32⟩
  | 58 => ⟨S550000, .i32⟩
  | 59 => ⟨S550000, .i1⟩
  | 60 => ⟨S_, .i32⟩
  | 61 => ⟨S550000, .i32⟩
  | 62 => ⟨S550000, .i32⟩
  | 63 => ⟨S550000, .i32⟩
  | 64 => ⟨S550000x1, .i32⟩
  | 65 => ⟨S550000x128, .f32⟩
  | 66 => ⟨S1x3x128, .f32⟩
  | 67 => ⟨S3x128, .f32⟩
  | 68 => ⟨S_, .i32⟩
  | 69 => ⟨S550000, .i32⟩
  | 70 => ⟨S550000, .i1⟩
  | 71 => ⟨S_, .i32⟩
  | 72 => ⟨S550000, .i32⟩
  | 73 => ⟨S550000, .i32⟩
  | 74 => ⟨S550000, .i32⟩
  | 75 => ⟨S550000x1, .i32⟩
  | 76 => ⟨S550000x128, .f32⟩
  | 77 => ⟨S550000x128, .f32⟩
  | 78 => ⟨S_, .i32⟩
  | 79 => ⟨S550000, .i32⟩
  | 80 => ⟨S550000, .i1⟩
  | 81 => ⟨S_, .i32⟩
  | 82 => ⟨S550000, .i32⟩
  | 83 => ⟨S550000, .i32⟩
  | 84 => ⟨S550000, .i32⟩
  | 85 => ⟨S550000x1, .i32⟩
  | 86 => ⟨S550000x128, .f32⟩
  | 87 => ⟨S550000x128, .f32⟩
  | 88 => ⟨S_, .f32⟩
  | 89 => ⟨S50000x128, .f32⟩
  | 90 => ⟨S550000x1, .i32⟩
  | 91 => ⟨S50000x128, .f32⟩
  | 92 => ⟨S1x128x256, .f32⟩
  | 93 => ⟨S128x256, .f32⟩
  | 94 => ⟨S1x1x256, .f32⟩
  | 95 => ⟨S1x256, .f32⟩
  | 96 => ⟨S1x256x128, .f32⟩
  | 97 => ⟨S256x128, .f32⟩
  | 98 => ⟨S1x1x128, .f32⟩
  | 99 => ⟨S1x128, .f32⟩
  | 100 => ⟨S50000x128, .f32⟩
  | 101 => ⟨S_, .f32⟩
  | 102 => ⟨S128, .f32⟩
  | 103 => ⟨S_, .f32⟩
  | 104 => ⟨S128, .f32⟩
  | 105 => ⟨S128, .f32⟩
  | 106 => ⟨S1x128, .f32⟩
  | 107 => ⟨S50000x128, .f32⟩
  | 108 => ⟨S50000x128, .f32⟩
  | 109 => ⟨S50000x128, .f32⟩
  | 110 => ⟨S_, .f32⟩
  | 111 => ⟨S128, .f32⟩
  | 112 => ⟨S_, .f32⟩
  | 113 => ⟨S128, .f32⟩
  | 114 => ⟨S128, .f32⟩
  | 115 => ⟨S1x128, .f32⟩
  | 116 => ⟨S128, .f32⟩
  | 117 => ⟨S1x128, .f32⟩
  | 118 => ⟨S50000x128, .f32⟩
  | 119 => ⟨S50000x128, .f32⟩
  | 120 => ⟨S1x128, .f32⟩
  | 121 => ⟨S50000x128, .f32⟩
  | 122 => ⟨S50000x128, .f32⟩
  | 123 => ⟨S_, .f32⟩
  | 124 => ⟨S128, .f32⟩
  | 125 => ⟨S128, .f32⟩
  | 126 => ⟨S128, .f32⟩
  | 127 => ⟨S1x128, .f32⟩
  | _ => ⟨S50000x2, .i32⟩

abbrev hbmTy0_1 (i : Nat) : BufTy := match i % 128 with
  | 0 => ⟨S50000x128, .f32⟩
  | 1 => ⟨S50000x128, .f32⟩
  | 2 => ⟨S1x128, .f32⟩
  | 3 => ⟨S128, .f32⟩
  | 4 => ⟨S1x128, .f32⟩
  | 5 => ⟨S50000x128, .f32⟩
  | 6 => ⟨S50000x128, .f32⟩
  | 7 => ⟨S_, .f32⟩
  | 8 => ⟨S50000x128, .f32⟩
  | 9 => ⟨S50000x128, .f32⟩
  | 10 => ⟨S1x5x128, .f32⟩
  | 11 => ⟨S5x128, .f32⟩
  | 12 => ⟨S_, .i32⟩
  | 13 => ⟨S550000, .i32⟩
  | 14 => ⟨S550000, .i1⟩
  | 15 => ⟨S_, .i32⟩
  | 16 => ⟨S550000, .i32⟩
  | 17 => ⟨S550000, .i32⟩
  | 18 => ⟨S550000, .i32⟩
  | 19 => ⟨S550000x1, .i32⟩
  | 20 => ⟨S550000x128, .f32⟩
  | 21 => ⟨S1x3x128, .f32⟩
  | 22 => ⟨S3x128, .f32⟩
  | 23 => ⟨S_, .i32⟩
  | 24 => ⟨S550000, .i32⟩
  | 25 => ⟨S550000, .i1⟩
  | 26 => ⟨S_, .i32⟩
  | 27 => ⟨S550000, .i32⟩
  | 28 => ⟨S550000, .i32⟩
  | 29 => ⟨S550000, .i32⟩
  | 30 => ⟨S550000x1, .i32⟩
  | 31 => ⟨S550000x128, .f32⟩
  | 32 => ⟨S550000x128, .f32⟩
  | 33 => ⟨S_, .i32⟩
  | 34 => ⟨S550000, .i32⟩
  | 35 => ⟨S550000, .i1⟩
  | 36 => ⟨S_, .i32⟩
  | 37 => ⟨S550000, .i32⟩
  | 38 => ⟨S550000, .i32⟩
  | 39 => ⟨S550000, .i32⟩
  | 40 => ⟨S550000x1, .i32⟩
  | 41 => ⟨S550000x128, .f32⟩
  | 42 => ⟨S550000x128, .f32⟩
  | 43 => ⟨S_, .f32⟩
  | 44 => ⟨S50000x128, .f32⟩
  | 45 => ⟨S550000x1, .i32⟩
  | 46 => ⟨S50000x128, .f32⟩
  | 47 => ⟨S1x128x256, .f32⟩
  | 48 => ⟨S128x256, .f32⟩
  | 49 => ⟨S1x1x256, .f32⟩
  | 50 => ⟨S1x256, .f32⟩
  | 51 => ⟨S1x256x128, .f32⟩
  | 52 => ⟨S256x128, .f32⟩
  | 53 => ⟨S1x1x128, .f32⟩
  | 54 => ⟨S1x128, .f32⟩
  | 55 => ⟨S50000x128, .f32⟩
  | 56 => ⟨S_, .f32⟩
  | 57 => ⟨S128, .f32⟩
  | 58 => ⟨S_, .f32⟩
  | 59 => ⟨S128, .f32⟩
  | 60 => ⟨S128, .f32⟩
  | 61 => ⟨S1x128, .f32⟩
  | 62 => ⟨S50000x128, .f32⟩
  | 63 => ⟨S50000x128, .f32⟩
  | 64 => ⟨S50000x128, .f32⟩
  | 65 => ⟨S_, .f32⟩
  | 66 => ⟨S128, .f32⟩
  | 67 => ⟨S_, .f32⟩
  | 68 => ⟨S128, .f32⟩
  | 69 => ⟨S128, .f32⟩
  | 70 => ⟨S1x128, .f32⟩
  | 71 => ⟨S128, .f32⟩
  | 72 => ⟨S1x128, .f32⟩
  | 73 => ⟨S50000x128, .f32⟩
  | 74 => ⟨S50000x128, .f32⟩
  | 75 => ⟨S1x128, .f32⟩
  | 76 => ⟨S50000x128, .f32⟩
  | 77 => ⟨S50000x128, .f32⟩
  | 78 => ⟨S_, .f32⟩
  | 79 => ⟨S128, .f32⟩
  | 80 => ⟨S128, .f32⟩
  | 81 => ⟨S128, .f32⟩
  | 82 => ⟨S1x128, .f32⟩
  | 83 => ⟨S50000x128, .f32⟩
  | 84 => ⟨S50000x128, .f32⟩
  | 85 => ⟨S1x128, .f32⟩
  | 86 => ⟨S128, .f32⟩
  | 87 => ⟨S1x128, .f32⟩
  | 88 => ⟨S50000x128, .f32⟩
  | 89 => ⟨S50000x128, .f32⟩
  | 90 => ⟨S_, .f32⟩
  | 91 => ⟨S50000x128, .f32⟩
  | 92 => ⟨S50000x128, .f32⟩
  | 93 => ⟨S1x5x128, .f32⟩
  | 94 => ⟨S5x128, .f32⟩
  | 95 => ⟨S_, .i32⟩
  | 96 => ⟨S550000, .i32⟩
  | 97 => ⟨S550000, .i1⟩
  | 98 => ⟨S_, .i32⟩
  | 99 => ⟨S550000, .i32⟩
  | 100 => ⟨S550000, .i32⟩
  | 101 => ⟨S550000, .i32⟩
  | 102 => ⟨S550000x1, .i32⟩
  | 103 => ⟨S550000x128, .f32⟩
  | 104 => ⟨S1x3x128, .f32⟩
  | 105 => ⟨S3x128, .f32⟩
  | 106 => ⟨S_, .i32⟩
  | 107 => ⟨S550000, .i32⟩
  | 108 => ⟨S550000, .i1⟩
  | 109 => ⟨S_, .i32⟩
  | 110 => ⟨S550000, .i32⟩
  | 111 => ⟨S550000, .i32⟩
  | 112 => ⟨S550000, .i32⟩
  | 113 => ⟨S550000x1, .i32⟩
  | 114 => ⟨S550000x128, .f32⟩
  | 115 => ⟨S550000x128, .f32⟩
  | 116 => ⟨S_, .i32⟩
  | 117 => ⟨S550000, .i32⟩
  | 118 => ⟨S550000, .i1⟩
  | 119 => ⟨S_, .i32⟩
  | 120 => ⟨S550000, .i32⟩
  | 121 => ⟨S550000, .i32⟩
  | 122 => ⟨S550000, .i32⟩
  | 123 => ⟨S550000x1, .i32⟩
  | 124 => ⟨S550000x128, .f32⟩
  | 125 => ⟨S550000x128, .f32⟩
  | 126 => ⟨S_, .f32⟩
  | 127 => ⟨S50000x128, .f32⟩
  | _ => ⟨S50000x2, .i32⟩

abbrev hbmTy0_2 (i : Nat) : BufTy := match i % 128 with
  | 0 => ⟨S550000x1, .i32⟩
  | 1 => ⟨S50000x128, .f32⟩
  | 2 => ⟨S1x128x256, .f32⟩
  | 3 => ⟨S128x256, .f32⟩
  | 4 => ⟨S1x1x256, .f32⟩
  | 5 => ⟨S1x256, .f32⟩
  | 6 => ⟨S1x256x128, .f32⟩
  | 7 => ⟨S256x128, .f32⟩
  | 8 => ⟨S1x1x128, .f32⟩
  | 9 => ⟨S1x128, .f32⟩
  | 10 => ⟨S50000x128, .f32⟩
  | 11 => ⟨S_, .f32⟩
  | 12 => ⟨S128, .f32⟩
  | 13 => ⟨S_, .f32⟩
  | 14 => ⟨S128, .f32⟩
  | 15 => ⟨S128, .f32⟩
  | 16 => ⟨S1x128, .f32⟩
  | 17 => ⟨S50000x128, .f32⟩
  | 18 => ⟨S50000x128, .f32⟩
  | 19 => ⟨S50000x128, .f32⟩
  | 20 => ⟨S_, .f32⟩
  | 21 => ⟨S128, .f32⟩
  | 22 => ⟨S_, .f32⟩
  | 23 => ⟨S128, .f32⟩
  | 24 => ⟨S128, .f32⟩
  | 25 => ⟨S1x128, .f32⟩
  | 26 => ⟨S128, .f32⟩
  | 27 => ⟨S1x128, .f32⟩
  | 28 => ⟨S50000x128, .f32⟩
  | 29 => ⟨S50000x128, .f32⟩
  | 30 => ⟨S1x128, .f32⟩
  | 31 => ⟨S50000x128, .f32⟩
  | 32 => ⟨S50000x128, .f32⟩
  | 33 => ⟨S_, .f32⟩
  | 34 => ⟨S128, .f32⟩
  | 35 => ⟨S128, .f32⟩
  | 36 => ⟨S128, .f32⟩
  | 37 => ⟨S1x128, .f32⟩
  | 38 => ⟨S50000x128, .f32⟩
  | 39 => ⟨S50000x128, .f32⟩
  | 40 => ⟨S1x128, .f32⟩
  | 41 => ⟨S128, .f32⟩
  | 42 => ⟨S1x128, .f32⟩
  | 43 => ⟨S50000x128, .f32⟩
  | 44 => ⟨S50000x128, .f32⟩
  | _ => ⟨S50000x2, .i32⟩

abbrev hbmTy (i : Nat) : BufTy := match i / 128 with
  | 0 => hbmTy0_0 i
  | 1 => hbmTy0_1 i
  | 2 => hbmTy0_2 i
  | _ => ⟨S50000x2, .i32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S1x256, .f32⟩
  | .local _ .vmem, ⟨4, _⟩ => ⟨S256x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x256, .f32⟩
  | .local _ .vmem, ⟨11, _⟩ => ⟨S1x256, .f32⟩
  | .local _ .vmem, ⟨12, _⟩ => ⟨S256x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x256, .f32⟩
  | .local _ .vmem, ⟨19, _⟩ => ⟨S1x256, .f32⟩
  | .local _ .vmem, ⟨20, _⟩ => ⟨S256x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | _, _ => ⟨S50000x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_c_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_3 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_4 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_5 : Ref sig .tc := ⟨.hbm, 57, rfl⟩
abbrev main_v38 : Ref sig .tc := ⟨.hbm, 58, rfl⟩
abbrev main_v39 : Ref sig .tc := ⟨.hbm, 59, rfl⟩
abbrev main_c_6 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_7 : Ref sig .tc := ⟨.hbm, 68, rfl⟩
abbrev main_v47 : Ref sig .tc := ⟨.hbm, 69, rfl⟩
abbrev main_v48 : Ref sig .tc := ⟨.hbm, 70, rfl⟩
abbrev main_c_8 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_9 : Ref sig .tc := ⟨.hbm, 78, rfl⟩
abbrev main_v55 : Ref sig .tc := ⟨.hbm, 79, rfl⟩
abbrev main_v56 : Ref sig .tc := ⟨.hbm, 80, rfl⟩
abbrev main_c_10 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_11 : Ref sig .tc := ⟨.hbm, 101, rfl⟩
abbrev main_v75 : Ref sig .tc := ⟨.hbm, 102, rfl⟩
abbrev main_cst_12 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_13 : Ref sig .tc := ⟨.hbm, 110, rfl⟩
abbrev main_v82 : Ref sig .tc := ⟨.hbm, 111, rfl⟩
abbrev main_cst_14 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_cst_15 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_call0_cst : Ref sig .tc := ⟨.hbm, 135, rfl⟩
abbrev main_call0_v0 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_c_16 : Ref sig .tc := ⟨.hbm, 140, rfl⟩
abbrev main_v107 : Ref sig .tc := ⟨.hbm, 141, rfl⟩
abbrev main_v108 : Ref sig .tc := ⟨.hbm, 142, rfl⟩
abbrev main_c_17 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_c_18 : Ref sig .tc := ⟨.hbm, 151, rfl⟩
abbrev main_v116 : Ref sig .tc := ⟨.hbm, 152, rfl⟩
abbrev main_v117 : Ref sig .tc := ⟨.hbm, 153, rfl⟩
abbrev main_c_19 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_c_20 : Ref sig .tc := ⟨.hbm, 161, rfl⟩
abbrev main_v124 : Ref sig .tc := ⟨.hbm, 162, rfl⟩
abbrev main_v125 : Ref sig .tc := ⟨.hbm, 163, rfl⟩
abbrev main_c_21 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_cst_22 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_cst_23 : Ref sig .tc := ⟨.hbm, 184, rfl⟩
abbrev main_v144 : Ref sig .tc := ⟨.hbm, 185, rfl⟩
abbrev main_cst_24 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_cst_25 : Ref sig .tc := ⟨.hbm, 193, rfl⟩
abbrev main_v151 : Ref sig .tc := ⟨.hbm, 194, rfl⟩
abbrev main_cst_26 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_cst_27 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_call1_cst : Ref sig .tc := ⟨.hbm, 218, rfl⟩
abbrev main_call1_v0 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_c_28 : Ref sig .tc := ⟨.hbm, 223, rfl⟩
abbrev main_v176 : Ref sig .tc := ⟨.hbm, 224, rfl⟩
abbrev main_v177 : Ref sig .tc := ⟨.hbm, 225, rfl⟩
abbrev main_c_29 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_c_30 : Ref sig .tc := ⟨.hbm, 234, rfl⟩
abbrev main_v185 : Ref sig .tc := ⟨.hbm, 235, rfl⟩
abbrev main_v186 : Ref sig .tc := ⟨.hbm, 236, rfl⟩
abbrev main_c_31 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_v191 : Ref sig .tc := ⟨.hbm, 242, rfl⟩
abbrev main_v192 : Ref sig .tc := ⟨.hbm, 243, rfl⟩
abbrev main_c_32 : Ref sig .tc := ⟨.hbm, 244, rfl⟩
abbrev main_v193 : Ref sig .tc := ⟨.hbm, 245, rfl⟩
abbrev main_v194 : Ref sig .tc := ⟨.hbm, 246, rfl⟩
abbrev main_c_33 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_cst_34 : Ref sig .tc := ⟨.hbm, 254, rfl⟩
abbrev main_v201 : Ref sig .tc := ⟨.hbm, 255, rfl⟩
abbrev main_v202 : Ref sig .tc := ⟨.hbm, 256, rfl⟩
abbrev main_v203 : Ref sig .tc := ⟨.hbm, 257, rfl⟩
abbrev main_v204 : Ref sig .tc := ⟨.hbm, 258, rfl⟩
abbrev main_v205 : Ref sig .tc := ⟨.hbm, 259, rfl⟩
abbrev main_v206 : Ref sig .tc := ⟨.hbm, 260, rfl⟩
abbrev main_v207 : Ref sig .tc := ⟨.hbm, 261, rfl⟩
abbrev main_v208 : Ref sig .tc := ⟨.hbm, 262, rfl⟩
abbrev main_v209 : Ref sig .tc := ⟨.hbm, 263, rfl⟩
abbrev main_v210 : Ref sig .tc := ⟨.hbm, 264, rfl⟩
abbrev main_v211 : Ref sig .tc := ⟨.hbm, 265, rfl⟩
abbrev main_v212 : Ref sig .tc := ⟨.hbm, 266, rfl⟩
abbrev main_cst_35 : Ref sig .tc := ⟨.hbm, 267, rfl⟩
abbrev main_v213 : Ref sig .tc := ⟨.hbm, 268, rfl⟩
abbrev main_cst_36 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_v218 : Ref sig .tc := ⟨.hbm, 274, rfl⟩
abbrev main_v219 : Ref sig .tc := ⟨.hbm, 275, rfl⟩
abbrev main_cst_37 : Ref sig .tc := ⟨.hbm, 276, rfl⟩
abbrev main_v220 : Ref sig .tc := ⟨.hbm, 277, rfl⟩
abbrev main_cst_38 : Ref sig .tc := ⟨.hbm, 278, rfl⟩
abbrev main_v221 : Ref sig .tc := ⟨.hbm, 279, rfl⟩
abbrev main_v222 : Ref sig .tc := ⟨.hbm, 280, rfl⟩
abbrev main_v223 : Ref sig .tc := ⟨.hbm, 281, rfl⟩
abbrev main_v224 : Ref sig .tc := ⟨.hbm, 282, rfl⟩
abbrev main_v225 : Ref sig .tc := ⟨.hbm, 283, rfl⟩
abbrev main_v226 : Ref sig .tc := ⟨.hbm, 284, rfl⟩
abbrev main_v227 : Ref sig .tc := ⟨.hbm, 285, rfl⟩
abbrev main_v228 : Ref sig .tc := ⟨.hbm, 286, rfl⟩
abbrev main_v229 : Ref sig .tc := ⟨.hbm, 287, rfl⟩
abbrev main_v230 : Ref sig .tc := ⟨.hbm, 288, rfl⟩
abbrev main_cst_39 : Ref sig .tc := ⟨.hbm, 289, rfl⟩
abbrev main_v231 : Ref sig .tc := ⟨.hbm, 290, rfl⟩
abbrev main_v232 : Ref sig .tc := ⟨.hbm, 291, rfl⟩
abbrev main_v233 : Ref sig .tc := ⟨.hbm, 292, rfl⟩
abbrev main_v234 : Ref sig .tc := ⟨.hbm, 293, rfl⟩
abbrev main_v235 : Ref sig .tc := ⟨.hbm, 294, rfl⟩
abbrev main_v236 : Ref sig .tc := ⟨.hbm, 295, rfl⟩
abbrev main_v237 : Ref sig .tc := ⟨.hbm, 296, rfl⟩
abbrev main_v238 : Ref sig .tc := ⟨.hbm, 297, rfl⟩
abbrev main_v239 : Ref sig .tc := ⟨.hbm, 298, rfl⟩
abbrev main_v240 : Ref sig .tc := ⟨.hbm, 299, rfl⟩
abbrev main_v241 : Ref sig .tc := ⟨.hbm, 300, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S50000x2_S50000x1_0_0 : S50000x2.Slices ![0, 0] S50000x1
  shapeCasts_S50000x1_S50000 : S50000x1.ShapeCasts S50000
  bcast_S_S50000 : S_.BroadcastsInDim S50000 (![] : Fin 0 → Fin S50000.rank)
  bcast_S50000_S50000x1_0 : S50000.BroadcastsInDim S50000x1 (![0] : Fin 1 → Fin S50000x1.rank)
  slices_S50000x2_S50000x1_0_1 : S50000x2.Slices ![0, 1] S50000x1
  slices_S2x500000_S1x500000_0_0 : S2x500000.Slices ![0, 0] S1x500000
  shapeCasts_S1x500000_S500000 : S1x500000.ShapeCasts S500000
  concatenates_S500000_S50000_S550000_d0 : Shape.Concatenates [S500000, S50000] S550000 0
  slices_S2x500000_S1x500000_1_0 : S2x500000.Slices ![1, 0] S1x500000
  slices_S500000x2_S500000x1_0_0 : S500000x2.Slices ![0, 0] S500000x1
  shapeCasts_S500000x1_S500000 : S500000x1.ShapeCasts S500000
  slices_S500000x2_S500000x1_0_1 : S500000x2.Slices ![0, 1] S500000x1
  shapeCasts_S3x256_S3x1x256 : S3x256.ShapeCasts S3x1x256
  shapeCasts_S3x128_S3x1x128 : S3x128.ShapeCasts S3x1x128
  slices_S3x5x128_S1x5x128_0_0_0 : S3x5x128.Slices ![0, 0, 0] S1x5x128
  shapeCasts_S1x5x128_S5x128 : S1x5x128.ShapeCasts S5x128
  bcast_S_S550000 : S_.BroadcastsInDim S550000 (![] : Fin 0 → Fin S550000.rank)
  bcast_S550000_S550000x1_0 : S550000.BroadcastsInDim S550000x1 (![0] : Fin 1 → Fin S550000x1.rank)
  slices_S3x3x128_S1x3x128_0_0_0 : S3x3x128.Slices ![0, 0, 0] S1x3x128
  shapeCasts_S1x3x128_S3x128 : S1x3x128.ShapeCasts S3x128
  bcast_S_S50000x128 : S_.BroadcastsInDim S50000x128 (![] : Fin 0 → Fin S50000x128.rank)
  slices_S3x128x256_S1x128x256_0_0_0 : S3x128x256.Slices ![0, 0, 0] S1x128x256
  shapeCasts_S1x128x256_S128x256 : S1x128x256.ShapeCasts S128x256
  slices_S3x1x256_S1x1x256_0_0_0 : S3x1x256.Slices ![0, 0, 0] S1x1x256
  shapeCasts_S1x1x256_S1x256 : S1x1x256.ShapeCasts S1x256
  slices_S3x256x128_S1x256x128_0_0_0 : S3x256x128.Slices ![0, 0, 0] S1x256x128
  shapeCasts_S1x256x128_S256x128 : S1x256x128.ShapeCasts S256x128
  slices_S3x1x128_S1x1x128_0_0_0 : S3x1x128.Slices ![0, 0, 0] S1x1x128
  shapeCasts_S1x1x128_S1x128 : S1x1x128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128_S1x128_0_0 : S3x128.Slices ![0, 0] S1x128
  shapeCasts_S1x128_S128 : S1x128.ShapeCasts S128
  slices_S3x5x128_S1x5x128_1_0_0 : S3x5x128.Slices ![1, 0, 0] S1x5x128
  slices_S3x3x128_S1x3x128_1_0_0 : S3x3x128.Slices ![1, 0, 0] S1x3x128
  slices_S3x128x256_S1x128x256_1_0_0 : S3x128x256.Slices ![1, 0, 0] S1x128x256
  slices_S3x1x256_S1x1x256_1_0_0 : S3x1x256.Slices ![1, 0, 0] S1x1x256
  slices_S3x256x128_S1x256x128_1_0_0 : S3x256x128.Slices ![1, 0, 0] S1x256x128
  slices_S3x1x128_S1x1x128_1_0_0 : S3x1x128.Slices ![1, 0, 0] S1x1x128
  slices_S3x128_S1x128_1_0 : S3x128.Slices ![1, 0] S1x128
  slices_S3x5x128_S1x5x128_2_0_0 : S3x5x128.Slices ![2, 0, 0] S1x5x128
  slices_S3x3x128_S1x3x128_2_0_0 : S3x3x128.Slices ![2, 0, 0] S1x3x128
  slices_S3x128x256_S1x128x256_2_0_0 : S3x128x256.Slices ![2, 0, 0] S1x128x256
  slices_S3x1x256_S1x1x256_2_0_0 : S3x1x256.Slices ![2, 0, 0] S1x1x256
  slices_S3x256x128_S1x256x128_2_0_0 : S3x256x128.Slices ![2, 0, 0] S1x256x128
  slices_S3x1x128_S1x1x128_2_0_0 : S3x1x128.Slices ![2, 0, 0] S1x1x128
  slices_S3x128_S1x128_2_0 : S3x128.Slices ![2, 0] S1x128
  gather_S120x128_S50000x1_S50000x128_1_0_n_n_0_1_1128_wf : GatherDims.WF S120x128 S50000x1 S50000x128 [1] [0] [] [0] [] 1 ![1, 128]
  gather_S3x128_S50000x1_S50000x128_1_0_n_n_0_1_1128_wf : GatherDims.WF S3x128 S50000x1 S50000x128 [1] [0] [] [0] [] 1 ![1, 128]
  gather_S5x128_S550000x1_S550000x128_1_0_n_n_0_1_1128_wf : GatherDims.WF S5x128 S550000x1 S550000x128 [1] [0] [] [0] [] 1 ![1, 128]
  gather_S3x128_S550000x1_S550000x128_1_0_n_n_0_1_1128_wf : GatherDims.WF S3x128 S550000x1 S550000x128 [1] [0] [] [0] [] 1 ![1, 128]
  gather_S50000x128_S550000x1_S550000x128_1_0_n_n_0_1_1128_wf : GatherDims.WF S50000x128 S550000x1 S550000x128 [1] [0] [] [0] [] 1 ![1, 128]
  scatter_S50000x128_S550000x1_S550000x128_1_0_0_1_wf : ScatterDims.WF S50000x128 S550000x1 S550000x128 [1] [0] [0] 1
  dot_S5000x128_S128x256_S5000x256_1_0_0_1_n_n_wf : DotDims.WF S5000x128 S128x256 S5000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x256.size a ≤ S128x256.size a
  hwx2_1 : ∀ i : grid2.Coords, EltTy.bits .f32 = 32 ∨ (Rect.block (s := S128x256) S128x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .f32 = 32 ∨ (Rect.block (s := S256x128) S256x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)

variable [Facts₀]

def gather_S120x128_S50000x1_S50000x128_1_0_n_n_0_1_1128 : GatherDims S120x128 S50000x1 S50000x128 where
  offsetDims := [1]
  collapsedSliceDims := [0]
  operandBatchingDims := []
  startIndicesBatchingDims := []
  startIndexMap := [0]
  indexVectorDim := 1
  sliceSizes := ![1, 128]
  wf := gather_S120x128_S50000x1_S50000x128_1_0_n_n_0_1_1128_wf
def gather_S3x128_S50000x1_S50000x128_1_0_n_n_0_1_1128 : GatherDims S3x128 S50000x1 S50000x128 where
  offsetDims := [1]
  collapsedSliceDims := [0]
  operandBatchingDims := []
  startIndicesBatchingDims := []
  startIndexMap := [0]
  indexVectorDim := 1
  sliceSizes := ![1, 128]
  wf := gather_S3x128_S50000x1_S50000x128_1_0_n_n_0_1_1128_wf
def gather_S5x128_S550000x1_S550000x128_1_0_n_n_0_1_1128 : GatherDims S5x128 S550000x1 S550000x128 where
  offsetDims := [1]
  collapsedSliceDims := [0]
  operandBatchingDims := []
  startIndicesBatchingDims := []
  startIndexMap := [0]
  indexVectorDim := 1
  sliceSizes := ![1, 128]
  wf := gather_S5x128_S550000x1_S550000x128_1_0_n_n_0_1_1128_wf
def gather_S3x128_S550000x1_S550000x128_1_0_n_n_0_1_1128 : GatherDims S3x128 S550000x1 S550000x128 where
  offsetDims := [1]
  collapsedSliceDims := [0]
  operandBatchingDims := []
  startIndicesBatchingDims := []
  startIndexMap := [0]
  indexVectorDim := 1
  sliceSizes := ![1, 128]
  wf := gather_S3x128_S550000x1_S550000x128_1_0_n_n_0_1_1128_wf
def gather_S50000x128_S550000x1_S550000x128_1_0_n_n_0_1_1128 : GatherDims S50000x128 S550000x1 S550000x128 where
  offsetDims := [1]
  collapsedSliceDims := [0]
  operandBatchingDims := []
  startIndicesBatchingDims := []
  startIndexMap := [0]
  indexVectorDim := 1
  sliceSizes := ![1, 128]
  wf := gather_S50000x128_S550000x1_S550000x128_1_0_n_n_0_1_1128_wf
def scatter_S50000x128_S550000x1_S550000x128_1_0_0_1 : ScatterDims S50000x128 S550000x1 S550000x128 where
  updateWindowDims := [1]
  insertedWindowDims := [0]
  scatterDimsToOperandDims := [0]
  indexVectorDim := 1
  wf := scatter_S50000x128_S550000x1_S550000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_v65) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v67) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v69) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v71) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v73) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v74) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v134) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v136) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v138) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v140) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v142) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v143) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v203) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v205) S128x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v207) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v209) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v211) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v212) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x2 : Shape := ⟨2, ![50000, 2]⟩
abbrev S2x500000 : Shape := ⟨2, ![2, 500000]⟩
abbrev S500000x2 : Shape := ⟨2, ![500000, 2]⟩
abbrev S120x128 : Shape := ⟨2, ![120, 128]⟩
abbrev S3x128 : Shape := ⟨2, ![3, 128]⟩
abbrev S3x5x128 : Shape := ⟨3, ![3, 5, 128]⟩
abbrev S3x3x128 : Shape := ⟨3, ![3, 3, 128]⟩
abbrev S3x128x256 : Shape := ⟨3, ![3, 128, 256]⟩
abbrev S3x256 : Shape := ⟨2, ![3, 256]⟩
abbrev S3x256x128 : Shape := ⟨3, ![3, 256, 128]⟩
abbrev S50000x1 : Shape := ⟨2, ![50000, 1]⟩
abbrev S50000 : Shape := ⟨1, ![50000]⟩
abbrev S_ : Shape := ⟨0, ![]⟩
abbrev S50000x128 : Shape := ⟨2, ![50000, 128]⟩
abbrev S1x500000 : Shape := ⟨2, ![1, 500000]⟩
abbrev S500000 : Shape := ⟨1, ![500000]⟩
abbrev S550000 : Shape := ⟨1, ![550000]⟩
abbrev S500000x1 : Shape := ⟨2, ![500000, 1]⟩
abbrev S1x5x128 : Shape := ⟨3, ![1, 5, 128]⟩
abbrev S5x128 : Shape := ⟨2, ![5, 128]⟩
abbrev S550000x1 : Shape := ⟨2, ![550000, 1]⟩
abbrev S550000x128 : Shape := ⟨2, ![550000, 128]⟩
abbrev S1x3x128 : Shape := ⟨3, ![1, 3, 128]⟩
abbrev S1x128x256 : Shape := ⟨3, ![1, 128, 256]⟩
abbrev S128x256 : Shape := ⟨2, ![128, 256]⟩
abbrev S50000x256 : Shape := ⟨2, ![50000, 256]⟩
abbrev S1x256 : Shape := ⟨2, ![1, 256]⟩
abbrev S256 : Shape := ⟨1, ![256]⟩
abbrev S1x256x128 : Shape := ⟨3, ![1, 256, 128]⟩
abbrev S256x128 : Shape := ⟨2, ![256, 128]⟩
abbrev S1x128 : Shape := ⟨2, ![1, 128]⟩
abbrev S128 : Shape := ⟨1, ![128]⟩

abbrev nBuf : Space → Nat
  | .hbm => 329
  | .vmem => 0
  | .smem => 0
  | _ => 0

abbrev hbmTy0_0 (i : Nat) : BufTy := match i % 128 with
  | 0 => ⟨S50000x2, .i32⟩
  | 1 => ⟨S2x500000, .i32⟩
  | 2 => ⟨S500000x2, .i32⟩
  | 3 => ⟨S120x128, .f32⟩
  | 4 => ⟨S3x128, .f32⟩
  | 5 => ⟨S3x5x128, .f32⟩
  | 6 => ⟨S3x3x128, .f32⟩
  | 7 => ⟨S3x128x256, .f32⟩
  | 8 => ⟨S3x256, .f32⟩
  | 9 => ⟨S3x256x128, .f32⟩
  | 10 => ⟨S3x128, .f32⟩
  | 11 => ⟨S3x128, .f32⟩
  | 12 => ⟨S3x128, .f32⟩
  | 13 => ⟨S50000x1, .i32⟩
  | 14 => ⟨S50000, .i32⟩
  | 15 => ⟨S_, .i32⟩
  | 16 => ⟨S50000, .i32⟩
  | 17 => ⟨S50000, .i1⟩
  | 18 => ⟨S_, .i32⟩
  | 19 => ⟨S50000, .i32⟩
  | 20 => ⟨S50000, .i32⟩
  | 21 => ⟨S50000, .i32⟩
  | 22 => ⟨S50000x1, .i32⟩
  | 23 => ⟨S50000x128, .f32⟩
  | 24 => ⟨S50000x1, .i32⟩
  | 25 => ⟨S50000, .i32⟩
  | 26 => ⟨S_, .i32⟩
  | 27 => ⟨S50000, .i32⟩
  | 28 => ⟨S50000, .i1⟩
  | 29 => ⟨S_, .i32⟩
  | 30 => ⟨S50000, .i32⟩
  | 31 => ⟨S50000, .i32⟩
  | 32 => ⟨S50000, .i32⟩
  | 33 => ⟨S50000x1, .i32⟩
  | 34 => ⟨S50000x128, .f32⟩
  | 35 => ⟨S50000x128, .f32⟩
  | 36 => ⟨S50000, .i32⟩
  | 37 => ⟨S1x500000, .i32⟩
  | 38 => ⟨S500000, .i32⟩
  | 39 => ⟨S550000, .i32⟩
  | 40 => ⟨S1x500000, .i32⟩
  | 41 => ⟨S500000, .i32⟩
  | 42 => ⟨S550000, .i32⟩
  | 43 => ⟨S500000x1, .i32⟩
  | 44 => ⟨S500000, .i32⟩
  | 45 => ⟨S_, .i32⟩
  | 46 => ⟨S50000, .i32⟩
  | 47 => ⟨S550000, .i32⟩
  | 48 => ⟨S500000x1, .i32⟩
  | 49 => ⟨S500000, .i32⟩
  | 50 => ⟨S_, .i32⟩
  | 51 => ⟨S50000, .i32⟩
  | 52 => ⟨S550000, .i32⟩
  | 53 => ⟨S1x5x128, .f32⟩
  | 54 => ⟨S5x128, .f32⟩
  | 55 => ⟨S_, .i32⟩
  | 56 => ⟨S550000, .i32⟩
  | 57 => ⟨S550000, .i1⟩
  | 58 => ⟨S_, .i32⟩
  | 59 => ⟨S550000, .i32⟩
  | 60 => ⟨S550000, .i32⟩
  | 61 => ⟨S550000, .i32⟩
  | 62 => ⟨S550000x1, .i32⟩
  | 63 => ⟨S550000x128, .f32⟩
  | 64 => ⟨S1x3x128, .f32⟩
  | 65 => ⟨S3x128, .f32⟩
  | 66 => ⟨S_, .i32⟩
  | 67 => ⟨S550000, .i32⟩
  | 68 => ⟨S550000, .i1⟩
  | 69 => ⟨S_, .i32⟩
  | 70 => ⟨S550000, .i32⟩
  | 71 => ⟨S550000, .i32⟩
  | 72 => ⟨S550000, .i32⟩
  | 73 => ⟨S550000x1, .i32⟩
  | 74 => ⟨S550000x128, .f32⟩
  | 75 => ⟨S550000x128, .f32⟩
  | 76 => ⟨S_, .i32⟩
  | 77 => ⟨S550000, .i32⟩
  | 78 => ⟨S550000, .i1⟩
  | 79 => ⟨S_, .i32⟩
  | 80 => ⟨S550000, .i32⟩
  | 81 => ⟨S550000, .i32⟩
  | 82 => ⟨S550000, .i32⟩
  | 83 => ⟨S550000x1, .i32⟩
  | 84 => ⟨S550000x128, .f32⟩
  | 85 => ⟨S550000x128, .f32⟩
  | 86 => ⟨S_, .f32⟩
  | 87 => ⟨S50000x128, .f32⟩
  | 88 => ⟨S550000x1, .i32⟩
  | 89 => ⟨S50000x128, .f32⟩
  | 90 => ⟨S1x128x256, .f32⟩
  | 91 => ⟨S128x256, .f32⟩
  | 92 => ⟨S50000x256, .f32⟩
  | 93 => ⟨S1x256, .f32⟩
  | 94 => ⟨S256, .f32⟩
  | 95 => ⟨S1x256, .f32⟩
  | 96 => ⟨S50000x256, .f32⟩
  | 97 => ⟨S50000x256, .f32⟩
  | 98 => ⟨S_, .f32⟩
  | 99 => ⟨S50000x256, .f32⟩
  | 100 => ⟨S50000x256, .f32⟩
  | 101 => ⟨S1x256x128, .f32⟩
  | 102 => ⟨S256x128, .f32⟩
  | 103 => ⟨S50000x128, .f32⟩
  | 104 => ⟨S1x128, .f32⟩
  | 105 => ⟨S128, .f32⟩
  | 106 => ⟨S1x128, .f32⟩
  | 107 => ⟨S50000x128, .f32⟩
  | 108 => ⟨S50000x128, .f32⟩
  | 109 => ⟨S_, .f32⟩
  | 110 => ⟨S128, .f32⟩
  | 111 => ⟨S_, .f32⟩
  | 112 => ⟨S128, .f32⟩
  | 113 => ⟨S128, .f32⟩
  | 114 => ⟨S1x128, .f32⟩
  | 115 => ⟨S50000x128, .f32⟩
  | 116 => ⟨S50000x128, .f32⟩
  | 117 => ⟨S50000x128, .f32⟩
  | 118 => ⟨S_, .f32⟩
  | 119 => ⟨S128, .f32⟩
  | 120 => ⟨S_, .f32⟩
  | 121 => ⟨S128, .f32⟩
  | 122 => ⟨S128, .f32⟩
  | 123 => ⟨S1x128, .f32⟩
  | 124 => ⟨S128, .f32⟩
  | 125 => ⟨S1x128, .f32⟩
  | 126 => ⟨S50000x128, .f32⟩
  | 127 => ⟨S50000x128, .f32⟩
  | _ => ⟨S50000x2, .i32⟩

abbrev hbmTy0_1 (i : Nat) : BufTy := match i % 128 with
  | 0 => ⟨S1x128, .f32⟩
  | 1 => ⟨S50000x128, .f32⟩
  | 2 => ⟨S50000x128, .f32⟩
  | 3 => ⟨S_, .f32⟩
  | 4 => ⟨S128, .f32⟩
  | 5 => ⟨S128, .f32⟩
  | 6 => ⟨S128, .f32⟩
  | 7 => ⟨S1x128, .f32⟩
  | 8 => ⟨S50000x128, .f32⟩
  | 9 => ⟨S50000x128, .f32⟩
  | 10 => ⟨S1x128, .f32⟩
  | 11 => ⟨S128, .f32⟩
  | 12 => ⟨S1x128, .f32⟩
  | 13 => ⟨S50000x128, .f32⟩
  | 14 => ⟨S50000x128, .f32⟩
  | 15 => ⟨S_, .f32⟩
  | 16 => ⟨S50000x128, .f32⟩
  | 17 => ⟨S50000x128, .f32⟩
  | 18 => ⟨S1x5x128, .f32⟩
  | 19 => ⟨S5x128, .f32⟩
  | 20 => ⟨S_, .i32⟩
  | 21 => ⟨S550000, .i32⟩
  | 22 => ⟨S550000, .i1⟩
  | 23 => ⟨S_, .i32⟩
  | 24 => ⟨S550000, .i32⟩
  | 25 => ⟨S550000, .i32⟩
  | 26 => ⟨S550000, .i32⟩
  | 27 => ⟨S550000x1, .i32⟩
  | 28 => ⟨S550000x128, .f32⟩
  | 29 => ⟨S1x3x128, .f32⟩
  | 30 => ⟨S3x128, .f32⟩
  | 31 => ⟨S_, .i32⟩
  | 32 => ⟨S550000, .i32⟩
  | 33 => ⟨S550000, .i1⟩
  | 34 => ⟨S_, .i32⟩
  | 35 => ⟨S550000, .i32⟩
  | 36 => ⟨S550000, .i32⟩
  | 37 => ⟨S550000, .i32⟩
  | 38 => ⟨S550000x1, .i32⟩
  | 39 => ⟨S550000x128, .f32⟩
  | 40 => ⟨S550000x128, .f32⟩
  | 41 => ⟨S_, .i32⟩
  | 42 => ⟨S550000, .i32⟩
  | 43 => ⟨S550000, .i1⟩
  | 44 => ⟨S_, .i32⟩
  | 45 => ⟨S550000, .i32⟩
  | 46 => ⟨S550000, .i32⟩
  | 47 => ⟨S550000, .i32⟩
  | 48 => ⟨S550000x1, .i32⟩
  | 49 => ⟨S550000x128, .f32⟩
  | 50 => ⟨S550000x128, .f32⟩
  | 51 => ⟨S_, .f32⟩
  | 52 => ⟨S50000x128, .f32⟩
  | 53 => ⟨S550000x1, .i32⟩
  | 54 => ⟨S50000x128, .f32⟩
  | 55 => ⟨S1x128x256, .f32⟩
  | 56 => ⟨S128x256, .f32⟩
  | 57 => ⟨S50000x256, .f32⟩
  | 58 => ⟨S1x256, .f32⟩
  | 59 => ⟨S256, .f32⟩
  | 60 => ⟨S1x256, .f32⟩
  | 61 => ⟨S50000x256, .f32⟩
  | 62 => ⟨S50000x256, .f32⟩
  | 63 => ⟨S_, .f32⟩
  | 64 => ⟨S50000x256, .f32⟩
  | 65 => ⟨S50000x256, .f32⟩
  | 66 => ⟨S1x256x128, .f32⟩
  | 67 => ⟨S256x128, .f32⟩
  | 68 => ⟨S50000x128, .f32⟩
  | 69 => ⟨S1x128, .f32⟩
  | 70 => ⟨S128, .f32⟩
  | 71 => ⟨S1x128, .f32⟩
  | 72 => ⟨S50000x128, .f32⟩
  | 73 => ⟨S50000x128, .f32⟩
  | 74 => ⟨S_, .f32⟩
  | 75 => ⟨S128, .f32⟩
  | 76 => ⟨S_, .f32⟩
  | 77 => ⟨S128, .f32⟩
  | 78 => ⟨S128, .f32⟩
  | 79 => ⟨S1x128, .f32⟩
  | 80 => ⟨S50000x128, .f32⟩
  | 81 => ⟨S50000x128, .f32⟩
  | 82 => ⟨S50000x128, .f32⟩
  | 83 => ⟨S_, .f32⟩
  | 84 => ⟨S128, .f32⟩
  | 85 => ⟨S_, .f32⟩
  | 86 => ⟨S128, .f32⟩
  | 87 => ⟨S128, .f32⟩
  | 88 => ⟨S1x128, .f32⟩
  | 89 => ⟨S128, .f32⟩
  | 90 => ⟨S1x128, .f32⟩
  | 91 => ⟨S50000x128, .f32⟩
  | 92 => ⟨S50000x128, .f32⟩
  | 93 => ⟨S1x128, .f32⟩
  | 94 => ⟨S50000x128, .f32⟩
  | 95 => ⟨S50000x128, .f32⟩
  | 96 => ⟨S_, .f32⟩
  | 97 => ⟨S128, .f32⟩
  | 98 => ⟨S128, .f32⟩
  | 99 => ⟨S128, .f32⟩
  | 100 => ⟨S1x128, .f32⟩
  | 101 => ⟨S50000x128, .f32⟩
  | 102 => ⟨S50000x128, .f32⟩
  | 103 => ⟨S1x128, .f32⟩
  | 104 => ⟨S128, .f32⟩
  | 105 => ⟨S1x128, .f32⟩
  | 106 => ⟨S50000x128, .f32⟩
  | 107 => ⟨S50000x128, .f32⟩
  | 108 => ⟨S_, .f32⟩
  | 109 => ⟨S50000x128, .f32⟩
  | 110 => ⟨S50000x128, .f32⟩
  | 111 => ⟨S1x5x128, .f32⟩
  | 112 => ⟨S5x128, .f32⟩
  | 113 => ⟨S_, .i32⟩
  | 114 => ⟨S550000, .i32⟩
  | 115 => ⟨S550000, .i1⟩
  | 116 => ⟨S_, .i32⟩
  | 117 => ⟨S550000, .i32⟩
  | 118 => ⟨S550000, .i32⟩
  | 119 => ⟨S550000, .i32⟩
  | 120 => ⟨S550000x1, .i32⟩
  | 121 => ⟨S550000x128, .f32⟩
  | 122 => ⟨S1x3x128, .f32⟩
  | 123 => ⟨S3x128, .f32⟩
  | 124 => ⟨S_, .i32⟩
  | 125 => ⟨S550000, .i32⟩
  | 126 => ⟨S550000, .i1⟩
  | 127 => ⟨S_, .i32⟩
  | _ => ⟨S50000x2, .i32⟩

abbrev hbmTy0_2 (i : Nat) : BufTy := match i % 128 with
  | 0 => ⟨S550000, .i32⟩
  | 1 => ⟨S550000, .i32⟩
  | 2 => ⟨S550000, .i32⟩
  | 3 => ⟨S550000x1, .i32⟩
  | 4 => ⟨S550000x128, .f32⟩
  | 5 => ⟨S550000x128, .f32⟩
  | 6 => ⟨S_, .i32⟩
  | 7 => ⟨S550000, .i32⟩
  | 8 => ⟨S550000, .i1⟩
  | 9 => ⟨S_, .i32⟩
  | 10 => ⟨S550000, .i32⟩
  | 11 => ⟨S550000, .i32⟩
  | 12 => ⟨S550000, .i32⟩
  | 13 => ⟨S550000x1, .i32⟩
  | 14 => ⟨S550000x128, .f32⟩
  | 15 => ⟨S550000x128, .f32⟩
  | 16 => ⟨S_, .f32⟩
  | 17 => ⟨S50000x128, .f32⟩
  | 18 => ⟨S550000x1, .i32⟩
  | 19 => ⟨S50000x128, .f32⟩
  | 20 => ⟨S1x128x256, .f32⟩
  | 21 => ⟨S128x256, .f32⟩
  | 22 => ⟨S50000x256, .f32⟩
  | 23 => ⟨S1x256, .f32⟩
  | 24 => ⟨S256, .f32⟩
  | 25 => ⟨S1x256, .f32⟩
  | 26 => ⟨S50000x256, .f32⟩
  | 27 => ⟨S50000x256, .f32⟩
  | 28 => ⟨S_, .f32⟩
  | 29 => ⟨S50000x256, .f32⟩
  | 30 => ⟨S50000x256, .f32⟩
  | 31 => ⟨S1x256x128, .f32⟩
  | 32 => ⟨S256x128, .f32⟩
  | 33 => ⟨S50000x128, .f32⟩
  | 34 => ⟨S1x128, .f32⟩
  | 35 => ⟨S128, .f32⟩
  | 36 => ⟨S1x128, .f32⟩
  | 37 => ⟨S50000x128, .f32⟩
  | 38 => ⟨S50000x128, .f32⟩
  | 39 => ⟨S_, .f32⟩
  | 40 => ⟨S128, .f32⟩
  | 41 => ⟨S_, .f32⟩
  | 42 => ⟨S128, .f32⟩
  | 43 => ⟨S128, .f32⟩
  | 44 => ⟨S1x128, .f32⟩
  | 45 => ⟨S50000x128, .f32⟩
  | 46 => ⟨S50000x128, .f32⟩
  | 47 => ⟨S50000x128, .f32⟩
  | 48 => ⟨S_, .f32⟩
  | 49 => ⟨S128, .f32⟩
  | 50 => ⟨S_, .f32⟩
  | 51 => ⟨S128, .f32⟩
  | 52 => ⟨S128, .f32⟩
  | 53 => ⟨S1x128, .f32⟩
  | 54 => ⟨S128, .f32⟩
  | 55 => ⟨S1x128, .f32⟩
  | 56 => ⟨S50000x128, .f32⟩
  | 57 => ⟨S50000x128, .f32⟩
  | 58 => ⟨S1x128, .f32⟩
  | 59 => ⟨S50000x128, .f32⟩
  | 60 => ⟨S50000x128, .f32⟩
  | 61 => ⟨S_, .f32⟩
  | 62 => ⟨S128, .f32⟩
  | 63 => ⟨S128, .f32⟩
  | 64 => ⟨S128, .f32⟩
  | 65 => ⟨S1x128, .f32⟩
  | 66 => ⟨S50000x128, .f32⟩
  | 67 => ⟨S50000x128, .f32⟩
  | 68 => ⟨S1x128, .f32⟩
  | 69 => ⟨S128, .f32⟩
  | 70 => ⟨S1x128, .f32⟩
  | 71 => ⟨S50000x128, .f32⟩
  | 72 => ⟨S50000x128, .f32⟩
  | _ => ⟨S50000x2, .i32⟩

abbrev hbmTy (i : Nat) : BufTy := match i / 128 with
  | 0 => hbmTy0_0 i
  | 1 => hbmTy0_1 i
  | 2 => hbmTy0_2 i
  | _ => ⟨S50000x2, .i32⟩

abbrev bufTy : (tb : Table) → Fin (tcTables nBuf tb) → BufTy
  | .hbm, ⟨i, _⟩ => hbmTy i
  | _, _ => ⟨S50000x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_c_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_3 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_4 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_5 : Ref sig .tc := ⟨.hbm, 55, rfl⟩
abbrev main_v36 : Ref sig .tc := ⟨.hbm, 56, rfl⟩
abbrev main_v37 : Ref sig .tc := ⟨.hbm, 57, rfl⟩
abbrev main_c_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_7 : Ref sig .tc := ⟨.hbm, 66, rfl⟩
abbrev main_v45 : Ref sig .tc := ⟨.hbm, 67, rfl⟩
abbrev main_v46 : Ref sig .tc := ⟨.hbm, 68, rfl⟩
abbrev main_c_8 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_9 : Ref sig .tc := ⟨.hbm, 76, rfl⟩
abbrev main_v53 : Ref sig .tc := ⟨.hbm, 77, rfl⟩
abbrev main_v54 : Ref sig .tc := ⟨.hbm, 78, rfl⟩
abbrev main_c_10 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_call0_cst : Ref sig .tc := ⟨.hbm, 98, rfl⟩
abbrev main_call0_v0 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_11 : Ref sig .tc := ⟨.hbm, 109, rfl⟩
abbrev main_v81 : Ref sig .tc := ⟨.hbm, 110, rfl⟩
abbrev main_cst_12 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_13 : Ref sig .tc := ⟨.hbm, 118, rfl⟩
abbrev main_v88 : Ref sig .tc := ⟨.hbm, 119, rfl⟩
abbrev main_cst_14 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_cst_15 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_call1_cst : Ref sig .tc := ⟨.hbm, 143, rfl⟩
abbrev main_call1_v0 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_c_16 : Ref sig .tc := ⟨.hbm, 148, rfl⟩
abbrev main_v113 : Ref sig .tc := ⟨.hbm, 149, rfl⟩
abbrev main_v114 : Ref sig .tc := ⟨.hbm, 150, rfl⟩
abbrev main_c_17 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_c_18 : Ref sig .tc := ⟨.hbm, 159, rfl⟩
abbrev main_v122 : Ref sig .tc := ⟨.hbm, 160, rfl⟩
abbrev main_v123 : Ref sig .tc := ⟨.hbm, 161, rfl⟩
abbrev main_c_19 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_c_20 : Ref sig .tc := ⟨.hbm, 169, rfl⟩
abbrev main_v130 : Ref sig .tc := ⟨.hbm, 170, rfl⟩
abbrev main_v131 : Ref sig .tc := ⟨.hbm, 171, rfl⟩
abbrev main_c_21 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_cst_22 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_call2_cst : Ref sig .tc := ⟨.hbm, 191, rfl⟩
abbrev main_call2_v0 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_cst_23 : Ref sig .tc := ⟨.hbm, 202, rfl⟩
abbrev main_v158 : Ref sig .tc := ⟨.hbm, 203, rfl⟩
abbrev main_cst_24 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_cst_25 : Ref sig .tc := ⟨.hbm, 211, rfl⟩
abbrev main_v165 : Ref sig .tc := ⟨.hbm, 212, rfl⟩
abbrev main_cst_26 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_cst_27 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_v186 : Ref sig .tc := ⟨.hbm, 235, rfl⟩
abbrev main_call3_cst : Ref sig .tc := ⟨.hbm, 236, rfl⟩
abbrev main_call3_v0 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_c_28 : Ref sig .tc := ⟨.hbm, 241, rfl⟩
abbrev main_v190 : Ref sig .tc := ⟨.hbm, 242, rfl⟩
abbrev main_v191 : Ref sig .tc := ⟨.hbm, 243, rfl⟩
abbrev main_c_29 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_c_30 : Ref sig .tc := ⟨.hbm, 252, rfl⟩
abbrev main_v199 : Ref sig .tc := ⟨.hbm, 253, rfl⟩
abbrev main_v200 : Ref sig .tc := ⟨.hbm, 254, rfl⟩
abbrev main_c_31 : Ref sig .tc := ⟨.hbm, 255, rfl⟩
abbrev main_v201 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_v206 : Ref sig .tc := ⟨.hbm, 261, rfl⟩
abbrev main_c_32 : Ref sig .tc := ⟨.hbm, 262, rfl⟩
abbrev main_v207 : Ref sig .tc := ⟨.hbm, 263, rfl⟩
abbrev main_v208 : Ref sig .tc := ⟨.hbm, 264, rfl⟩
abbrev main_c_33 : Ref sig .tc := ⟨.hbm, 265, rfl⟩
abbrev main_v209 : Ref sig .tc := ⟨.hbm, 266, rfl⟩
abbrev main_v210 : Ref sig .tc := ⟨.hbm, 267, rfl⟩
abbrev main_v211 : Ref sig .tc := ⟨.hbm, 268, rfl⟩
abbrev main_v212 : Ref sig .tc := ⟨.hbm, 269, rfl⟩
abbrev main_v213 : Ref sig .tc := ⟨.hbm, 270, rfl⟩
abbrev main_v214 : Ref sig .tc := ⟨.hbm, 271, rfl⟩
abbrev main_cst_34 : Ref sig .tc := ⟨.hbm, 272, rfl⟩
abbrev main_v215 : Ref sig .tc := ⟨.hbm, 273, rfl⟩
abbrev main_v216 : Ref sig .tc := ⟨.hbm, 274, rfl⟩
abbrev main_v217 : Ref sig .tc := ⟨.hbm, 275, rfl⟩
abbrev main_v218 : Ref sig .tc := ⟨.hbm, 276, rfl⟩
abbrev main_v219 : Ref sig .tc := ⟨.hbm, 277, rfl⟩
abbrev main_v220 : Ref sig .tc := ⟨.hbm, 278, rfl⟩
abbrev main_v221 : Ref sig .tc := ⟨.hbm, 279, rfl⟩
abbrev main_v222 : Ref sig .tc := ⟨.hbm, 280, rfl⟩
abbrev main_v223 : Ref sig .tc := ⟨.hbm, 281, rfl⟩
abbrev main_v224 : Ref sig .tc := ⟨.hbm, 282, rfl⟩
abbrev main_v225 : Ref sig .tc := ⟨.hbm, 283, rfl⟩
abbrev main_call4_cst : Ref sig .tc := ⟨.hbm, 284, rfl⟩
abbrev main_call4_v0 : Ref sig .tc := ⟨.hbm, 285, rfl⟩
abbrev main_v226 : Ref sig .tc := ⟨.hbm, 286, rfl⟩
abbrev main_v227 : Ref sig .tc := ⟨.hbm, 287, rfl⟩
abbrev main_v228 : Ref sig .tc := ⟨.hbm, 288, rfl⟩
abbrev main_v229 : Ref sig .tc := ⟨.hbm, 289, rfl⟩
abbrev main_v230 : Ref sig .tc := ⟨.hbm, 290, rfl⟩
abbrev main_v231 : Ref sig .tc := ⟨.hbm, 291, rfl⟩
abbrev main_v232 : Ref sig .tc := ⟨.hbm, 292, rfl⟩
abbrev main_v233 : Ref sig .tc := ⟨.hbm, 293, rfl⟩
abbrev main_v234 : Ref sig .tc := ⟨.hbm, 294, rfl⟩
abbrev main_cst_35 : Ref sig .tc := ⟨.hbm, 295, rfl⟩
abbrev main_v235 : Ref sig .tc := ⟨.hbm, 296, rfl⟩
abbrev main_cst_36 : Ref sig .tc := ⟨.hbm, 297, rfl⟩
abbrev main_v236 : Ref sig .tc := ⟨.hbm, 298, rfl⟩
abbrev main_v237 : Ref sig .tc := ⟨.hbm, 299, rfl⟩
abbrev main_v238 : Ref sig .tc := ⟨.hbm, 300, rfl⟩
abbrev main_v239 : Ref sig .tc := ⟨.hbm, 301, rfl⟩
abbrev main_v240 : Ref sig .tc := ⟨.hbm, 302, rfl⟩
abbrev main_v241 : Ref sig .tc := ⟨.hbm, 303, rfl⟩
abbrev main_cst_37 : Ref sig .tc := ⟨.hbm, 304, rfl⟩
abbrev main_v242 : Ref sig .tc := ⟨.hbm, 305, rfl⟩
abbrev main_cst_38 : Ref sig .tc := ⟨.hbm, 306, rfl⟩
abbrev main_v243 : Ref sig .tc := ⟨.hbm, 307, rfl⟩
abbrev main_v244 : Ref sig .tc := ⟨.hbm, 308, rfl⟩
abbrev main_v245 : Ref sig .tc := ⟨.hbm, 309, rfl⟩
abbrev main_v246 : Ref sig .tc := ⟨.hbm, 310, rfl⟩
abbrev main_v247 : Ref sig .tc := ⟨.hbm, 311, rfl⟩
abbrev main_v248 : Ref sig .tc := ⟨.hbm, 312, rfl⟩
abbrev main_v249 : Ref sig .tc := ⟨.hbm, 313, rfl⟩
abbrev main_v250 : Ref sig .tc := ⟨.hbm, 314, rfl⟩
abbrev main_v251 : Ref sig .tc := ⟨.hbm, 315, rfl⟩
abbrev main_v252 : Ref sig .tc := ⟨.hbm, 316, rfl⟩
abbrev main_cst_39 : Ref sig .tc := ⟨.hbm, 317, rfl⟩
abbrev main_v253 : Ref sig .tc := ⟨.hbm, 318, rfl⟩
abbrev main_v254 : Ref sig .tc := ⟨.hbm, 319, rfl⟩
abbrev main_v255 : Ref sig .tc := ⟨.hbm, 320, rfl⟩
abbrev main_v256 : Ref sig .tc := ⟨.hbm, 321, rfl⟩
abbrev main_v257 : Ref sig .tc := ⟨.hbm, 322, rfl⟩
abbrev main_v258 : Ref sig .tc := ⟨.hbm, 323, rfl⟩
abbrev main_v259 : Ref sig .tc := ⟨.hbm, 324, rfl⟩
abbrev main_v260 : Ref sig .tc := ⟨.hbm, 325, rfl⟩
abbrev main_v261 : Ref sig .tc := ⟨.hbm, 326, rfl⟩
abbrev main_v262 : Ref sig .tc := ⟨.hbm, 327, rfl⟩
abbrev main_v263 : Ref sig .tc := ⟨.hbm, 328, rfl⟩

abbrev nD : Nat := 1
abbrev τ : Topo := Topo.v7x

variable {F : FTy → Type} [FloatOps F]

class Facts₀ : Prop where
  slices_S50000x2_S50000x1_0_0 : S50000x2.Slices ![0, 0] S50000x1
  shapeCasts_S50000x1_S50000 : S50000x1.ShapeCasts S50000
  bcast_S_S50000 : S_.BroadcastsInDim S50000 (![] : Fin 0 → Fin S50000.rank)
  bcast_S50000_S50000x1_0 : S50000.BroadcastsInDim S50000x1 (![0] : Fin 1 → Fin S50000x1.rank)
  slices_S50000x2_S50000x1_0_1 : S50000x2.Slices ![0, 1] S50000x1
  slices_S2x500000_S1x500000_0_0 : S2x500000.Slices ![0, 0] S1x500000
  shapeCasts_S1x500000_S500000 : S1x500000.ShapeCasts S500000
  concatenates_S500000_S50000_S550000_d0 : Shape.Concatenates [S500000, S50000] S550000 0
  slices_S2x500000_S1x500000_1_0 : S2x500000.Slices ![1, 0] S1x500000
  slices_S500000x2_S500000x1_0_0 : S500000x2.Slices ![0, 0] S500000x1
  shapeCasts_S500000x1_S500000 : S500000x1.ShapeCasts S500000
  slices_S500000x2_S500000x1_0_1 : S500000x2.Slices ![0, 1] S500000x1
  slices_S3x5x128_S1x5x128_0_0_0 : S3x5x128.Slices ![0, 0, 0] S1x5x128
  shapeCasts_S1x5x128_S5x128 : S1x5x128.ShapeCasts S5x128
  bcast_S_S550000 : S_.BroadcastsInDim S550000 (![] : Fin 0 → Fin S550000.rank)
  bcast_S550000_S550000x1_0 : S550000.BroadcastsInDim S550000x1 (![0] : Fin 1 → Fin S550000x1.rank)
  slices_S3x3x128_S1x3x128_0_0_0 : S3x3x128.Slices ![0, 0, 0] S1x3x128
  shapeCasts_S1x3x128_S3x128 : S1x3x128.ShapeCasts S3x128
  bcast_S_S50000x128 : S_.BroadcastsInDim S50000x128 (![] : Fin 0 → Fin S50000x128.rank)
  slices_S3x128x256_S1x128x256_0_0_0 : S3x128x256.Slices ![0, 0, 0] S1x128x256
  shapeCasts_S1x128x256_S128x256 : S1x128x256.ShapeCasts S128x256
  slices_S3x256_S1x256_0_0 : S3x256.Slices ![0, 0] S1x256
  shapeCasts_S1x256_S256 : S1x256.ShapeCasts S256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  slices_S3x256x128_S1x256x128_0_0_0 : S3x256x128.Slices ![0, 0, 0] S1x256x128
  shapeCasts_S1x256x128_S256x128 : S1x256x128.ShapeCasts S256x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  slices_S3x5x128_S1x5x128_1_0_0 : S3x5x128.Slices ![1, 0, 0] S1x5x128
  slices_S3x3x128_S1x3x128_1_0_0 : S3x3x128.Slices ![1, 0, 0] S1x3x128
  slices_S3x128x256_S1x128x256_1_0_0 : S3x128x256.Slices ![1, 0, 0] S1x128x256
  slices_S3x256_S1x256_1_0 : S3x256.Slices ![1, 0] S1x256
  slices_S3x256x128_S1x256x128_1_0_0 : S3x256x128.Slices ![1, 0, 0] S1x256x128
  slices_S3x128_S1x128_1_0 : S3x128.Slices ![1, 0] S1x128
  slices_S3x5x128_S1x5x128_2_0_0 : S3x5x128.Slices ![2, 0, 0] S1x5x128
  slices_S3x3x128_S1x3x128_2_0_0 : S3x3x128.Slices ![2, 0, 0] S1x3x128
  slices_S3x128x256_S1x128x256_2_0_0 : S3x128x256.Slices ![2, 0, 0] S1x128x256
  slices_S3x256_S1x256_2_0 : S3x256.Slices ![2, 0] S1x256
  slices_S3x256x128_S1x256x128_2_0_0 : S3x256x128.Slices ![2, 0, 0] S1x256x128
  slices_S3x128_S1x128_2_0 : S3x128.Slices ![2, 0] S1x128
  gather_S120x128_S50000x1_S50000x128_1_0_n_n_0_1_1128_wf : GatherDims.WF S120x128 S50000x1 S50000x128 [1] [0] [] [0] [] 1 ![1, 128]
  gather_S3x128_S50000x1_S50000x128_1_0_n_n_0_1_1128_wf : GatherDims.WF S3x128 S50000x1 S50000x128 [1] [0] [] [0] [] 1 ![1, 128]
  gather_S5x128_S550000x1_S550000x128_1_0_n_n_0_1_1128_wf : GatherDims.WF S5x128 S550000x1 S550000x128 [1] [0] [] [0] [] 1 ![1, 128]
  gather_S3x128_S550000x1_S550000x128_1_0_n_n_0_1_1128_wf : GatherDims.WF S3x128 S550000x1 S550000x128 [1] [0] [] [0] [] 1 ![1, 128]
  gather_S50000x128_S550000x1_S550000x128_1_0_n_n_0_1_1128_wf : GatherDims.WF S50000x128 S550000x1 S550000x128 [1] [0] [] [0] [] 1 ![1, 128]
  scatter_S50000x128_S550000x1_S550000x128_1_0_0_1_wf : ScatterDims.WF S50000x128 S550000x1 S550000x128 [1] [0] [0] 1
  dot_S50000x128_S128x256_S50000x256_1_0_0_1_n_n_wf : DotDims.WF S50000x128 S128x256 S50000x256 [1] [0] [0] [1] [] []
  dot_S50000x256_S256x128_S50000x128_1_0_0_1_n_n_wf : DotDims.WF S50000x256 S256x128 S50000x128 [1] [0] [0] [1] [] []

variable [Facts₀]

def gather_S120x128_S50000x1_S50000x128_1_0_n_n_0_1_1128 : GatherDims S120x128 S50000x1 S50000x128 where
  offsetDims := [1]
  collapsedSliceDims := [0]
  operandBatchingDims := []
  startIndicesBatchingDims := []
  startIndexMap := [0]
  indexVectorDim := 1
  sliceSizes := ![1, 128]
  wf := gather_S120x128_S50000x1_S50000x128_1_0_n_n_0_1_1128_wf
def gather_S3x128_S50000x1_S50000x128_1_0_n_n_0_1_1128 : GatherDims S3x128 S50000x1 S50000x128 where
  offsetDims := [1]
  collapsedSliceDims := [0]
  operandBatchingDims := []
  startIndicesBatchingDims := []
  startIndexMap := [0]
  indexVectorDim := 1
  sliceSizes := ![1, 128]
  wf := gather_S3x128_S50000x1_S50000x128_1_0_n_n_0_1_1128_wf
def gather_S5x128_S550000x1_S550000x128_1_0_n_n_0_1_1128 : GatherDims S5x128 S550000x1 S550000x128 where
  offsetDims := [1]
  collapsedSliceDims := [0]
  operandBatchingDims := []
  startIndicesBatchingDims := []
  startIndexMap := [0]
  indexVectorDim := 1
  sliceSizes := ![1, 128]
  wf := gather_S5x128_S550000x1_S550000x128_1_0_n_n_0_1_1128_wf
def gather_S3x128_S550000x1_S550000x128_1_0_n_n_0_1_1128 : GatherDims S3x128 S550000x1 S550000x128 where
  offsetDims := [1]
  collapsedSliceDims := [0]
  operandBatchingDims := []
  startIndicesBatchingDims := []
  startIndexMap := [0]
  indexVectorDim := 1
  sliceSizes := ![1, 128]
  wf := gather_S3x128_S550000x1_S550000x128_1_0_n_n_0_1_1128_wf
def gather_S50000x128_S550000x1_S550000x128_1_0_n_n_0_1_1128 : GatherDims S50000x128 S550000x1 S550000x128 where
  offsetDims := [1]
  collapsedSliceDims := [0]
  operandBatchingDims := []
  startIndicesBatchingDims := []
  startIndexMap := [0]
  indexVectorDim := 1
  sliceSizes := ![1, 128]
  wf := gather_S50000x128_S550000x1_S550000x128_1_0_n_n_0_1_1128_wf
def scatter_S50000x128_S550000x1_S550000x128_1_0_0_1 : ScatterDims S50000x128 S550000x1 S550000x128 where
  updateWindowDims := [1]
  insertedWindowDims := [0]
  scatterDimsToOperandDims := [0]
  indexVectorDim := 1
  wf := scatter_S50000x128_S550000x1_S550000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KernelRun.lean ====
/-
  The idealized kernel's run, with its result named.

  @main is eleven segments: host operations, then three times a launch of the dense update over ten blocks of rows followed by
  host operations. Each segment takes the TensorCore's buffers from one boundary's contents to the next, so the contents at the
  return are a fold from the launch memory through the segments. Every weakly fair execution terminates without a fault with
  every unscoped buffer at that fold's last value; in particular the result buffer, and each argument array as launched.
-/
import proofs.«106410_j1503238553652_2_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main ends with the result buffer at the last boundary's contents and the arguments as
    launched. -/
theorem run : θ_run defs (onTc (τ := τ) (main (F := F))) ⟨m, fun _ => 0, ρ⟩ (fun r => ∀ c : Dev nD,
      r.2.mem ((c.tc : Thread nD τ).loc main_v241) = W11 m ρ c (Proc.devRef .tc main_v241)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v241 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c)⟩)

end Cert.KernelIdeal.ResultRun

end
-- ==== Proof.ReferenceRun.lean ====
/-
  The idealized reference as a straight line of host operations.

  The reference launches no kernel: its @main is 316 host operations, each writing one buffer that nothing writes again. They
  are listed here in nine stretches cut where the mathematics cuts them — the embeddings with the first layer's message sums,
  then for each of the three layers the dense update, the normalisation (with the positive part after the first two) and the
  next layer's message sums. @main is the nine stretches run one after the other, so every weakly fair execution terminates
  without a fault and leaves every buffer at the fold of the operations over the launch contents; the argument arrays, which
  no operation writes, end as launched.
-/
import proofs.«106410_j1503238553652_2_alg».proof.Proof.Gen.ReferenceIdeal
import Idealize.ShloMosaic.Lib.StableHlo.Run

noncomputable section

namespace Cert.ReferenceIdeal.Straight

open Cert.ReferenceIdeal Cert.ReferenceIdeal.Gen Idealize.ShloMosaic Idealize.ShloMosaic.TcCoe Idealize.SL.Sem Idealize.ShloMosaic.StableHlo

variable {F : FTy → Type} [FloatOps F]

/-! ## The nine stretches -/

set_option maxHeartbeats 40000000 in
/-- The node embeddings (two table look-ups added), the edge lists with a self loop per node appended, and the first layer's messages — the source node's embedding plus the edge's two embeddings — summed into their destination nodes. (77 operations, ending at `main_v63`.) -/
abbrev embedAggregate0 : List (HloOp τ sig (Elt F)) :=
  [ unary main_arg0 main_v0 ((extractStridedSlice S50000x1 ![0, 0] · slices_S50000x2_S50000x1_0_0) : (⟨S50000x2, .i32⟩ : BufTy).Contents (Elt F) → (⟨S50000x1, .i32⟩ : BufTy).Contents (Elt F)),
    reshape main_v0 main_v1 rfl shapeCasts_S50000x1_S50000,
    nullary main_c (constantI S_ 32 0#32),
    unary main_c main_v2 (broadcastInDim S50000 ![] bcast_S_S50000 : (⟨S_, .i32⟩ : BufTy).Contents (Elt F) → (⟨S50000, .i32⟩ : BufTy).Contents (Elt F)),
    binary main_v1 main_v2 main_v3 (cmpi .slt : (⟨S50000, .i32⟩ : BufTy).Contents (Elt F) → (⟨S50000, .i32⟩ : BufTy).Contents (Elt F) → (⟨S50000, .i1⟩ : BufTy).Contents (Elt F)),
    nullary main_c_0 (constantI S_ 32 120#32),
    unary main_c_0 main_v4 (broadcastInDim S50000 ![] bcast_S_S50000 : (⟨S_, .i32⟩ : BufTy).Contents (Elt F) → (⟨S50000, .i32⟩ : BufTy).Contents (Elt F)),
    binary main_v1 main_v4 main_v5 (addi : (⟨S50000, .i32⟩ : BufTy).Contents (Elt F) → (⟨S50000, .i32⟩ : BufTy).Contents (Elt F) → (⟨S50000, .i32⟩ : BufTy).Contents (Elt F)),
    ternary main_v3 main_v5 main_v1 main_v6 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v6 main_v7 (broadcastInDim S50000x1 ![0] bcast_S50000_S50000x1_0 : (⟨S50000, .i32⟩ : BufTy).Contents (Elt F) → (⟨S50000x1, .i32⟩ : BufTy).Contents (Elt F)),
    binary main_arg3 main_v7 main_v8 ((fun x i => Host.gather gather_S120x128_S50000x1_S50000x128_1_0_n_n_0_1_1128 x i) : (⟨S120x128, .f32⟩ : BufTy).Contents (Elt F) → (⟨S50000x1, .i32⟩ : BufTy).Contents (Elt F) → (⟨S50000x128, .f32⟩ : BufTy).Contents (Elt F)),
    unary main_arg0 main_v9 ((extractStridedSlice S50000x1 ![0, 1] · slices_S50000x2_S50000x1_0_1) : (⟨S50000x2, .i32⟩ : BufTy).Contents (Elt F) → (⟨S50000x1, .i32⟩ : BufTy).Contents (Elt F)),
    reshape main_v9 main_v10 rfl shapeCasts_S50000x1_S50000,
    nullary main_c_1 (constantI S_ 32 0#32),
    unary main_c_1 main_v11 (broadcastInDim S50000 ![] bcast_S_S50000 : (⟨S_, .i32⟩ : BufTy).Contents (Elt F) → (⟨S50000, .i32⟩ : BufTy).Contents (Elt F)),
    binary main_v10 main_v11 main_v12 (cmpi .slt : (⟨S50000, .i32⟩ : BufTy).Contents (Elt F) → (⟨S50000, .i32⟩ : BufTy).Contents (Elt F) → (⟨S50000, .i1⟩ : BufTy).Contents (Elt F)),
    nullary main_c_2 (constantI S_ 32 3#32),
    unary main_c_2 main_v13 (broadcastInDim S50000 ![] bcast_S_S50000 : (⟨S_, .i32⟩ : BufTy).Contents (Elt F) → (⟨S50000, .i32⟩ : BufTy).Contents (Elt F)),
    binary main_v10 main_v13 main_v14 (addi : (⟨S50000, .i32⟩ : BufTy).Contents (Elt F) → (⟨S50000, .i32⟩ : BufTy).Contents (Elt F) → (⟨S50000, .i32⟩ : BufTy).Contents (Elt F)),
    ternary main_v12 main_v14 main_v10 main_v15 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v15 main_v16 (broadcastInDim S50000x1 ![0] bcast_S50000_S50000x1_0 : (⟨S50000, .i32⟩ : BufTy).Contents (Elt F) → (⟨S50000x1, .i32⟩ : BufTy).Contents (Elt F)),
    binary main_arg4 main_v16 main_v17 ((fun x i => Host.gather gather_S3x128_S50000x1_S50000x128_1_0_n_n_0_1_1128 x i) : (⟨S3x128, .f32⟩ : BufTy).Contents (Elt F) → (⟨S50000x1, .i32⟩ : BufTy).Contents (Elt F) → (⟨S50000x128, .f32⟩ : BufTy).Contents (Elt F)),
    binary main_v8 main_v17 main_v18 (addf : (⟨S50000x128, .f32⟩ : BufTy).Contents (Elt F) → (⟨S50000x128, .f32⟩ : BufTy).Contents (Elt F) → (⟨S50000x128, .f32⟩ : BufTy).Contents (Elt F)),
    nullary main_v19 (iotaInDim S50000 32 0),
    unary main_arg1 main_v20 ((extractStridedSlice S1x500000 ![0, 0] · slices_S2x500000_S1x500000_0_0) : (⟨S2x500000, .i32⟩ : BufTy).Contents (Elt F) → (⟨S1x500000, .i32⟩ : BufTy).Contents (Elt F)),
    reshape main_v20 main_v21 rfl shapeCasts_S1x500000_S500000,
    binary main_v21 main_v19 main_v22 ((fun a b => concatenate S550000 0 [⟨S500000, a⟩, ⟨S50000, b⟩] concatenates_S500000_S50000_S550000_d0) : (⟨S500000, .i32⟩ : BufTy).Contents (Elt F) → (⟨S50000, .i32⟩ : BufTy).Contents (Elt F) → (⟨S550000, .i32⟩ : BufTy).Contents (Elt F)),
    unary main_arg1 main_v23 ((extractStridedSlice S1x500000 ![1, 0] · slices_S2x500000_S1x500000_1_0) : (⟨S2x500000, .i32⟩ : BufTy).Contents (Elt F) → (⟨S1x500000, .i32⟩ : BufTy).Contents (Elt F)),
    reshape main_v23 main_v24 rfl shapeCasts_S1x500000_S500000,
    binary main_v24 main_v19 main_v25 ((fun a b => concatenate S550000 0 [⟨S500000, a⟩, ⟨S50000, b⟩] concatenates_S500000_S50000_S550000_d0) : (⟨S500000, .i32⟩ : BufTy).Contents (Elt F) → (⟨S50000, .i32⟩ : BufTy).Contents (Elt F) → (⟨S550000, .i32⟩ : BufTy).Contents (Elt F)),
    unary main_arg2 main_v26 ((extractStridedSlice S500000x1 ![0, 0] · slices_S500000x2_S500000x1_0_0) : (⟨S500000x2, .i32⟩ : BufTy).Contents (Elt F) → (⟨S500000x1, .i32⟩ : BufTy).Contents (Elt F)),
    reshape main_v26 main_v27 rfl shapeCasts_S500000x1_S500000,
    nullary main_c_3 (constantI S_ 32 4#32),
    unary main_c_3 main_v28 (broadcastInDim S50000 ![] bcast_S_S50000 : (⟨S_, .i32⟩ : BufTy).Contents (Elt F) → (⟨S50000, .i32⟩ : BufTy).Contents (Elt F)),
    binary main_v27 main_v28 main_v29 ((fun a b => concatenate S550000 0 [⟨S500000, a⟩, ⟨S50000, b⟩] concatenates_S500000_S50000_S550000_d0) : (⟨S500000, .i32⟩ : BufTy).Contents (Elt F) → (⟨S50000, .i32⟩ : BufTy).Contents (Elt F) → (⟨S550000, .i32⟩ : BufTy).Contents (Elt F)),
    unary main_arg2 main_v30 ((extractStridedSlice S500000x1 ![0, 1] · slices_S500000x2_S500000x1_0_1) : (⟨S500000x2, .i32⟩ : BufTy).Contents (Elt F) → (⟨S500000x1, .i32⟩ : BufTy).Contents (Elt F)),
    reshape main_v30 main_v31 rfl shapeCasts_S500000x1_S500000,
    nullary main_c_4 (constantI S_ 32 0#32),
    unary main_c_4 main_v32 (broadcastInDim S50000 ![] bcast_S_S50000 : (⟨S_, .i32⟩ : BufTy).Contents (Elt F) → (⟨S50000, .i32⟩ : BufTy).Contents (Elt F)),
    binary main_v31 main_v32 main_v33 ((fun a b => concatenate S550000 0 [⟨S500000, a⟩, ⟨S50000, b⟩] concatenates_S500000_S50000_S550000_d0) : (⟨S500000, .i32⟩ : BufTy).Contents (Elt F) → (⟨S50000, .i32⟩ : BufTy).Contents (Elt F) → (⟨S550000, .i32⟩ : BufTy).Contents (Elt F)),
    unary main_arg5 main_v34 ((extractStridedSlice S1x5x128 ![0, 0, 0] · slices_S3x5x128_S1x5x128_0_0_0) : (⟨S3x5x128, .f32⟩ : BufTy).Contents (Elt F) → (⟨S1x5x128, .f32⟩ : BufTy).Contents (Elt F)),
    reshape main_v34 main_v35 rfl shapeCasts_S1x5x128_S5x128,
    nullary main_c_5 (constantI S_ 32 0#32),
    unary main_c_5 main_v36 (broadcastInDim S550000 ![] bcast_S_S550000 : (⟨S_, .i32⟩ : BufTy).Contents (Elt F) → (⟨S550000, .i32⟩ : BufTy).Contents (Elt F)),
    binary main_v29 main_v36 main_v37 (cmpi .slt : (⟨S550000, .i32⟩ : BufTy).Contents (Elt F) → (⟨S550000, .i32⟩ : BufTy).Contents (Elt F) → (⟨S550000, .i1⟩ : BufTy).Contents (Elt F)),
    nullary main_c_6 (constantI S_ 32 5#32),
    unary main_c_6 main_v38 (broadcastInDim S550000 ![] bcast_S_S550000 : (⟨S_, .i32⟩ : BufTy).Contents (Elt F) → (⟨S550000, .i32⟩ : BufTy).Contents (Elt F)),
    binary main_v29 main_v38 main_v39 (addi : (⟨S550000, .i32⟩ : BufTy).Contents (Elt F) → (⟨S550000, .i32⟩ : BufTy).Contents (Elt F) → (⟨S550000, .i32⟩ : BufTy).Contents (Elt F)),
    ternary main_v37 main_v39 main_v29 main_v40 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    unary main_v40 main_v41 (broadcastInDim S550000x1 ![0] bcast_S550000_S550000x1_0 : (⟨S550000, .i32⟩ : BufTy).Contents (Elt F) → (⟨S550000x1, .i32⟩ : BufTy).Contents (Elt F)),
    binary main_v35 main_v41 main_v42 ((fun x i => Host.gather gather_S5x128_S550000x1_S550000x128_1_0_n_n_0_1_1128 x i) : (⟨S5x128, .f32⟩ : BufTy).Contents (Elt F) → (⟨S550000x1, .i32⟩ : BufTy).Contents (Elt F) → (⟨S550000x128, .f32⟩ : BufTy).Contents (Elt F)),
    unary main_arg6 main_v43 ((extractStridedSlice S1x3x128 ![0, 0, 0] · slices_S3x3x128_S1x3x128_0_0_0) : (⟨S3x3x128, .f32⟩ : BufTy).Contents (Elt F) → (⟨S1x3x128, .f32⟩ : BufTy).Contents (Elt F)),
    reshape main_v43 main_v44 rfl shapeCasts_S1x3x128_S3x128,
    nullary main_c_7 (constantI S_ 32 0#32),
    unary main_c_7 main_v45 (broadcastInDim S550000 ![] bcast_S_S550000 : (⟨S_, .i32⟩ : BufTy).Contents (Elt F) → (⟨S550000, .i32⟩ : BufTy).Contents (Elt F)),
    binary main_v33 main_v45 main_v46 (cmpi .slt : (⟨S550000, .i32⟩ : BufTy).Contents (Elt F) → (⟨S550000, .i32⟩ : BufTy).Contents (Elt F) → (⟨S550000, .i1⟩ : BufTy).Contents (Elt F)),
    nullary main_c_8 (constantI S_ 32 3#32),
    unary main_c_8 main_v47 (broadcastInDim S550000 ![] bcast_S_S550000 : (⟨S_, .i32⟩ : BufTy).Contents (Elt F) → (⟨S550000, .i32⟩ : BufTy).Contents (Elt F)),
    binary main_v33 main_v47 main_v48 (addi : (⟨S550000, .i32⟩ : BufTy).Contents (Elt F) → (⟨S550000, .i32⟩ : BufTy).Contents (Elt F) → (⟨S550000, .i32⟩ : BufTy).Contents (Elt F)),
    ternary main_v46 main_v48 main_v33 main_v49 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    unary main_v49 main_v50 (broadcastInDim S550000x1 ![0] bcast_S550000_S550000x1_0 : (⟨S550000, .i32⟩ : BufTy).Contents (Elt F) → (⟨S550000x1, .i32⟩ : BufTy).Contents (Elt F)),
    binary main_v44 main_v50 main_v51 ((fun x i => Host.gather gather_S3x128_S550000x1_S550000x128_1_0_n_n_0_1_1128 x i) : (⟨S3x128, .f32⟩ : BufTy).Contents (Elt F) → (⟨S550000x1, .i32⟩ : BufTy).Contents (Elt F) → (⟨S550000x128, .f32⟩ : BufTy).Contents (Elt F)),
    binary main_v42 main_v51 main_v52 (addf : (⟨S550000x128, .f32⟩ : BufTy).Contents (Elt F) → (⟨S550000x128, .f32⟩ : BufTy).Contents (Elt F) → (⟨S550000x128, .f32⟩ : BufTy).Contents (Elt F)),
    nullary main_c_9 (constantI S_ 32 0#32),
    unary main_c_9 main_v53 (broadcastInDim S550000 ![] bcast_S_S550000 : (⟨S_, .i32⟩ : BufTy).Contents (Elt F) → (⟨S550000, .i32⟩ : BufTy).Contents (Elt F)),
    binary main_v22 main_v53 main_v54 (cmpi .slt : (⟨S550000, .i32⟩ : BufTy).Contents (Elt F) → (⟨S550000, .i32⟩ : BufTy).Contents (Elt F) → (⟨S550000, .i1⟩ : BufTy).Contents (Elt F)),
    nullary main_c_10 (constantI S_ 32 50000#32),
    unary main_c_10 main_v55 (broadcastInDim S550000 ![] bcast_S_S550000 : (⟨S_, .i32⟩ : BufTy).Contents (Elt F) → (⟨S550000, .i32⟩ : BufTy).Contents (Elt F)),
    binary main_v22 main_v55 main_v56 (addi : (⟨S550000, .i32⟩ : BufTy).Contents (Elt F) → (⟨S550000, .i32⟩ : BufTy).Contents (Elt F) → (⟨S550000, .i32⟩ : BufTy).Contents (Elt F)),
    ternary main_v54 main_v56 main_v22 main_v57 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    unary main_v57 main_v58 (broadcastInDim S550000x1 ![0] bcast_S550000_S550000x1_0 : (⟨S550000, .i32⟩ : BufTy).Contents (Elt F) → (⟨S550000x1, .i32⟩ : BufTy).Contents (Elt F)),
    binary main_v18 main_v58 main_v59 ((fun x i => Host.gather gather_S50000x128_S550000x1_S550000x128_1_0_n_n_0_1_1128 x i) : (⟨S50000x128, .f32⟩ : BufTy).Contents (Elt F) → (⟨S550000x1, .i32⟩ : BufTy).Contents (Elt F) → (⟨S550000x128, .f32⟩ : BufTy).Contents (Elt F)),
    binary main_v59 main_v52 main_v60 (addf : (⟨S550000x128, .f32⟩ : BufTy).Contents (Elt F) → (⟨S550000x128, .f32⟩ : BufTy).Contents (Elt F) → (⟨S550000x128, .f32⟩ : BufTy).Contents (Elt F)),
    nullary main_cst (constant S_ .f32 0x00000000#32),
    unary main_cst main_v61 (broadcastInDim S50000x128 ![] bcast_S_S50000x128 : (⟨S_, .f32⟩ : BufTy).Contents (Elt F) → (⟨S50000x128, .f32⟩ : BufTy).Contents (Elt F)),
    unary main_v25 main_v62 (broadcastInDim S550000x1 ![0] bcast_S550000_S550000x1_0 : (⟨S550000, .i32⟩ : BufTy).Contents (Elt F) → (⟨S550000x1, .i32⟩ : BufTy).Contents (Elt F)),
    ternary main_v61 main_v62 main_v60 main_v63 ((fun x i u => Host.scatterAdd scatter_S50000x128_S550000x1_S550000x128_1_0_0_1 x i u) : (⟨S50000x128, .f32⟩ : BufTy).Contents (Elt F) → (⟨S550000x1, .i32⟩ : BufTy).Contents (Elt F) → (⟨S550000x128, .f32⟩ : BufTy).Contents (Elt F) → (⟨S50000x128, .f32⟩ : BufTy).Contents (Elt F)) ]

theorem embedAggregate0_sub : (embedAggregate0 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., reshape_bufs_sub .., binary_bufs_sub .., unary_bufs_sub .., reshape_bufs_sub .., binary_bufs_sub .., unary_bufs_sub .., reshape_bufs_sub .., nullary_bufs_sub .., unary_bufs_sub .., binary_bufs_sub .., unary_bufs_sub .., reshape_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub ..⟩

set_option maxHeartbeats 40000000 in
/-- The first layer's dense update of the summed messages. (19 operations, ending at `main_v80`.) -/
abbrev dense0 : List (HloOp τ sig (Elt F)) :=
  [ unary main_arg7 main_v64 ((extractStridedSlice S1x128x256 ![0, 0, 0] · slices_S3x128x256_S1x128x256_0_0_0) : (⟨S3x128x256, .f32⟩ : BufTy).Contents (Elt F) → (⟨S1x128x256, .f32⟩ : BufTy).Contents (Elt F)),
    reshape main_v64 main_v65 rfl shapeCasts_S1x128x256_S128x256,
    binary main_v63 main_v65 main_v66 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg8 main_v67 ((extractStridedSlice S1x256 ![0, 0] · slices_S3x256_S1x256_0_0) : (⟨S3x256, .f32⟩ : BufTy).Contents (Elt F) → (⟨S1x256, .f32⟩ : BufTy).Contents (Elt F)),
    reshape main_v67 main_v68 rfl shapeCasts_S1x256_S256,
    unary main_v68 main_v69 (broadcastInDim S1x256 ![1] bcast_S256_S1x256_1 : (⟨S256, .f32⟩ : BufTy).Contents (Elt F) → (⟨S1x256, .f32⟩ : BufTy).Contents (Elt F)),
    unary main_v69 main_v70 (broadcastInDim S50000x256 ![0, 1] bcast_S1x256_S50000x256_0_1 : (⟨S1x256, .f32⟩ : BufTy).Contents (Elt F) → (⟨S50000x256, .f32⟩ : BufTy).Contents (Elt F)),
    binary main_v66 main_v70 main_v71 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x256, .f32⟩) main_call0_v0) (broadcastInDim S50000x256 ![] bcast_S_S50000x256),
    TRef.binary (TRef.of (T := ⟨S50000x256, .f32⟩) main_v71) (TRef.of (T := ⟨S50000x256, .f32⟩) main_call0_v0) (TRef.of (T := ⟨S50000x256, .f32⟩) main_v72) maximumf,
    unary main_arg9 main_v73 ((extractStridedSlice S1x256x128 ![0, 0, 0] · slices_S3x256x128_S1x256x128_0_0_0) : (⟨S3x256x128, .f32⟩ : BufTy).Contents (Elt F) → (⟨S1x256x128, .f32⟩ : BufTy).Contents (Elt F)),
    reshape main_v73 main_v74 rfl shapeCasts_S1x256x128_S256x128,
    binary main_v72 main_v74 main_v75 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg10 main_v76 ((extractStridedSlice S1x128 ![0, 0] · slices_S3x128_S1x128_0_0) : (⟨S3x128, .f32⟩ : BufTy).Contents (Elt F) → (⟨S1x128, .f32⟩ : BufTy).Contents (Elt F)),
    reshape main_v76 main_v77 rfl shapeCasts_S1x128_S128,
    unary main_v77 main_v78 (broadcastInDim S1x128 ![1] bcast_S128_S1x128_1 : (⟨S128, .f32⟩ : BufTy).Contents (Elt F) → (⟨S1x128, .f32⟩ : BufTy).Contents (Elt F)),
    unary main_v78 main_v79 (broadcastInDim S50000x128 ![0, 1] bcast_S1x128_S50000x128_0_1 : (⟨S1x128, .f32⟩ : BufTy).Contents (Elt F) → (⟨S50000x128, .f32⟩ : BufTy).Contents (Elt F)),
    binary main_v75 main_v79 main_v80 (addf : (⟨S50000x128, .f32⟩ : BufTy).Contents (Elt F) → (⟨S50000x128, .f32⟩ : BufTy).Contents (Elt F) → (⟨S50000x128, .f32⟩ : BufTy).Contents (Elt F)) ]

theorem dense0_sub : (dense0 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub ..⟩

set_option maxHeartbeats 40000000 in
/-- The first layer's normalisation over the 50000 nodes (mean and biased variance per column, the affine map) and the positive part. (37 operations, ending at `main_v110`.) -/
abbrev normalize0 : List (HloOp τ sig (Elt F)) :=
  [ nullary main_cst_11 (constant S_ .f32 0x00000000#32),
    binary main_v80 main_cst_11 main_v81 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_12 (constant S_ .f32 0x47435000#32),
    unary main_cst_12 main_v82 (broadcastInDim S128 ![] bcast_S_S128 : (⟨S_, .f32⟩ : BufTy).Contents (Elt F) → (⟨S128, .f32⟩ : BufTy).Contents (Elt F)),
    binary main_v81 main_v82 main_v83 (Host.divf : (⟨S128, .f32⟩ : BufTy).Contents (Elt F) → (⟨S128, .f32⟩ : BufTy).Contents (Elt F) → (⟨S128, .f32⟩ : BufTy).Contents (Elt F)),
    unary main_v83 main_v84 (broadcastInDim S1x128 ![1] bcast_S128_S1x128_1 : (⟨S128, .f32⟩ : BufTy).Contents (Elt F) → (⟨S1x128, .f32⟩ : BufTy).Contents (Elt F)),
    unary main_v84 main_v85 (broadcastInDim S50000x128 ![0, 1] bcast_S1x128_S50000x128_0_1 : (⟨S1x128, .f32⟩ : BufTy).Contents (Elt F) → (⟨S50000x128, .f32⟩ : BufTy).Contents (Elt F)),
    binary main_v80 main_v85 main_v86 (subf : (⟨S50000x128, .f32⟩ : BufTy).Contents (Elt F) → (⟨S50000x128, .f32⟩ : BufTy).Contents (Elt F) → (⟨S50000x128, .f32⟩ : BufTy).Contents (Elt F)),
    binary main_v86 main_v86 main_v87 (mulf : (⟨S50000x128, .f32⟩ : BufTy).Contents (Elt F) → (⟨S50000x128, .f32⟩ : BufTy).Contents (Elt F) → (⟨S50000x128, .f32⟩ : BufTy).Contents (Elt F)),
    nullary main_cst_13 (constant S_ .f32 0x00000000#32),
    binary main_v87 main_cst_13 main_v88 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_14 (constant S_ .f32 0x47435000#32),
    unary main_cst_14 main_v89 (broadcastInDim S128 ![] bcast_S_S128 : (⟨S_, .f32⟩ : BufTy).Contents (Elt F) → (⟨S128, .f32⟩ : BufTy).Contents (Elt F)),
    binary main_v88 main_v89 main_v90 (Host.divf : (⟨S128, .f32⟩ : BufTy).Contents (Elt F) → (⟨S128, .f32⟩ : BufTy).Contents (Elt F) → (⟨S128, .f32⟩ : BufTy).Contents (Elt F)),
    unary main_arg11 main_v91 ((extractStridedSlice S1x128 ![0, 0] · slices_S3x128_S1x128_0_0) : (⟨S3x128, .f32⟩ : BufTy).Contents (Elt F) → (⟨S1x128, .f32⟩ : BufTy).Contents (Elt F)),
    reshape main_v91 main_v92 rfl shapeCasts_S1x128_S128,
    unary main_v83 main_v93 (broadcastInDim S1x128 ![1] bcast_S128_S1x128_1 : (⟨S128, .f32⟩ : BufTy).Contents (Elt F) → (⟨S1x128, .f32⟩ : BufTy).Contents (Elt F)),
    unary main_v93 main_v94 (broadcastInDim S50000x128 ![0, 1] bcast_S1x128_S50000x128_0_1 : (⟨S1x128, .f32⟩ : BufTy).Contents (Elt F) → (⟨S50000x128, .f32⟩ : BufTy).Contents (Elt F)),
    binary main_v80 main_v94 main_v95 (subf : (⟨S50000x128, .f32⟩ : BufTy).Contents (Elt F) → (⟨S50000x128, .f32⟩ : BufTy).Contents (Elt F) → (⟨S50000x128, .f32⟩ : BufTy).Contents (Elt F)),
    unary main_v92 main_v96 (broadcastInDim S1x128 ![1] bcast_S128_S1x128_1 : (⟨S128, .f32⟩ : BufTy).Contents (Elt F) → (⟨S1x128, .f32⟩ : BufTy).Contents (Elt F)),
    unary main_v96 main_v97 (broadcastInDim S50000x128 ![0, 1] bcast_S1x128_S50000x128_0_1 : (⟨S1x128, .f32⟩ : BufTy).Contents (Elt F) → (⟨S50000x128, .f32⟩ : BufTy).Contents (Elt F)),
    binary main_v97 main_v95 main_v98 (mulf : (⟨S50000x128, .f32⟩ : BufTy).Contents (Elt F) → (⟨S50000x128, .f32⟩ : BufTy).Contents (Elt F) → (⟨S50000x128, .f32⟩ : BufTy).Contents (Elt F)),
    nullary main_cst_15 (constant S_ .f32 0x3727C5AC#32),
    unary main_cst_15 main_v99 (broadcastInDim S128 ![] bcast_S_S128 : (⟨S_, .f32⟩ : BufTy).Contents (Elt F) → (⟨S128, .f32⟩ : BufTy).Contents (Elt F)),
    binary main_v90 main_v99 main_v100 (addf : (⟨S128, .f32⟩ : BufTy).Contents (Elt F) → (⟨S128, .f32⟩ : BufTy).Contents (Elt F) → (⟨S128, .f32⟩ : BufTy).Contents (Elt F)),
    unary main_v100 main_v101 (Host.rsqrt : (⟨S128, .f32⟩ : BufTy).Contents (Elt F) → (⟨S128, .f32⟩ : BufTy).Contents (Elt F)),
    unary main_v101 main_v102 (broadcastInDim S1x128 ![1] bcast_S128_S1x128_1 : (⟨S128, .f32⟩ : BufTy).Contents (Elt F) → (⟨S1x128, .f32⟩ : BufTy).Contents (Elt F)),
    unary main_v102 main_v103 (broadcastInDim S50000x128 ![0, 1] bcast_S1x128_S50000x128_0_1 : (⟨S1x128, .f32⟩ : BufTy).Contents (Elt F) → (⟨S50000x128, .f32⟩ : BufTy).Contents (Elt F)),
    binary main_v98 main_v103 main_v104 (mulf : (⟨S50000x128, .f32⟩ : BufTy).Contents (Elt F) → (⟨S50000x128, .f32⟩ : BufTy).Contents (Elt F) → (⟨S50000x128, .f32⟩ : BufTy).Contents (Elt F)),
    unary main_arg12 main_v105 ((extractStridedSlice S1x128 ![0, 0] · slices_S3x128_S1x128_0_0) : (⟨S3x128, .f32⟩ : BufTy).Contents (Elt F) → (⟨S1x128, .f32⟩ : BufTy).Contents (Elt F)),
    reshape main_v105 main_v106 rfl shapeCasts_S1x128_S128,
    unary main_v106 main_v107 (broadcastInDim S1x128 ![1] bcast_S128_S1x128_1 : (⟨S128, .f32⟩ : BufTy).Contents (Elt F) → (⟨S1x128, .f32⟩ : BufTy).Contents (Elt F)),
    unary main_v107 main_v108 (broadcastInDim S50000x128 ![0, 1] bcast_S1x128_S50000x128_0_1 : (⟨S1x128, .f32⟩ : BufTy).Contents (Elt F) → (⟨S50000x128, .f32⟩ : BufTy).Contents (Elt F)),
    binary main_v104 main_v108 main_v109 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v109) (TRef.of (T := ⟨S50000x128, .f32⟩) main_call1_v0) (TRef.of (T := ⟨S50000x128, .f32⟩) main_v110) maximumf ]

theorem normalize0_sub : (normalize0 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., reshape_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩

set_option maxHeartbeats 40000000 in
/-- The second layer's messages, gathered from the first layer's output and summed into their destination nodes. (37 operations, ending at `main_v140`.) -/
abbrev aggregate1 : List (HloOp τ sig (Elt F)) :=
  [ unary main_arg5 main_v111 ((extractStridedSlice S1x5x128 ![1, 0, 0] · slices_S3x5x128_S1x5x128_1_0_0) : (⟨S3x5x128, .f32⟩ : BufTy).Contents (Elt F) → (⟨S1x5x128, .f32⟩ : BufTy).Contents (Elt F)),
    reshape main_v111 main_v112 rfl shapeCasts_S1x5x128_S5x128,
    nullary main_c_16 (constantI S_ 32 0#32),
    unary main_c_16 main_v113 (broadcastInDim S550000 ![] bcast_S_S550000 : (⟨S_, .i32⟩ : BufTy).Contents (Elt F) → (⟨S550000, .i32⟩ : BufTy).Contents (Elt F)),
    binary main_v29 main_v113 main_v114 (cmpi .slt : (⟨S550000, .i32⟩ : BufTy).Contents (Elt F) → (⟨S550000, .i32⟩ : BufTy).Contents (Elt F) → (⟨S550000, .i1⟩ : BufTy).Contents (Elt F)),
    nullary main_c_17 (constantI S_ 32 5#32),
    unary main_c_17 main_v115 (broadcastInDim S550000 ![] bcast_S_S550000 : (⟨S_, .i32⟩ : BufTy).Contents (Elt F) → (⟨S550000, .i32⟩ : BufTy).Contents (Elt F)),
    binary main_v29 main_v115 main_v116 (addi : (⟨S550000, .i32⟩ : BufTy).Contents (Elt F) → (⟨S550000, .i32⟩ : BufTy).Contents (Elt F) → (⟨S550000, .i32⟩ : BufTy).Contents (Elt F)),
    ternary main_v114 main_v116 main_v29 main_v117 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    unary main_v117 main_v118 (broadcastInDim S550000x1 ![0] bcast_S550000_S550000x1_0 : (⟨S550000, .i32⟩ : BufTy).Contents (Elt F) → (⟨S550000x1, .i32⟩ : BufTy).Contents (Elt F)),
    binary main_v112 main_v118 main_v119 ((fun x i => Host.gather gather_S5x128_S550000x1_S550000x128_1_0_n_n_0_1_1128 x i) : (⟨S5x128, .f32⟩ : BufTy).Contents (Elt F) → (⟨S550000x1, .i32⟩ : BufTy).Contents (Elt F) → (⟨S550000x128, .f32⟩ : BufTy).Contents (Elt F)),
    unary main_arg6 main_v120 ((extractStridedSlice S1x3x128 ![1, 0, 0] · slices_S3x3x128_S1x3x128_1_0_0) : (⟨S3x3x128, .f32⟩ : BufTy).Contents (Elt F) → (⟨S1x3x128, .f32⟩ : BufTy).Contents (Elt F)),
    reshape main_v120 main_v121 rfl shapeCasts_S1x3x128_S3x128,
    nullary main_c_18 (constantI S_ 32 0#32),
    unary main_c_18 main_v122 (broadcastInDim S550000 ![] bcast_S_S550000 : (⟨S_, .i32⟩ : BufTy).Contents (Elt F) → (⟨S550000, .i32⟩ : BufTy).Contents (Elt F)),
    binary main_v33 main_v122 main_v123 (cmpi .slt : (⟨S550000, .i32⟩ : BufTy).Contents (Elt F) → (⟨S550000, .i32⟩ : BufTy).Contents (Elt F) → (⟨S550000, .i1⟩ : BufTy).Contents (Elt F)),
    nullary main_c_19 (constantI S_ 32 3#32),
    unary main_c_19 main_v124 (broadcastInDim S550000 ![] bcast_S_S550000 : (⟨S_, .i32⟩ : BufTy).Contents (Elt F) → (⟨S550000, .i32⟩ : BufTy).Contents (Elt F)),
    binary main_v33 main_v124 main_v125 (addi : (⟨S550000, .i32⟩ : BufTy).Contents (Elt F) → (⟨S550000, .i32⟩ : BufTy).Contents (Elt F) → (⟨S550000, .i32⟩ : BufTy).Contents (Elt F)),
    ternary main_v123 main_v125 main_v33 main_v126 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    unary main_v126 main_v127 (broadcastInDim S550000x1 ![0] bcast_S550000_S550000x1_0 : (⟨S550000, .i32⟩ : BufTy).Contents (Elt F) → (⟨S550000x1, .i32⟩ : BufTy).Contents (Elt F)),
    binary main_v121 main_v127 main_v128 ((fun x i => Host.gather gather_S3x128_S550000x1_S550000x128_1_0_n_n_0_1_1128 x i) : (⟨S3x128, .f32⟩ : BufTy).Contents (Elt F) → (⟨S550000x1, .i32⟩ : BufTy).Contents (Elt F) → (⟨S550000x128, .f32⟩ : BufTy).Contents (Elt F)),
    binary main_v119 main_v128 main_v129 (addf : (⟨S550000x128, .f32⟩ : BufTy).Contents (Elt F) → (⟨S550000x128, .f32⟩ : BufTy).Contents (Elt F) → (⟨S550000x128, .f32⟩ : BufTy).Contents (Elt F)),
    nullary main_c_20 (constantI S_ 32 0#32),
    unary main_c_20 main_v130 (broadcastInDim S550000 ![] bcast_S_S550000 : (⟨S_, .i32⟩ : BufTy).Contents (Elt F) → (⟨S550000, .i32⟩ : BufTy).Contents (Elt F)),
    binary main_v22 main_v130 main_v131 (cmpi .slt : (⟨S550000, .i32⟩ : BufTy).Contents (Elt F) → (⟨S550000, .i32⟩ : BufTy).Contents (Elt F) → (⟨S550000, .i1⟩ : BufTy).Contents (Elt F)),
    nullary main_c_21 (constantI S_ 32 50000#32),
    unary main_c_21 main_v132 (broadcastInDim S550000 ![] bcast_S_S550000 : (⟨S_, .i32⟩ : BufTy).Contents (Elt F) → (⟨S550000, .i32⟩ : BufTy).Contents (Elt F)),
    binary main_v22 main_v132 main_v133 (addi : (⟨S550000, .i32⟩ : BufTy).Contents (Elt F) → (⟨S550000, .i32⟩ : BufTy).Contents (Elt F) → (⟨S550000, .i32⟩ : BufTy).Contents (Elt F)),
    ternary main_v131 main_v133 main_v22 main_v134 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    unary main_v134 main_v135 (broadcastInDim S550000x1 ![0] bcast_S550000_S550000x1_0 : (⟨S550000, .i32⟩ : BufTy).Contents (Elt F) → (⟨S550000x1, .i32⟩ : BufTy).Contents (Elt F)),
    binary main_v110 main_v135 main_v136 ((fun x i => Host.gather gather_S50000x128_S550000x1_S550000x128_1_0_n_n_0_1_1128 x i) : (⟨S50000x128, .f32⟩ : BufTy).Contents (Elt F) → (⟨S550000x1, .i32⟩ : BufTy).Contents (Elt F) → (⟨S550000x128, .f32⟩ : BufTy).Contents (Elt F)),
    binary main_v136 main_v129 main_v137 (addf : (⟨S550000x128, .f32⟩ : BufTy).Contents (Elt F) → (⟨S550000x128, .f32⟩ : BufTy).Contents (Elt F) → (⟨S550000x128, .f32⟩ : BufTy).Contents (Elt F)),
    nullary main_cst_22 (constant S_ .f32 0x00000000#32),
    unary main_cst_22 main_v138 (broadcastInDim S50000x128 ![] bcast_S_S50000x128 : (⟨S_, .f32⟩ : BufTy).Contents (Elt F) → (⟨S50000x128, .f32⟩ : BufTy).Contents (Elt F)),
    unary main_v25 main_v139 (broadcastInDim S550000x1 ![0] bcast_S550000_S550000x1_0 : (⟨S550000, .i32⟩ : BufTy).Contents (Elt F) → (⟨S550000x1, .i32⟩ : BufTy).Contents (Elt F)),
    ternary main_v138 main_v139 main_v137 main_v140 ((fun x i u => Host.scatterAdd scatter_S50000x128_S550000x1_S550000x128_1_0_0_1 x i u) : (⟨S50000x128, .f32⟩ : BufTy).Contents (Elt F) → (⟨S550000x1, .i32⟩ : BufTy).Contents (Elt F) → (⟨S550000x128, .f32⟩ : BufTy).Contents (Elt F) → (⟨S50000x128, .f32⟩ : BufTy).Contents (Elt F)) ]

theorem aggregate1_sub : (aggregate1 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub ..⟩

set_option maxHeartbeats 40000000 in
/-- The second layer's dense update. (19 operations, ending at `main_v157`.) -/
abbrev dense1 : List (HloOp τ sig (Elt F)) :=
  [ unary main_arg7 main_v141 ((extractStridedSlice S1x128x256 ![1, 0, 0] · slices_S3x128x256_S1x128x256_1_0_0) : (⟨S3x128x256, .f32⟩ : BufTy).Contents (Elt F) → (⟨S1x128x256, .f32⟩ : BufTy).Contents (Elt F)),
    reshape main_v141 main_v142 rfl shapeCasts_S1x128x256_S128x256,
    binary main_v140 main_v142 main_v143 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg8 main_v144 ((extractStridedSlice S1x256 ![1, 0] · slices_S3x256_S1x256_1_0) : (⟨S3x256, .f32⟩ : BufTy).Contents (Elt F) → (⟨S1x256, .f32⟩ : BufTy).Contents (Elt F)),
    reshape main_v144 main_v145 rfl shapeCasts_S1x256_S256,
    unary main_v145 main_v146 (broadcastInDim S1x256 ![1] bcast_S256_S1x256_1 : (⟨S256, .f32⟩ : BufTy).Contents (Elt F) → (⟨S1x256, .f32⟩ : BufTy).Contents (Elt F)),
    unary main_v146 main_v147 (broadcastInDim S50000x256 ![0, 1] bcast_S1x256_S50000x256_0_1 : (⟨S1x256, .f32⟩ : BufTy).Contents (Elt F) → (⟨S50000x256, .f32⟩ : BufTy).Contents (Elt F)),
    binary main_v143 main_v147 main_v148 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x256, .f32⟩) main_call2_v0) (broadcastInDim S50000x256 ![] bcast_S_S50000x256),
    TRef.binary (TRef.of (T := ⟨S50000x256, .f32⟩) main_v148) (TRef.of (T := ⟨S50000x256, .f32⟩) main_call2_v0) (TRef.of (T := ⟨S50000x256, .f32⟩) main_v149) maximumf,
    unary main_arg9 main_v150 ((extractStridedSlice S1x256x128 ![1, 0, 0] · slices_S3x256x128_S1x256x128_1_0_0) : (⟨S3x256x128, .f32⟩ : BufTy).Contents (Elt F) → (⟨S1x256x128, .f32⟩ : BufTy).Contents (Elt F)),
    reshape main_v150 main_v151 rfl shapeCasts_S1x256x128_S256x128,
    binary main_v149 main_v151 main_v152 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg10 main_v153 ((extractStridedSlice S1x128 ![1, 0] · slices_S3x128_S1x128_1_0) : (⟨S3x128, .f32⟩ : BufTy).Contents (Elt F) → (⟨S1x128, .f32⟩ : BufTy).Contents (Elt F)),
    reshape main_v153 main_v154 rfl shapeCasts_S1x128_S128,
    unary main_v154 main_v155 (broadcastInDim S1x128 ![1] bcast_S128_S1x128_1 : (⟨S128, .f32⟩ : BufTy).Contents (Elt F) → (⟨S1x128, .f32⟩ : BufTy).Contents (Elt F)),
    unary main_v155 main_v156 (broadcastInDim S50000x128 ![0, 1] bcast_S1x128_S50000x128_0_1 : (⟨S1x128, .f32⟩ : BufTy).Contents (Elt F) → (⟨S50000x128, .f32⟩ : BufTy).Contents (Elt F)),
    binary main_v152 main_v156 main_v157 (addf : (⟨S50000x128, .f32⟩ : BufTy).Contents (Elt F) → (⟨S50000x128, .f32⟩ : BufTy).Contents (Elt F) → (⟨S50000x128, .f32⟩ : BufTy).Contents (Elt F)) ]

theorem dense1_sub : (dense1 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub ..⟩

set_option maxHeartbeats 40000000 in
/-- The second layer's normalisation and the positive part. (37 operations, ending at `main_v187`.) -/
abbrev normalize1 : List (HloOp τ sig (Elt F)) :=
  [ nullary main_cst_23 (constant S_ .f32 0x00000000#32),
    binary main_v157 main_cst_23 main_v158 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_24 (constant S_ .f32 0x47435000#32),
    unary main_cst_24 main_v159 (broadcastInDim S128 ![] bcast_S_S128 : (⟨S_, .f32⟩ : BufTy).Contents (Elt F) → (⟨S128, .f32⟩ : BufTy).Contents (Elt F)),
    binary main_v158 main_v159 main_v160 (Host.divf : (⟨S128, .f32⟩ : BufTy).Contents (Elt F) → (⟨S128, .f32⟩ : BufTy).Contents (Elt F) → (⟨S128, .f32⟩ : BufTy).Contents (Elt F)),
    unary main_v160 main_v161 (broadcastInDim S1x128 ![1] bcast_S128_S1x128_1 : (⟨S128, .f32⟩ : BufTy).Contents (Elt F) → (⟨S1x128, .f32⟩ : BufTy).Contents (Elt F)),
    unary main_v161 main_v162 (broadcastInDim S50000x128 ![0, 1] bcast_S1x128_S50000x128_0_1 : (⟨S1x128, .f32⟩ : BufTy).Contents (Elt F) → (⟨S50000x128, .f32⟩ : BufTy).Contents (Elt F)),
    binary main_v157 main_v162 main_v163 (subf : (⟨S50000x128, .f32⟩ : BufTy).Contents (Elt F) → (⟨S50000x128, .f32⟩ : BufTy).Contents (Elt F) → (⟨S50000x128, .f32⟩ : BufTy).Contents (Elt F)),
    binary main_v163 main_v163 main_v164 (mulf : (⟨S50000x128, .f32⟩ : BufTy).Contents (Elt F) → (⟨S50000x128, .f32⟩ : BufTy).Contents (Elt F) → (⟨S50000x128, .f32⟩ : BufTy).Contents (Elt F)),
    nullary main_cst_25 (constant S_ .f32 0x00000000#32),
    binary main_v164 main_cst_25 main_v165 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_26 (constant S_ .f32 0x47435000#32),
    unary main_cst_26 main_v166 (broadcastInDim S128 ![] bcast_S_S128 : (⟨S_, .f32⟩ : BufTy).Contents (Elt F) → (⟨S128, .f32⟩ : BufTy).Contents (Elt F)),
    binary main_v165 main_v166 main_v167 (Host.divf : (⟨S128, .f32⟩ : BufTy).Contents (Elt F) → (⟨S128, .f32⟩ : BufTy).Contents (Elt F) → (⟨S128, .f32⟩ : BufTy).Contents (Elt F)),
    unary main_arg11 main_v168 ((extractStridedSlice S1x128 ![1, 0] · slices_S3x128_S1x128_1_0) : (⟨S3x128, .f32⟩ : BufTy).Contents (Elt F) → (⟨S1x128, .f32⟩ : BufTy).Contents (Elt F)),
    reshape main_v168 main_v169 rfl shapeCasts_S1x128_S128,
    unary main_v160 main_v170 (broadcastInDim S1x128 ![1] bcast_S128_S1x128_1 : (⟨S128, .f32⟩ : BufTy).Contents (Elt F) → (⟨S1x128, .f32⟩ : BufTy).Contents (Elt F)),
    unary main_v170 main_v171 (broadcastInDim S50000x128 ![0, 1] bcast_S1x128_S50000x128_0_1 : (⟨S1x128, .f32⟩ : BufTy).Contents (Elt F) → (⟨S50000x128, .f32⟩ : BufTy).Contents (Elt F)),
    binary main_v157 main_v171 main_v172 (subf : (⟨S50000x128, .f32⟩ : BufTy).Contents (Elt F) → (⟨S50000x128, .f32⟩ : BufTy).Contents (Elt F) → (⟨S50000x128, .f32⟩ : BufTy).Contents (Elt F)),
    unary main_v169 main_v173 (broadcastInDim S1x128 ![1] bcast_S128_S1x128_1 : (⟨S128, .f32⟩ : BufTy).Contents (Elt F) → (⟨S1x128, .f32⟩ : BufTy).Contents (Elt F)),
    unary main_v173 main_v174 (broadcastInDim S50000x128 ![0, 1] bcast_S1x128_S50000x128_0_1 : (⟨S1x128, .f32⟩ : BufTy).Contents (Elt F) → (⟨S50000x128, .f32⟩ : BufTy).Contents (Elt F)),
    binary main_v174 main_v172 main_v175 (mulf : (⟨S50000x128, .f32⟩ : BufTy).Contents (Elt F) → (⟨S50000x128, .f32⟩ : BufTy).Contents (Elt F) → (⟨S50000x128, .f32⟩ : BufTy).Contents (Elt F)),
    nullary main_cst_27 (constant S_ .f32 0x3727C5AC#32),
    unary main_cst_27 main_v176 (broadcastInDim S128 ![] bcast_S_S128 : (⟨S_, .f32⟩ : BufTy).Contents (Elt F) → (⟨S128, .f32⟩ : BufTy).Contents (Elt F)),
    binary main_v167 main_v176 main_v177 (addf : (⟨S128, .f32⟩ : BufTy).Contents (Elt F) → (⟨S128, .f32⟩ : BufTy).Contents (Elt F) → (⟨S128, .f32⟩ : BufTy).Contents (Elt F)),
    unary main_v177 main_v178 (Host.rsqrt : (⟨S128, .f32⟩ : BufTy).Contents (Elt F) → (⟨S128, .f32⟩ : BufTy).Contents (Elt F)),
    unary main_v178 main_v179 (broadcastInDim S1x128 ![1] bcast_S128_S1x128_1 : (⟨S128, .f32⟩ : BufTy).Contents (Elt F) → (⟨S1x128, .f32⟩ : BufTy).Contents (Elt F)),
    unary main_v179 main_v180 (broadcastInDim S50000x128 ![0, 1] bcast_S1x128_S50000x128_0_1 : (⟨S1x128, .f32⟩ : BufTy).Contents (Elt F) → (⟨S50000x128, .f32⟩ : BufTy).Contents (Elt F)),
    binary main_v175 main_v180 main_v181 (mulf : (⟨S50000x128, .f32⟩ : BufTy).Contents (Elt F) → (⟨S50000x128, .f32⟩ : BufTy).Contents (Elt F) → (⟨S50000x128, .f32⟩ : BufTy).Contents (Elt F)),
    unary main_arg12 main_v182 ((extractStridedSlice S1x128 ![1, 0] · slices_S3x128_S1x128_1_0) : (⟨S3x128, .f32⟩ : BufTy).Contents (Elt F) → (⟨S1x128, .f32⟩ : BufTy).Contents (Elt F)),
    reshape main_v182 main_v183 rfl shapeCasts_S1x128_S128,
    unary main_v183 main_v184 (broadcastInDim S1x128 ![1] bcast_S128_S1x128_1 : (⟨S128, .f32⟩ : BufTy).Contents (Elt F) → (⟨S1x128, .f32⟩ : BufTy).Contents (Elt F)),
    unary main_v184 main_v185 (broadcastInDim S50000x128 ![0, 1] bcast_S1x128_S50000x128_0_1 : (⟨S1x128, .f32⟩ : BufTy).Contents (Elt F) → (⟨S50000x128, .f32⟩ : BufTy).Contents (Elt F)),
    binary main_v181 main_v185 main_v186 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v186) (TRef.of (T := ⟨S50000x128, .f32⟩) main_call3_v0) (TRef.of (T := ⟨S50000x128, .f32⟩) main_v187) maximumf ]

theorem normalize1_sub : (normalize1 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., reshape_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩

set_option maxHeartbeats 40000000 in
/-- The third layer's messages, gathered from the second layer's output and summed into their destination nodes. (37 operations, ending at `main_v217`.) -/
abbrev aggregate2 : List (HloOp τ sig (Elt F)) :=
  [ unary main_arg5 main_v188 ((extractStridedSlice S1x5x128 ![2, 0, 0] · slices_S3x5x128_S1x5x128_2_0_0) : (⟨S3x5x128, .f32⟩ : BufTy).Contents (Elt F) → (⟨S1x5x128, .f32⟩ : BufTy).Contents (Elt F)),
    reshape main_v188 main_v189 rfl shapeCasts_S1x5x128_S5x128,
    nullary main_c_28 (constantI S_ 32 0#32),
    unary main_c_28 main_v190 (broadcastInDim S550000 ![] bcast_S_S550000 : (⟨S_, .i32⟩ : BufTy).Contents (Elt F) → (⟨S550000, .i32⟩ : BufTy).Contents (Elt F)),
    binary main_v29 main_v190 main_v191 (cmpi .slt : (⟨S550000, .i32⟩ : BufTy).Contents (Elt F) → (⟨S550000, .i32⟩ : BufTy).Contents (Elt F) → (⟨S550000, .i1⟩ : BufTy).Contents (Elt F)),
    nullary main_c_29 (constantI S_ 32 5#32),
    unary main_c_29 main_v192 (broadcastInDim S550000 ![] bcast_S_S550000 : (⟨S_, .i32⟩ : BufTy).Contents (Elt F) → (⟨S550000, .i32⟩ : BufTy).Contents (Elt F)),
    binary main_v29 main_v192 main_v193 (addi : (⟨S550000, .i32⟩ : BufTy).Contents (Elt F) → (⟨S550000, .i32⟩ : BufTy).Contents (Elt F) → (⟨S550000, .i32⟩ : BufTy).Contents (Elt F)),
    ternary main_v191 main_v193 main_v29 main_v194 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    unary main_v194 main_v195 (broadcastInDim S550000x1 ![0] bcast_S550000_S550000x1_0 : (⟨S550000, .i32⟩ : BufTy).Contents (Elt F) → (⟨S550000x1, .i32⟩ : BufTy).Contents (Elt F)),
    binary main_v189 main_v195 main_v196 ((fun x i => Host.gather gather_S5x128_S550000x1_S550000x128_1_0_n_n_0_1_1128 x i) : (⟨S5x128, .f32⟩ : BufTy).Contents (Elt F) → (⟨S550000x1, .i32⟩ : BufTy).Contents (Elt F) → (⟨S550000x128, .f32⟩ : BufTy).Contents (Elt F)),
    unary main_arg6 main_v197 ((extractStridedSlice S1x3x128 ![2, 0, 0] · slices_S3x3x128_S1x3x128_2_0_0) : (⟨S3x3x128, .f32⟩ : BufTy).Contents (Elt F) → (⟨S1x3x128, .f32⟩ : BufTy).Contents (Elt F)),
    reshape main_v197 main_v198 rfl shapeCasts_S1x3x128_S3x128,
    nullary main_c_30 (constantI S_ 32 0#32),
    unary main_c_30 main_v199 (broadcastInDim S550000 ![] bcast_S_S550000 : (⟨S_, .i32⟩ : BufTy).Contents (Elt F) → (⟨S550000, .i32⟩ : BufTy).Contents (Elt F)),
    binary main_v33 main_v199 main_v200 (cmpi .slt : (⟨S550000, .i32⟩ : BufTy).Contents (Elt F) → (⟨S550000, .i32⟩ : BufTy).Contents (Elt F) → (⟨S550000, .i1⟩ : BufTy).Contents (Elt F)),
    nullary main_c_31 (constantI S_ 32 3#32),
    unary main_c_31 main_v201 (broadcastInDim S550000 ![] bcast_S_S550000 : (⟨S_, .i32⟩ : BufTy).Contents (Elt F) → (⟨S550000, .i32⟩ : BufTy).Contents (Elt F)),
    binary main_v33 main_v201 main_v202 (addi : (⟨S550000, .i32⟩ : BufTy).Contents (Elt F) → (⟨S550000, .i32⟩ : BufTy).Contents (Elt F) → (⟨S550000, .i32⟩ : BufTy).Contents (Elt F)),
    ternary main_v200 main_v202 main_v33 main_v203 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    unary main_v203 main_v204 (broadcastInDim S550000x1 ![0] bcast_S550000_S550000x1_0 : (⟨S550000, .i32⟩ : BufTy).Contents (Elt F) → (⟨S550000x1, .i32⟩ : BufTy).Contents (Elt F)),
    binary main_v198 main_v204 main_v205 ((fun x i => Host.gather gather_S3x128_S550000x1_S550000x128_1_0_n_n_0_1_1128 x i) : (⟨S3x128, .f32⟩ : BufTy).Contents (Elt F) → (⟨S550000x1, .i32⟩ : BufTy).Contents (Elt F) → (⟨S550000x128, .f32⟩ : BufTy).Contents (Elt F)),
    binary main_v196 main_v205 main_v206 (addf : (⟨S550000x128, .f32⟩ : BufTy).Contents (Elt F) → (⟨S550000x128, .f32⟩ : BufTy).Contents (Elt F) → (⟨S550000x128, .f32⟩ : BufTy).Contents (Elt F)),
    nullary main_c_32 (constantI S_ 32 0#32),
    unary main_c_32 main_v207 (broadcastInDim S550000 ![] bcast_S_S550000 : (⟨S_, .i32⟩ : BufTy).Contents (Elt F) → (⟨S550000, .i32⟩ : BufTy).Contents (Elt F)),
    binary main_v22 main_v207 main_v208 (cmpi .slt : (⟨S550000, .i32⟩ : BufTy).Contents (Elt F) → (⟨S550000, .i32⟩ : BufTy).Contents (Elt F) → (⟨S550000, .i1⟩ : BufTy).Contents (Elt F)),
    nullary main_c_33 (constantI S_ 32 50000#32),
    unary main_c_33 main_v209 (broadcastInDim S550000 ![] bcast_S_S550000 : (⟨S_, .i32⟩ : BufTy).Contents (Elt F) → (⟨S550000, .i32⟩ : BufTy).Contents (Elt F)),
    binary main_v22 main_v209 main_v210 (addi : (⟨S550000, .i32⟩ : BufTy).Contents (Elt F) → (⟨S550000, .i32⟩ : BufTy).Contents (Elt F) → (⟨S550000, .i32⟩ : BufTy).Contents (Elt F)),
    ternary main_v208 main_v210 main_v22 main_v211 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    unary main_v211 main_v212 (broadcastInDim S550000x1 ![0] bcast_S550000_S550000x1_0 : (⟨S550000, .i32⟩ : BufTy).Contents (Elt F) → (⟨S550000x1, .i32⟩ : BufTy).Contents (Elt F)),
    binary main_v187 main_v212 main_v213 ((fun x i => Host.gather gather_S50000x128_S550000x1_S550000x128_1_0_n_n_0_1_1128 x i) : (⟨S50000x128, .f32⟩ : BufTy).Contents (Elt F) → (⟨S550000x1, .i32⟩ : BufTy).Contents (Elt F) → (⟨S550000x128, .f32⟩ : BufTy).Contents (Elt F)),
    binary main_v213 main_v206 main_v214 (addf : (⟨S550000x128, .f32⟩ : BufTy).Contents (Elt F) → (⟨S550000x128, .f32⟩ : BufTy).Contents (Elt F) → (⟨S550000x128, .f32⟩ : BufTy).Contents (Elt F)),
    nullary main_cst_34 (constant S_ .f32 0x00000000#32),
    unary main_cst_34 main_v215 (broadcastInDim S50000x128 ![] bcast_S_S50000x128 : (⟨S_, .f32⟩ : BufTy).Contents (Elt F) → (⟨S50000x128, .f32⟩ : BufTy).Contents (Elt F)),
    unary main_v25 main_v216 (broadcastInDim S550000x1 ![0] bcast_S550000_S550000x1_0 : (⟨S550000, .i32⟩ : BufTy).Contents (Elt F) → (⟨S550000x1, .i32⟩ : BufTy).Contents (Elt F)),
    ternary main_v215 main_v216 main_v214 main_v217 ((fun x i u => Host.scatterAdd scatter_S50000x128_S550000x1_S550000x128_1_0_0_1 x i u) : (⟨S50000x128, .f32⟩ : BufTy).Contents (Elt F) → (⟨S550000x1, .i32⟩ : BufTy).Contents (Elt F) → (⟨S550000x128, .f32⟩ : BufTy).Contents (Elt F) → (⟨S50000x128, .f32⟩ : BufTy).Contents (Elt F)) ]

theorem aggregate2_sub : (aggregate2 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub ..⟩

set_option maxHeartbeats 40000000 in
/-- The third layer's dense update. (19 operations, ending at `main_v234`.) -/
abbrev dense2 : List (HloOp τ sig (Elt F)) :=
  [ unary main_arg7 main_v218 ((extractStridedSlice S1x128x256 ![2, 0, 0] · slices_S3x128x256_S1x128x256_2_0_0) : (⟨S3x128x256, .f32⟩ : BufTy).Contents (Elt F) → (⟨S1x128x256, .f32⟩ : BufTy).Contents (Elt F)),
    reshape main_v218 main_v219 rfl shapeCasts_S1x128x256_S128x256,
    binary main_v217 main_v219 main_v220 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg8 main_v221 ((extractStridedSlice S1x256 ![2, 0] · slices_S3x256_S1x256_2_0) : (⟨S3x256, .f32⟩ : BufTy).Contents (Elt F) → (⟨S1x256, .f32⟩ : BufTy).Contents (Elt F)),
    reshape main_v221 main_v222 rfl shapeCasts_S1x256_S256,
    unary main_v222 main_v223 (broadcastInDim S1x256 ![1] bcast_S256_S1x256_1 : (⟨S256, .f32⟩ : BufTy).Contents (Elt F) → (⟨S1x256, .f32⟩ : BufTy).Contents (Elt F)),
    unary main_v223 main_v224 (broadcastInDim S50000x256 ![0, 1] bcast_S1x256_S50000x256_0_1 : (⟨S1x256, .f32⟩ : BufTy).Contents (Elt F) → (⟨S50000x256, .f32⟩ : BufTy).Contents (Elt F)),
    binary main_v220 main_v224 main_v225 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S50000x256, .f32⟩) main_call4_v0) (broadcastInDim S50000x256 ![] bcast_S_S50000x256),
    TRef.binary (TRef.of (T := ⟨S50000x256, .f32⟩) main_v225) (TRef.of (T := ⟨S50000x256, .f32⟩) main_call4_v0) (TRef.of (T := ⟨S50000x256, .f32⟩) main_v226) maximumf,
    unary main_arg9 main_v227 ((extractStridedSlice S1x256x128 ![2, 0, 0] · slices_S3x256x128_S1x256x128_2_0_0) : (⟨S3x256x128, .f32⟩ : BufTy).Contents (Elt F) → (⟨S1x256x128, .f32⟩ : BufTy).Contents (Elt F)),
    reshape main_v227 main_v228 rfl shapeCasts_S1x256x128_S256x128,
    binary main_v226 main_v228 main_v229 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg10 main_v230 ((extractStridedSlice S1x128 ![2, 0] · slices_S3x128_S1x128_2_0) : (⟨S3x128, .f32⟩ : BufTy).Contents (Elt F) → (⟨S1x128, .f32⟩ : BufTy).Contents (Elt F)),
    reshape main_v230 main_v231 rfl shapeCasts_S1x128_S128,
    unary main_v231 main_v232 (broadcastInDim S1x128 ![1] bcast_S128_S1x128_1 : (⟨S128, .f32⟩ : BufTy).Contents (Elt F) → (⟨S1x128, .f32⟩ : BufTy).Contents (Elt F)),
    unary main_v232 main_v233 (broadcastInDim S50000x128 ![0, 1] bcast_S1x128_S50000x128_0_1 : (⟨S1x128, .f32⟩ : BufTy).Contents (Elt F) → (⟨S50000x128, .f32⟩ : BufTy).Contents (Elt F)),
    binary main_v229 main_v233 main_v234 (addf : (⟨S50000x128, .f32⟩ : BufTy).Contents (Elt F) → (⟨S50000x128, .f32⟩ : BufTy).Contents (Elt F) → (⟨S50000x128, .f32⟩ : BufTy).Contents (Elt F)) ]

theorem dense2_sub : (dense2 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub ..⟩

set_option maxHeartbeats 40000000 in
/-- The third layer's normalisation; no positive part follows the last layer. (34 operations, ending at `main_v263`.) -/
abbrev normalize2 : List (HloOp τ sig (Elt F)) :=
  [ nullary main_cst_35 (constant S_ .f32 0x00000000#32),
    binary main_v234 main_cst_35 main_v235 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_36 (constant S_ .f32 0x47435000#32),
    unary main_cst_36 main_v236 (broadcastInDim S128 ![] bcast_S_S128 : (⟨S_, .f32⟩ : BufTy).Contents (Elt F) → (⟨S128, .f32⟩ : BufTy).Contents (Elt F)),
    binary main_v235 main_v236 main_v237 (Host.divf : (⟨S128, .f32⟩ : BufTy).Contents (Elt F) → (⟨S128, .f32⟩ : BufTy).Contents (Elt F) → (⟨S128, .f32⟩ : BufTy).Contents (Elt F)),
    unary main_v237 main_v238 (broadcastInDim S1x128 ![1] bcast_S128_S1x128_1 : (⟨S128, .f32⟩ : BufTy).Contents (Elt F) → (⟨S1x128, .f32⟩ : BufTy).Contents (Elt F)),
    unary main_v238 main_v239 (broadcastInDim S50000x128 ![0, 1] bcast_S1x128_S50000x128_0_1 : (⟨S1x128, .f32⟩ : BufTy).Contents (Elt F) → (⟨S50000x128, .f32⟩ : BufTy).Contents (Elt F)),
    binary main_v234 main_v239 main_v240 (subf : (⟨S50000x128, .f32⟩ : BufTy).Contents (Elt F) → (⟨S50000x128, .f32⟩ : BufTy).Contents (Elt F) → (⟨S50000x128, .f32⟩ : BufTy).Contents (Elt F)),
    binary main_v240 main_v240 main_v241 (mulf : (⟨S50000x128, .f32⟩ : BufTy).Contents (Elt F) → (⟨S50000x128, .f32⟩ : BufTy).Contents (Elt F) → (⟨S50000x128, .f32⟩ : BufTy).Contents (Elt F)),
    nullary main_cst_37 (constant S_ .f32 0x00000000#32),
    binary main_v241 main_cst_37 main_v242 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_38 (constant S_ .f32 0x47435000#32),
    unary main_cst_38 main_v243 (broadcastInDim S128 ![] bcast_S_S128 : (⟨S_, .f32⟩ : BufTy).Contents (Elt F) → (⟨S128, .f32⟩ : BufTy).Contents (Elt F)),
    binary main_v242 main_v243 main_v244 (Host.divf : (⟨S128, .f32⟩ : BufTy).Contents (Elt F) → (⟨S128, .f32⟩ : BufTy).Contents (Elt F) → (⟨S128, .f32⟩ : BufTy).Contents (Elt F)),
    unary main_arg11 main_v245 ((extractStridedSlice S1x128 ![2, 0] · slices_S3x128_S1x128_2_0) : (⟨S3x128, .f32⟩ : BufTy).Contents (Elt F) → (⟨S1x128, .f32⟩ : BufTy).Contents (Elt F)),
    reshape main_v245 main_v246 rfl shapeCasts_S1x128_S128,
    unary main_v237 main_v247 (broadcastInDim S1x128 ![1] bcast_S128_S1x128_1 : (⟨S128, .f32⟩ : BufTy).Contents (Elt F) → (⟨S1x128, .f32⟩ : BufTy).Contents (Elt F)),
    unary main_v247 main_v248 (broadcastInDim S50000x128 ![0, 1] bcast_S1x128_S50000x128_0_1 : (⟨S1x128, .f32⟩ : BufTy).Contents (Elt F) → (⟨S50000x128, .f32⟩ : BufTy).Contents (Elt F)),
    binary main_v234 main_v248 main_v249 (subf : (⟨S50000x128, .f32⟩ : BufTy).Contents (Elt F) → (⟨S50000x128, .f32⟩ : BufTy).Contents (Elt F) → (⟨S50000x128, .f32⟩ : BufTy).Contents (Elt F)),
    unary main_v246 main_v250 (broadcastInDim S1x128 ![1] bcast_S128_S1x128_1 : (⟨S128, .f32⟩ : BufTy).Contents (Elt F) → (⟨S1x128, .f32⟩ : BufTy).Contents (Elt F)),
    unary main_v250 main_v251 (broadcastInDim S50000x128 ![0, 1] bcast_S1x128_S50000x128_0_1 : (⟨S1x128, .f32⟩ : BufTy).Contents (Elt F) → (⟨S50000x128, .f32⟩ : BufTy).Contents (Elt F)),
    binary main_v251 main_v249 main_v252 (mulf : (⟨S50000x128, .f32⟩ : BufTy).Contents (Elt F) → (⟨S50000x128, .f32⟩ : BufTy).Contents (Elt F) → (⟨S50000x128, .f32⟩ : BufTy).Contents (Elt F)),
    nullary main_cst_39 (constant S_ .f32 0x3727C5AC#32),
    unary main_cst_39 main_v253 (broadcastInDim S128 ![] bcast_S_S128 : (⟨S_, .f32⟩ : BufTy).Contents (Elt F) → (⟨S128, .f32⟩ : BufTy).Contents (Elt F)),
    binary main_v244 main_v253 main_v254 (addf : (⟨S128, .f32⟩ : BufTy).Contents (Elt F) → (⟨S128, .f32⟩ : BufTy).Contents (Elt F) → (⟨S128, .f32⟩ : BufTy).Contents (Elt F)),
    unary main_v254 main_v255 (Host.rsqrt : (⟨S128, .f32⟩ : BufTy).Contents (Elt F) → (⟨S128, .f32⟩ : BufTy).Contents (Elt F)),
    unary main_v255 main_v256 (broadcastInDim S1x128 ![1] bcast_S128_S1x128_1 : (⟨S128, .f32⟩ : BufTy).Contents (Elt F) → (⟨S1x128, .f32⟩ : BufTy).Contents (Elt F)),
    unary main_v256 main_v257 (broadcastInDim S50000x128 ![0, 1] bcast_S1x128_S50000x128_0_1 : (⟨S1x128, .f32⟩ : BufTy).Contents (Elt F) → (⟨S50000x128, .f32⟩ : BufTy).Contents (Elt F)),
    binary main_v252 main_v257 main_v258 (mulf : (⟨S50000x128, .f32⟩ : BufTy).Contents (Elt F) → (⟨S50000x128, .f32⟩ : BufTy).Contents (Elt F) → (⟨S50000x128, .f32⟩ : BufTy).Contents (Elt F)),
    unary main_arg12 main_v259 ((extractStridedSlice S1x128 ![2, 0] · slices_S3x128_S1x128_2_0) : (⟨S3x128, .f32⟩ : BufTy).Contents (Elt F) → (⟨S1x128, .f32⟩ : BufTy).Contents (Elt F)),
    reshape main_v259 main_v260 rfl shapeCasts_S1x128_S128,
    unary main_v260 main_v261 (broadcastInDim S1x128 ![1] bcast_S128_S1x128_1 : (⟨S128, .f32⟩ : BufTy).Contents (Elt F) → (⟨S1x128, .f32⟩ : BufTy).Contents (Elt F)),
    unary main_v261 main_v262 (broadcastInDim S50000x128 ![0, 1] bcast_S1x128_S50000x128_0_1 : (⟨S1x128, .f32⟩ : BufTy).Contents (Elt F) → (⟨S50000x128, .f32⟩ : BufTy).Contents (Elt F)),
    binary main_v258 main_v262 main_v263 (addf : (⟨S50000x128, .f32⟩ : BufTy).Contents (Elt F) → (⟨S50000x128, .f32⟩ : BufTy).Contents (Elt F) → (⟨S50000x128, .f32⟩ : BufTy).Contents (Elt F)) ]

theorem normalize2_sub : (normalize2 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., reshape_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub ..⟩

/-! ## The whole line -/

/-- The nine stretches in order. -/
abbrev ops : List (HloOp τ sig (Elt F)) :=
  embedAggregate0 ++ (dense0 ++ (normalize0 ++ (aggregate1 ++ (dense1 ++ (normalize1 ++ (aggregate2 ++ (dense2 ++ (normalize2))))))))

theorem ops_sub : (ops : List (HloOp τ sig (Elt F))).Forall fun op => op.bufs ⊆ tcRefs τ sig := by
  unfold ops
  simp only [List.forall_append]
  exact ⟨embedAggregate0_sub, dense0_sub, normalize0_sub, aggregate1_sub, dense1_sub, normalize1_sub, aggregate2_sub, dense2_sub, normalize2_sub⟩

/-! ## No operation allocates a buffer -/

theorem embedAggregate0_fresh : (embedAggregate0 : List (HloOp τ sig (Elt F))).Forall fun op => op.fresh = ∅ := by
  simp only [List.Forall]; repeat' constructor
theorem dense0_fresh : (dense0 : List (HloOp τ sig (Elt F))).Forall fun op => op.fresh = ∅ := by
  simp only [List.Forall]; repeat' constructor
theorem normalize0_fresh : (normalize0 : List (HloOp τ sig (Elt F))).Forall fun op => op.fresh = ∅ := by
  simp only [List.Forall]; repeat' constructor
theorem aggregate1_fresh : (aggregate1 : List (HloOp τ sig (Elt F))).Forall fun op => op.fresh = ∅ := by
  simp only [List.Forall]; repeat' constructor
theorem dense1_fresh : (dense1 : List (HloOp τ sig (Elt F))).Forall fun op => op.fresh = ∅ := by
  simp only [List.Forall]; repeat' constructor
theorem normalize1_fresh : (normalize1 : List (HloOp τ sig (Elt F))).Forall fun op => op.fresh = ∅ := by
  simp only [List.Forall]; repeat' constructor
theorem aggregate2_fresh : (aggregate2 : List (HloOp τ sig (Elt F))).Forall fun op => op.fresh = ∅ := by
  simp only [List.Forall]; repeat' constructor
theorem dense2_fresh : (dense2 : List (HloOp τ sig (Elt F))).Forall fun op => op.fresh = ∅ := by
  simp only [List.Forall]; repeat' constructor
theorem normalize2_fresh : (normalize2 : List (HloOp τ sig (Elt F))).Forall fun op => op.fresh = ∅ := by
  simp only [List.Forall]; repeat' constructor

theorem ops_fresh : (ops : List (HloOp τ sig (Elt F))).Forall fun op => op.fresh = ∅ := by
  unfold ops
  simp only [List.forall_append]
  exact ⟨embedAggregate0_fresh, dense0_fresh, normalize0_fresh, aggregate1_fresh, dense1_fresh, normalize1_fresh, aggregate2_fresh, dense2_fresh, normalize2_fresh⟩

/-! ## @main is the line, and its run -/

set_option maxRecDepth 65536 in
set_option maxHeartbeats 400000000 in
/-- @main — six printed windows of statements, the positive part a called function — is the nine stretches run in order: both
    are one chain of host steps once the calls are entered and the sequencing is read off. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- From any memory with zero counters every weakly fair execution of @main terminates without a fault, and every buffer ends
    at the fold of the operations over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ op h => (List.forall_iff_forall_mem.mp ops_fresh) op h)

end Cert.ReferenceIdeal.Straight

end
-- ==== Proof.LibFoldAppend.lean ====
/-
  The fold of a line of host operations over a concatenation.

  `StableHlo.after ops V` is what a device's buffers hold once the operations `ops` have run in order from contents `V`.
  Running `l₁` and then `l₂` is running `l₁ ++ l₂`: the fold over a concatenation is the fold over the second line from the
  fold over the first. This is what lets a long straight-line program be read back one stretch at a time, each stretch from
  the contents the previous one leaves.
-/
import Idealize.ShloMosaic.Lib.StableHlo.Run

noncomputable section

namespace Idealize.ShloMosaic.StableHlo

variable {τ : Topo} {sig : RefSig} {Val : EltTy → Type}

/-- The buffers after `l₁ ++ l₂` are the buffers after `l₂` from what `l₁` leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Idealize.ShloMosaic.StableHlo

end
-- ==== Proof.ReferenceKeeps.lean ====
/-
  What each stretch of the reference writes, and what it therefore leaves alone.

  Every host operation writes one buffer, and no buffer is written twice. A stretch's written buffers are listed here; a buffer
  not on a stretch's list holds after the stretch what it held before. The contents after the whole line are the nine
  stretches' folds nested in order (`stage`).
-/
import proofs.«106410_j1503238553652_2_alg».proof.Proof.ReferenceRun
import proofs.«106410_j1503238553652_2_alg».proof.Proof.LibFoldAppend

set_option maxRecDepth 16384

noncomputable section

namespace Cert.ReferenceIdeal.Straight

open Cert.ReferenceIdeal Cert.ReferenceIdeal.Gen Idealize.ShloMosaic Idealize.ShloMosaic.TcCoe Idealize.ShloMosaic.StableHlo

variable {F : FTy → Type} [FloatOps F]

/-- The buffers `embedAggregate0` writes. -/
abbrev embedAggregate0_W : List (Ref sig .tc) :=
  [main_v0, main_v1, main_c, main_v2, main_v3, main_c_0, main_v4, main_v5, main_v6, main_v7, main_v8, main_v9, main_v10, main_c_1, main_v11, main_v12, main_c_2, main_v13, main_v14, main_v15, main_v16, main_v17, main_v18, main_v19, main_v20, main_v21, main_v22, main_v23, main_v24, main_v25, main_v26, main_v27, main_c_3, main_v28, main_v29, main_v30, main_v31, main_c_4, main_v32, main_v33, main_v34, main_v35, main_c_5, main_v36, main_v37, main_c_6, main_v38, main_v39, main_v40, main_v41, main_v42, main_v43, main_v44, main_c_7, main_v45, main_v46, main_c_8, main_v47, main_v48, main_v49, main_v50, main_v51, main_v52, main_c_9, main_v53, main_v54, main_c_10, main_v55, main_v56, main_v57, main_v58, main_v59, main_v60, main_cst, main_v61, main_v62, main_v63]
set_option maxHeartbeats 4000000 in
theorem embedAggregate0_writes : (embedAggregate0 : List (HloOp τ sig (Elt F))).Forall fun op => op.writes ⊆ (embedAggregate0_W.map (Proc.devRef (τ := τ) .tc)).toFinset := by
  simp only [List.Forall, TRef.nullary, TRef.unary, TRef.binary, nullary_writes, unary_writes, binary_writes, ternary_writes, reshape_writes,
    Finset.singleton_subset_iff, List.mem_toFinset]
  repeat' apply And.intro
  all_goals exact List.mem_map_of_mem (by decide)
/-- A buffer `embedAggregate0` does not write keeps its contents. -/
theorem embedAggregate0_keeps (V : Valuation τ sig (Elt F)) (r : Ref sig .tc) (h : r ∉ embedAggregate0_W) :
    after embedAggregate0 V (Proc.devRef .tc r) = V (Proc.devRef .tc r) :=
  after_of_writes_sub embedAggregate0 V embedAggregate0_writes h

/-- The buffers `dense0` writes. -/
abbrev dense0_W : List (Ref sig .tc) :=
  [main_v64, main_v65, main_v66, main_v67, main_v68, main_v69, main_v70, main_v71, main_call0_cst, main_call0_v0, main_v72, main_v73, main_v74, main_v75, main_v76, main_v77, main_v78, main_v79, main_v80]
set_option maxHeartbeats 4000000 in
theorem dense0_writes : (dense0 : List (HloOp τ sig (Elt F))).Forall fun op => op.writes ⊆ (dense0_W.map (Proc.devRef (τ := τ) .tc)).toFinset := by
  simp only [List.Forall, TRef.nullary, TRef.unary, TRef.binary, nullary_writes, unary_writes, binary_writes, ternary_writes, reshape_writes,
    Finset.singleton_subset_iff, List.mem_toFinset]
  repeat' apply And.intro
  all_goals exact List.mem_map_of_mem (by decide)
/-- A buffer `dense0` does not write keeps its contents. -/
theorem dense0_keeps (V : Valuation τ sig (Elt F)) (r : Ref sig .tc) (h : r ∉ dense0_W) :
    after dense0 V (Proc.devRef .tc r) = V (Proc.devRef .tc r) :=
  after_of_writes_sub dense0 V dense0_writes h

/-- The buffers `normalize0` writes. -/
abbrev normalize0_W : List (Ref sig .tc) :=
  [main_cst_11, main_v81, main_cst_12, main_v82, main_v83, main_v84, main_v85, main_v86, main_v87, main_cst_13, main_v88, main_cst_14, main_v89, main_v90, main_v91, main_v92, main_v93, main_v94, main_v95, main_v96, main_v97, main_v98, main_cst_15, main_v99, main_v100, main_v101, main_v102, main_v103, main_v104, main_v105, main_v106, main_v107, main_v108, main_v109, main_call1_cst, main_call1_v0, main_v110]
set_option maxHeartbeats 4000000 in
theorem normalize0_writes : (normalize0 : List (HloOp τ sig (Elt F))).Forall fun op => op.writes ⊆ (normalize0_W.map (Proc.devRef (τ := τ) .tc)).toFinset := by
  simp only [List.Forall, TRef.nullary, TRef.unary, TRef.binary, nullary_writes, unary_writes, binary_writes, ternary_writes, reshape_writes,
    Finset.singleton_subset_iff, List.mem_toFinset]
  repeat' apply And.intro
  all_goals exact List.mem_map_of_mem (by decide)
/-- A buffer `normalize0` does not write keeps its contents. -/
theorem normalize0_keeps (V : Valuation τ sig (Elt F)) (r : Ref sig .tc) (h : r ∉ normalize0_W) :
    after normalize0 V (Proc.devRef .tc r) = V (Proc.devRef .tc r) :=
  after_of_writes_sub normalize0 V normalize0_writes h

/-- The buffers `aggregate1` writes. -/
abbrev aggregate1_W : List (Ref sig .tc) :=
  [main_v111, main_v112, main_c_16, main_v113, main_v114, main_c_17, main_v115, main_v116, main_v117, main_v118, main_v119, main_v120, main_v121, main_c_18, main_v122, main_v123, main_c_19, main_v124, main_v125, main_v126, main_v127, main_v128, main_v129, main_c_20, main_v130, main_v131, main_c_21, main_v132, main_v133, main_v134, main_v135, main_v136, main_v137, main_cst_22, main_v138, main_v139, main_v140]
set_option maxHeartbeats 4000000 in
theorem aggregate1_writes : (aggregate1 : List (HloOp τ sig (Elt F))).Forall fun op => op.writes ⊆ (aggregate1_W.map (Proc.devRef (τ := τ) .tc)).toFinset := by
  simp only [List.Forall, TRef.nullary, TRef.unary, TRef.binary, nullary_writes, unary_writes, binary_writes, ternary_writes, reshape_writes,
    Finset.singleton_subset_iff, List.mem_toFinset]
  repeat' apply And.intro
  all_goals exact List.mem_map_of_mem (by decide)
/-- A buffer `aggregate1` does not write keeps its contents. -/
theorem aggregate1_keeps (V : Valuation τ sig (Elt F)) (r : Ref sig .tc) (h : r ∉ aggregate1_W) :
    after aggregate1 V (Proc.devRef .tc r) = V (Proc.devRef .tc r) :=
  after_of_writes_sub aggregate1 V aggregate1_writes h

/-- The buffers `dense1` writes. -/
abbrev dense1_W : List (Ref sig .tc) :=
  [main_v141, main_v142, main_v143, main_v144, main_v145, main_v146, main_v147, main_v148, main_call2_cst, main_call2_v0, main_v149, main_v150, main_v151, main_v152, main_v153, main_v154, main_v155, main_v156, main_v157]
set_option maxHeartbeats 4000000 in
theorem dense1_writes : (dense1 : List (HloOp τ sig (Elt F))).Forall fun op => op.writes ⊆ (dense1_W.map (Proc.devRef (τ := τ) .tc)).toFinset := by
  simp only [List.Forall, TRef.nullary, TRef.unary, TRef.binary, nullary_writes, unary_writes, binary_writes, ternary_writes, reshape_writes,
    Finset.singleton_subset_iff, List.mem_toFinset]
  repeat' apply And.intro
  all_goals exact List.mem_map_of_mem (by decide)
/-- A buffer `dense1` does not write keeps its contents. -/
theorem dense1_keeps (V : Valuation τ sig (Elt F)) (r : Ref sig .tc) (h : r ∉ dense1_W) :
    after dense1 V (Proc.devRef .tc r) = V (Proc.devRef .tc r) :=
  after_of_writes_sub dense1 V dense1_writes h

/-- The buffers `normalize1` writes. -/
abbrev normalize1_W : List (Ref sig .tc) :=
  [main_cst_23, main_v158, main_cst_24, main_v159, main_v160, main_v161, main_v162, main_v163, main_v164, main_cst_25, main_v165, main_cst_26, main_v166, main_v167, main_v168, main_v169, main_v170, main_v171, main_v172, main_v173, main_v174, main_v175, main_cst_27, main_v176, main_v177, main_v178, main_v179, main_v180, main_v181, main_v182, main_v183, main_v184, main_v185, main_v186, main_call3_cst, main_call3_v0, main_v187]
set_option maxHeartbeats 4000000 in
theorem normalize1_writes : (normalize1 : List (HloOp τ sig (Elt F))).Forall fun op => op.writes ⊆ (normalize1_W.map (Proc.devRef (τ := τ) .tc)).toFinset := by
  simp only [List.Forall, TRef.nullary, TRef.unary, TRef.binary, nullary_writes, unary_writes, binary_writes, ternary_writes, reshape_writes,
    Finset.singleton_subset_iff, List.mem_toFinset]
  repeat' apply And.intro
  all_goals exact List.mem_map_of_mem (by decide)
/-- A buffer `normalize1` does not write keeps its contents. -/
theorem normalize1_keeps (V : Valuation τ sig (Elt F)) (r : Ref sig .tc) (h : r ∉ normalize1_W) :
    after normalize1 V (Proc.devRef .tc r) = V (Proc.devRef .tc r) :=
  after_of_writes_sub normalize1 V normalize1_writes h

/-- The buffers `aggregate2` writes. -/
abbrev aggregate2_W : List (Ref sig .tc) :=
  [main_v188, main_v189, main_c_28, main_v190, main_v191, main_c_29, main_v192, main_v193, main_v194, main_v195, main_v196, main_v197, main_v198, main_c_30, main_v199, main_v200, main_c_31, main_v201, main_v202, main_v203, main_v204, main_v205, main_v206, main_c_32, main_v207, main_v208, main_c_33, main_v209, main_v210, main_v211, main_v212, main_v213, main_v214, main_cst_34, main_v215, main_v216, main_v217]
set_option maxHeartbeats 4000000 in
theorem aggregate2_writes : (aggregate2 : List (HloOp τ sig (Elt F))).Forall fun op => op.writes ⊆ (aggregate2_W.map (Proc.devRef (τ := τ) .tc)).toFinset := by
  simp only [List.Forall, TRef.nullary, TRef.unary, TRef.binary, nullary_writes, unary_writes, binary_writes, ternary_writes, reshape_writes,
    Finset.singleton_subset_iff, List.mem_toFinset]
  repeat' apply And.intro
  all_goals exact List.mem_map_of_mem (by decide)
/-- A buffer `aggregate2` does not write keeps its contents. -/
theorem aggregate2_keeps (V : Valuation τ sig (Elt F)) (r : Ref sig .tc) (h : r ∉ aggregate2_W) :
    after aggregate2 V (Proc.devRef .tc r) = V (Proc.devRef .tc r) :=
  after_of_writes_sub aggregate2 V aggregate2_writes h

/-- The buffers `dense2` writes. -/
abbrev dense2_W : List (Ref sig .tc) :=
  [main_v218, main_v219, main_v220, main_v221, main_v222, main_v223, main_v224, main_v225, main_call4_cst, main_call4_v0, main_v226, main_v227, main_v228, main_v229, main_v230, main_v231, main_v232, main_v233, main_v234]
set_option maxHeartbeats 4000000 in
theorem dense2_writes : (dense2 : List (HloOp τ sig (Elt F))).Forall fun op => op.writes ⊆ (dense2_W.map (Proc.devRef (τ := τ) .tc)).toFinset := by
  simp only [List.Forall, TRef.nullary, TRef.unary, TRef.binary, nullary_writes, unary_writes, binary_writes, ternary_writes, reshape_writes,
    Finset.singleton_subset_iff, List.mem_toFinset]
  repeat' apply And.intro
  all_goals exact List.mem_map_of_mem (by decide)
/-- A buffer `dense2` does not write keeps its contents. -/
theorem dense2_keeps (V : Valuation τ sig (Elt F)) (r : Ref sig .tc) (h : r ∉ dense2_W) :
    after dense2 V (Proc.devRef .tc r) = V (Proc.devRef .tc r) :=
  after_of_writes_sub dense2 V dense2_writes h

/-- The buffers `normalize2` writes. -/
abbrev normalize2_W : List (Ref sig .tc) :=
  [main_cst_35, main_v235, main_cst_36, main_v236, main_v237, main_v238, main_v239, main_v240, main_v241, main_cst_37, main_v242, main_cst_38, main_v243, main_v244, main_v245, main_v246, main_v247, main_v248, main_v249, main_v250, main_v251, main_v252, main_cst_39, main_v253, main_v254, main_v255, main_v256, main_v257, main_v258, main_v259, main_v260, main_v261, main_v262, main_v263]
set_option maxHeartbeats 4000000 in
theorem normalize2_writes : (normalize2 : List (HloOp τ sig (Elt F))).Forall fun op => op.writes ⊆ (normalize2_W.map (Proc.devRef (τ := τ) .tc)).toFinset := by
  simp only [List.Forall, TRef.nullary, TRef.unary, TRef.binary, nullary_writes, unary_writes, binary_writes, ternary_writes, reshape_writes,
    Finset.singleton_subset_iff, List.mem_toFinset]
  repeat' apply And.intro
  all_goals exact List.mem_map_of_mem (by decide)
/-- A buffer `normalize2` does not write keeps its contents. -/
theorem normalize2_keeps (V : Valuation τ sig (Elt F)) (r : Ref sig .tc) (h : r ∉ normalize2_W) :
    after normalize2 V (Proc.devRef .tc r) = V (Proc.devRef .tc r) :=
  after_of_writes_sub normalize2 V normalize2_writes h

/-! ## The contents after each stretch -/

/-- The contents after the first `k` stretches, from contents `V`. -/
abbrev stage1 (V : Valuation τ sig (Elt F)) : Valuation τ sig (Elt F) := after embedAggregate0 (V)
abbrev stage2 (V : Valuation τ sig (Elt F)) : Valuation τ sig (Elt F) := after dense0 (stage1 V)
abbrev stage3 (V : Valuation τ sig (Elt F)) : Valuation τ sig (Elt F) := after normalize0 (stage2 V)
abbrev stage4 (V : Valuation τ sig (Elt F)) : Valuation τ sig (Elt F) := after aggregate1 (stage3 V)
abbrev stage5 (V : Valuation τ sig (Elt F)) : Valuation τ sig (Elt F) := after dense1 (stage4 V)
abbrev stage6 (V : Valuation τ sig (Elt F)) : Valuation τ sig (Elt F) := after normalize1 (stage5 V)
abbrev stage7 (V : Valuation τ sig (Elt F)) : Valuation τ sig (Elt F) := after aggregate2 (stage6 V)
abbrev stage8 (V : Valuation τ sig (Elt F)) : Valuation τ sig (Elt F) := after dense2 (stage7 V)
abbrev stage9 (V : Valuation τ sig (Elt F)) : Valuation τ sig (Elt F) := after normalize2 (stage8 V)

/-- The contents after the whole line are the contents after the ninth stretch. -/
theorem after_ops (V : Valuation τ sig (Elt F)) : after ops V = stage9 V := by
  unfold ops
  simp only [after_append]

end Cert.ReferenceIdeal.Straight

end
-- ==== Proof.ReferenceFrame.lean ====
/-
  The reference's run, read at the buffers the claims speak of.

  No operation of the reference writes an argument array, so each argument holds after the whole line what it held at launch:
  that is the reference's frame. The result buffer holds the ninth stretch's fold over the launch contents.
-/
import proofs.«106410_j1503238553652_2_alg».proof.Proof.ReferenceKeeps

set_option maxRecDepth 16384

noncomputable section

namespace Cert.ReferenceIdeal.Straight

open Cert.ReferenceIdeal Cert.ReferenceIdeal.Gen Idealize.ShloMosaic Idealize.ShloMosaic.TcCoe Idealize.SL.Sem Idealize.ShloMosaic.StableHlo

variable {F : FTy → Type} [FloatOps F]

/-- The thirteen argument arrays. -/
abbrev argRefs : List (Ref sig .tc) := [main_arg0, main_arg1, main_arg2, main_arg3, main_arg4, main_arg5, main_arg6, main_arg7, main_arg8, main_arg9, main_arg10, main_arg11, main_arg12]

theorem d0 : ∀ r ∈ argRefs, r ∉ embedAggregate0_W := by decide
theorem d1 : ∀ r ∈ argRefs, r ∉ dense0_W := by decide
theorem d2 : ∀ r ∈ argRefs, r ∉ normalize0_W := by decide
theorem d3 : ∀ r ∈ argRefs, r ∉ aggregate1_W := by decide
theorem d4 : ∀ r ∈ argRefs, r ∉ dense1_W := by decide
theorem d5 : ∀ r ∈ argRefs, r ∉ normalize1_W := by decide
theorem d6 : ∀ r ∈ argRefs, r ∉ aggregate2_W := by decide
theorem d7 : ∀ r ∈ argRefs, r ∉ dense2_W := by decide
theorem d8 : ∀ r ∈ argRefs, r ∉ normalize2_W := by decide

/-- An argument array holds after the whole line what it held before it. -/
theorem ops_keeps_arg (V : Valuation τ sig (Elt F)) (r : Ref sig .tc) (h : r ∈ argRefs) :
    after ops V (Proc.devRef .tc r) = V (Proc.devRef .tc r) := by
  rw [after_ops]
  exact (normalize2_keeps _ r (d8 r h)).trans ((dense2_keeps _ r (d7 r h)).trans ((aggregate2_keeps _ r (d6 r h)).trans ((normalize1_keeps _ r (d5 r h)).trans ((dense1_keeps _ r (d4 r h)).trans ((aggregate1_keeps _ r (d3 r h)).trans ((normalize0_keeps _ r (d2 r h)).trans ((dense0_keeps _ r (d1 r h)).trans (embedAggregate0_keeps V r (d0 r h)))))))))

/-- THE FRAME: every weakly fair execution terminates without a fault with the argument arrays as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c main_arg0).trans (ops_keeps_arg _ main_arg0 (by decide)),
     (h c main_arg1).trans (ops_keeps_arg _ main_arg1 (by decide)),
     (h c main_arg2).trans (ops_keeps_arg _ main_arg2 (by decide)),
     (h c main_arg3).trans (ops_keeps_arg _ main_arg3 (by decide)),
     (h c main_arg4).trans (ops_keeps_arg _ main_arg4 (by decide)),
     (h c main_arg5).trans (ops_keeps_arg _ main_arg5 (by decide)),
     (h c main_arg6).trans (ops_keeps_arg _ main_arg6 (by decide)),
     (h c main_arg7).trans (ops_keeps_arg _ main_arg7 (by decide)),
     (h c main_arg8).trans (ops_keeps_arg _ main_arg8 (by decide)),
     (h c main_arg9).trans (ops_keeps_arg _ main_arg9 (by decide)),
     (h c main_arg10).trans (ops_keeps_arg _ main_arg10 (by decide)),
     (h c main_arg11).trans (ops_keeps_arg _ main_arg11 (by decide)),
     (h c main_arg12).trans (ops_keeps_arg _ main_arg12 (by decide))⟩)
    (run m ρ)

/-- The run with the result named: the result buffer ends at the ninth stretch's fold over the launch contents, the arguments as
    launched. -/
theorem run_result (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v263) = stage9 (launchContents m c) (Proc.devRef .tc main_v263)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c main_v263).trans (congrFun (after_ops (F := F) (launchContents m c)) (Proc.devRef .tc main_v263)),
     (h c main_arg0).trans (ops_keeps_arg _ main_arg0 (by decide)),
     (h c main_arg1).trans (ops_keeps_arg _ main_arg1 (by decide)),
     (h c main_arg2).trans (ops_keeps_arg _ main_arg2 (by decide)),
     (h c main_arg3).trans (ops_keeps_arg _ main_arg3 (by decide)),
     (h c main_arg4).trans (ops_keeps_arg _ main_arg4 (by decide)),
     (h c main_arg5).trans (ops_keeps_arg _ main_arg5 (by decide)),
     (h c main_arg6).trans (ops_keeps_arg _ main_arg6 (by decide)),
     (h c main_arg7).trans (ops_keeps_arg _ main_arg7 (by decide)),
     (h c main_arg8).trans (ops_keeps_arg _ main_arg8 (by decide)),
     (h c main_arg9).trans (ops_keeps_arg _ main_arg9 (by decide)),
     (h c main_arg10).trans (ops_keeps_arg _ main_arg10 (by decide)),
     (h c main_arg11).trans (ops_keeps_arg _ main_arg11 (by decide)),
     (h c main_arg12).trans (ops_keeps_arg _ main_arg12 (by decide))⟩)
    (run m ρ)

end Cert.ReferenceIdeal.Straight

end
-- ==== Proof.KernelKeeps.lean ====
/-
  What each host stretch of the kernel's @main writes, and what it therefore leaves alone.

  As in the reference, every host operation writes one buffer and no buffer is written twice; a buffer not on a stretch's list
  holds after the stretch what it held before. (What a launch leaves alone is its own statement: every buffer other than the
  launch's six arrays.)
-/
import proofs.«106410_j1503238553652_2_alg».proof.Proof.Gen.KernelIdeal.Launch
import Idealize.ShloMosaic.Lib.StableHlo.Run

set_option maxRecDepth 16384

noncomputable section

namespace Cert.KernelIdeal.Keeps

open Cert.KernelIdeal Cert.KernelIdeal.Gen Idealize.ShloMosaic Idealize.ShloMosaic.TcCoe Idealize.ShloMosaic.StableHlo

variable {F : FTy → Type} [FloatOps F]

/-- The buffers `hostOps0` writes. -/
abbrev hostOps0_W : List (Ref sig .tc) :=
  [main_v0, main_v1, main_c, main_v2, main_v3, main_c_0, main_v4, main_v5, main_v6, main_v7, main_v8, main_v9, main_v10, main_c_1, main_v11, main_v12, main_c_2, main_v13, main_v14, main_v15, main_v16, main_v17, main_v18, main_v19, main_v20, main_v21, main_v22, main_v23, main_v24, main_v25, main_v26, main_v27, main_c_3, main_v28, main_v29, main_v30, main_v31, main_c_4, main_v32, main_v33, main_v34, main_v35, main_v36, main_v37, main_c_5, main_v38, main_v39, main_c_6, main_v40, main_v41, main_v42, main_v43, main_v44, main_v45, main_v46, main_c_7, main_v47, main_v48, main_c_8, main_v49, main_v50, main_v51, main_v52, main_v53, main_v54, main_c_9, main_v55, main_v56, main_c_10, main_v57, main_v58, main_v59, main_v60, main_v61, main_v62, main_cst, main_v63, main_v64, main_v65, main_v66, main_v67, main_v68, main_v69, main_v70, main_v71, main_v72, main_v73]
set_option maxHeartbeats 4000000 in
theorem hostOps0_writes : (hostOps0 : List (HloOp τ sig (Elt F))).Forall fun op => op.writes ⊆ (hostOps0_W.map (Proc.devRef (τ := τ) .tc)).toFinset := by
  simp only [List.Forall, TRef.nullary, TRef.unary, TRef.binary, nullary_writes, unary_writes, binary_writes, ternary_writes, reshape_writes,
    Finset.singleton_subset_iff, List.mem_toFinset]
  repeat' apply And.intro
  all_goals exact List.mem_map_of_mem (by decide)
/-- A buffer `hostOps0` does not write keeps its contents. -/
theorem hostOps0_keeps (V : Valuation τ sig (Elt F)) (r : Ref sig .tc) (h : r ∉ hostOps0_W) :
    after hostOps0 V (Proc.devRef .tc r) = V (Proc.devRef .tc r) :=
  after_of_writes_sub hostOps0 V hostOps0_writes h

/-- The buffers `hostOps1` writes. -/
abbrev hostOps1_W : List (Ref sig .tc) :=
  [main_cst_11, main_v75, main_cst_12, main_v76, main_v77, main_v78, main_v79, main_v80, main_v81, main_cst_13, main_v82, main_cst_14, main_v83, main_v84, main_v85, main_v86, main_v87, main_v88, main_v89, main_v90, main_v91, main_v92, main_cst_15, main_v93, main_v94, main_v95, main_v96, main_v97, main_v98, main_v99, main_v100, main_v101, main_v102, main_v103]
set_option maxHeartbeats 4000000 in
theorem hostOps1_writes : (hostOps1 : List (HloOp τ sig (Elt F))).Forall fun op => op.writes ⊆ (hostOps1_W.map (Proc.devRef (τ := τ) .tc)).toFinset := by
  simp only [List.Forall, TRef.nullary, TRef.unary, TRef.binary, nullary_writes, unary_writes, binary_writes, ternary_writes, reshape_writes,
    Finset.singleton_subset_iff, List.mem_toFinset]
  repeat' apply And.intro
  all_goals exact List.mem_map_of_mem (by decide)
/-- A buffer `hostOps1` does not write keeps its contents. -/
theorem hostOps1_keeps (V : Valuation τ sig (Elt F)) (r : Ref sig .tc) (h : r ∉ hostOps1_W) :
    after hostOps1 V (Proc.devRef .tc r) = V (Proc.devRef .tc r) :=
  after_of_writes_sub hostOps1 V hostOps1_writes h

/-- The buffers `hostOps1_1` writes. -/
abbrev hostOps1_1_W : List (Ref sig .tc) :=
  [main_call0_cst, main_call0_v0, main_v104]
set_option maxHeartbeats 4000000 in
theorem hostOps1_1_writes : (hostOps1_1 : List (HloOp τ sig (Elt F))).Forall fun op => op.writes ⊆ (hostOps1_1_W.map (Proc.devRef (τ := τ) .tc)).toFinset := by
  simp only [List.Forall, TRef.nullary, TRef.unary, TRef.binary, nullary_writes, unary_writes, binary_writes, ternary_writes, reshape_writes,
    Finset.singleton_subset_iff, List.mem_toFinset]
  repeat' apply And.intro
  all_goals exact List.mem_map_of_mem (by decide)
/-- A buffer `hostOps1_1` does not write keeps its contents. -/
theorem hostOps1_1_keeps (V : Valuation τ sig (Elt F)) (r : Ref sig .tc) (h : r ∉ hostOps1_1_W) :
    after hostOps1_1 V (Proc.devRef .tc r) = V (Proc.devRef .tc r) :=
  after_of_writes_sub hostOps1_1 V hostOps1_1_writes h

/-- The buffers `hostOps1_2` writes. -/
abbrev hostOps1_2_W : List (Ref sig .tc) :=
  [main_v105, main_v106, main_c_16, main_v107, main_v108, main_c_17, main_v109, main_v110, main_v111, main_v112, main_v113, main_v114, main_v115, main_c_18, main_v116, main_v117, main_c_19, main_v118, main_v119, main_v120, main_v121, main_v122, main_v123, main_c_20, main_v124, main_v125, main_c_21, main_v126, main_v127, main_v128, main_v129, main_v130, main_v131, main_cst_22, main_v132, main_v133, main_v134, main_v135, main_v136, main_v137, main_v138, main_v139, main_v140, main_v141, main_v142]
set_option maxHeartbeats 4000000 in
theorem hostOps1_2_writes : (hostOps1_2 : List (HloOp τ sig (Elt F))).Forall fun op => op.writes ⊆ (hostOps1_2_W.map (Proc.devRef (τ := τ) .tc)).toFinset := by
  simp only [List.Forall, TRef.nullary, TRef.unary, TRef.binary, nullary_writes, unary_writes, binary_writes, ternary_writes, reshape_writes,
    Finset.singleton_subset_iff, List.mem_toFinset]
  repeat' apply And.intro
  all_goals exact List.mem_map_of_mem (by decide)
/-- A buffer `hostOps1_2` does not write keeps its contents. -/
theorem hostOps1_2_keeps (V : Valuation τ sig (Elt F)) (r : Ref sig .tc) (h : r ∉ hostOps1_2_W) :
    after hostOps1_2 V (Proc.devRef .tc r) = V (Proc.devRef .tc r) :=
  after_of_writes_sub hostOps1_2 V hostOps1_2_writes h

/-- The buffers `hostOps2` writes. -/
abbrev hostOps2_W : List (Ref sig .tc) :=
  [main_cst_23, main_v144, main_cst_24, main_v145, main_v146, main_v147, main_v148, main_v149, main_v150, main_cst_25, main_v151, main_cst_26, main_v152, main_v153, main_v154, main_v155, main_v156, main_v157, main_v158, main_v159, main_v160, main_v161, main_cst_27, main_v162, main_v163, main_v164, main_v165, main_v166, main_v167, main_v168, main_v169, main_v170, main_v171, main_v172]
set_option maxHeartbeats 4000000 in
theorem hostOps2_writes : (hostOps2 : List (HloOp τ sig (Elt F))).Forall fun op => op.writes ⊆ (hostOps2_W.map (Proc.devRef (τ := τ) .tc)).toFinset := by
  simp only [List.Forall, TRef.nullary, TRef.unary, TRef.binary, nullary_writes, unary_writes, binary_writes, ternary_writes, reshape_writes,
    Finset.singleton_subset_iff, List.mem_toFinset]
  repeat' apply And.intro
  all_goals exact List.mem_map_of_mem (by decide)
/-- A buffer `hostOps2` does not write keeps its contents. -/
theorem hostOps2_keeps (V : Valuation τ sig (Elt F)) (r : Ref sig .tc) (h : r ∉ hostOps2_W) :
    after hostOps2 V (Proc.devRef .tc r) = V (Proc.devRef .tc r) :=
  after_of_writes_sub hostOps2 V hostOps2_writes h

/-- The buffers `hostOps2_1` writes. -/
abbrev hostOps2_1_W : List (Ref sig .tc) :=
  [main_call1_cst, main_call1_v0, main_v173]
set_option maxHeartbeats 4000000 in
theorem hostOps2_1_writes : (hostOps2_1 : List (HloOp τ sig (Elt F))).Forall fun op => op.writes ⊆ (hostOps2_1_W.map (Proc.devRef (τ := τ) .tc)).toFinset := by
  simp only [List.Forall, TRef.nullary, TRef.unary, TRef.binary, nullary_writes, unary_writes, binary_writes, ternary_writes, reshape_writes,
    Finset.singleton_subset_iff, List.mem_toFinset]
  repeat' apply And.intro
  all_goals exact List.mem_map_of_mem (by decide)
/-- A buffer `hostOps2_1` does not write keeps its contents. -/
theorem hostOps2_1_keeps (V : Valuation τ sig (Elt F)) (r : Ref sig .tc) (h : r ∉ hostOps2_1_W) :
    after hostOps2_1 V (Proc.devRef .tc r) = V (Proc.devRef .tc r) :=
  after_of_writes_sub hostOps2_1 V hostOps2_1_writes h

/-- The buffers `hostOps2_2` writes. -/
abbrev hostOps2_2_W : List (Ref sig .tc) :=
  [main_v174, main_v175, main_c_28, main_v176, main_v177, main_c_29, main_v178, main_v179, main_v180, main_v181, main_v182, main_v183, main_v184, main_c_30, main_v185, main_v186, main_c_31, main_v187, main_v188, main_v189, main_v190, main_v191, main_v192, main_c_32, main_v193, main_v194, main_c_33, main_v195, main_v196, main_v197, main_v198, main_v199, main_v200, main_cst_34, main_v201, main_v202, main_v203, main_v204, main_v205, main_v206, main_v207, main_v208, main_v209, main_v210, main_v211]
set_option maxHeartbeats 4000000 in
theorem hostOps2_2_writes : (hostOps2_2 : List (HloOp τ sig (Elt F))).Forall fun op => op.writes ⊆ (hostOps2_2_W.map (Proc.devRef (τ := τ) .tc)).toFinset := by
  simp only [List.Forall, TRef.nullary, TRef.unary, TRef.binary, nullary_writes, unary_writes, binary_writes, ternary_writes, reshape_writes,
    Finset.singleton_subset_iff, List.mem_toFinset]
  repeat' apply And.intro
  all_goals exact List.mem_map_of_mem (by decide)
/-- A buffer `hostOps2_2` does not write keeps its contents. -/
theorem hostOps2_2_keeps (V : Valuation τ sig (Elt F)) (r : Ref sig .tc) (h : r ∉ hostOps2_2_W) :
    after hostOps2_2 V (Proc.devRef .tc r) = V (Proc.devRef .tc r) :=
  after_of_writes_sub hostOps2_2 V hostOps2_2_writes h

/-- The buffers `hostOps3` writes. -/
abbrev hostOps3_W : List (Ref sig .tc) :=
  [main_cst_35, main_v213, main_cst_36, main_v214, main_v215, main_v216, main_v217, main_v218, main_v219, main_cst_37, main_v220, main_cst_38, main_v221, main_v222, main_v223, main_v224, main_v225, main_v226, main_v227, main_v228, main_v229, main_v230, main_cst_39, main_v231, main_v232, main_v233, main_v234, main_v235, main_v236, main_v237, main_v238, main_v239, main_v240, main_v241]
set_option maxHeartbeats 4000000 in
theorem hostOps3_writes : (hostOps3 : List (HloOp τ sig (Elt F))).Forall fun op => op.writes ⊆ (hostOps3_W.map (Proc.devRef (τ := τ) .tc)).toFinset := by
  simp only [List.Forall, TRef.nullary, TRef.unary, TRef.binary, nullary_writes, unary_writes, binary_writes, ternary_writes, reshape_writes,
    Finset.singleton_subset_iff, List.mem_toFinset]
  repeat' apply And.intro
  all_goals exact List.mem_map_of_mem (by decide)
/-- A buffer `hostOps3` does not write keeps its contents. -/
theorem hostOps3_keeps (V : Valuation τ sig (Elt F)) (r : Ref sig .tc) (h : r ∉ hostOps3_W) :
    after hostOps3 V (Proc.devRef .tc r) = V (Proc.devRef .tc r) :=
  after_of_writes_sub hostOps3 V hostOps3_writes h

end Cert.KernelIdeal.Keeps

end
-- ==== Proof.Persist.lean ====
/-
  What stays the same on both sides from one stretch to the next.

  From the first stretch on, thirteen argument arrays and four index arrays (edge sources, edge destinations and the two edge
  attributes, each with the self loops appended) are never written again on either side, and the two programs hold equal
  contents in them; the kernel's @main also keeps its two bias arrays with a unit axis put in the middle. `Persist` states
  this of a pair of contents, and it passes to later contents on either side whenever the stretch or launch in between writes
  none of those buffers.
-/
import proofs.«106410_j1503238553652_2_alg».proof.Proof.Gen.KernelIdeal.Frame
import proofs.«106410_j1503238553652_2_alg».proof.Proof.KernelKeeps
import proofs.«106410_j1503238553652_2_alg».proof.Proof.ReferenceKeeps
import Idealize.ShloMosaic.PureOps.Ideal

set_option maxRecDepth 16384
-- every statement here equates contents of a kernel buffer with contents of a reference buffer: comparing the two buffers' types
-- walks both programs' buffer tables
set_option maxHeartbeats 8000000

noncomputable section

namespace Cert.Agree

open Idealize.ShloMosaic Idealize.ShloMosaic.StableHlo

/-- The two sides hold equal contents in the argument arrays and the four index arrays, and the kernel's two mid-axis bias
    arrays are its bias arguments reshaped. -/
structure Persist (VK : Valuation Cert.KernelIdeal.τ Cert.KernelIdeal.sig (Elt Ideal)) (VR : Valuation Cert.ReferenceIdeal.τ Cert.ReferenceIdeal.sig (Elt Ideal)) : Prop where
  a0 : VR (Proc.devRef .tc Cert.ReferenceIdeal.main_arg0) = VK (Proc.devRef .tc Cert.KernelIdeal.main_arg0)
  a1 : VR (Proc.devRef .tc Cert.ReferenceIdeal.main_arg1) = VK (Proc.devRef .tc Cert.KernelIdeal.main_arg1)
  a2 : VR (Proc.devRef .tc Cert.ReferenceIdeal.main_arg2) = VK (Proc.devRef .tc Cert.KernelIdeal.main_arg2)
  a3 : VR (Proc.devRef .tc Cert.ReferenceIdeal.main_arg3) = VK (Proc.devRef .tc Cert.KernelIdeal.main_arg3)
  a4 : VR (Proc.devRef .tc Cert.ReferenceIdeal.main_arg4) = VK (Proc.devRef .tc Cert.KernelIdeal.main_arg4)
  a5 : VR (Proc.devRef .tc Cert.ReferenceIdeal.main_arg5) = VK (Proc.devRef .tc Cert.KernelIdeal.main_arg5)
  a6 : VR (Proc.devRef .tc Cert.ReferenceIdeal.main_arg6) = VK (Proc.devRef .tc Cert.KernelIdeal.main_arg6)
  a7 : VR (Proc.devRef .tc Cert.ReferenceIdeal.main_arg7) = VK (Proc.devRef .tc Cert.KernelIdeal.main_arg7)
  a8 : VR (Proc.devRef .tc Cert.ReferenceIdeal.main_arg8) = VK (Proc.devRef .tc Cert.KernelIdeal.main_arg8)
  a9 : VR (Proc.devRef .tc Cert.ReferenceIdeal.main_arg9) = VK (Proc.devRef .tc Cert.KernelIdeal.main_arg9)
  a10 : VR (Proc.devRef .tc Cert.ReferenceIdeal.main_arg10) = VK (Proc.devRef .tc Cert.KernelIdeal.main_arg10)
  a11 : VR (Proc.devRef .tc Cert.ReferenceIdeal.main_arg11) = VK (Proc.devRef .tc Cert.KernelIdeal.main_arg11)
  a12 : VR (Proc.devRef .tc Cert.ReferenceIdeal.main_arg12) = VK (Proc.devRef .tc Cert.KernelIdeal.main_arg12)
  src : VR (Proc.devRef .tc Cert.ReferenceIdeal.main_v22) = VK (Proc.devRef .tc Cert.KernelIdeal.main_v22)
  dst : VR (Proc.devRef .tc Cert.ReferenceIdeal.main_v25) = VK (Proc.devRef .tc Cert.KernelIdeal.main_v25)
  ea0 : VR (Proc.devRef .tc Cert.ReferenceIdeal.main_v29) = VK (Proc.devRef .tc Cert.KernelIdeal.main_v29)
  ea1 : VR (Proc.devRef .tc Cert.ReferenceIdeal.main_v33) = VK (Proc.devRef .tc Cert.KernelIdeal.main_v33)
  b1m : VK (Proc.devRef .tc Cert.KernelIdeal.main_v34) = shapeCast Cert.KernelIdeal.S3x1x256 (VK (Proc.devRef .tc Cert.KernelIdeal.main_arg8)) Cert.KernelIdeal.Gen.shapeCasts_S3x256_S3x1x256
  b2m : VK (Proc.devRef .tc Cert.KernelIdeal.main_v35) = shapeCast Cert.KernelIdeal.S3x1x128 (VK (Proc.devRef .tc Cert.KernelIdeal.main_arg10)) Cert.KernelIdeal.Gen.shapeCasts_S3x128_S3x1x128

/-- The kernel-side buffers `Persist` speaks of. -/
abbrev keptK : List (Ref Cert.KernelIdeal.sig .tc) := [Cert.KernelIdeal.main_arg0, Cert.KernelIdeal.main_arg1, Cert.KernelIdeal.main_arg2, Cert.KernelIdeal.main_arg3, Cert.KernelIdeal.main_arg4, Cert.KernelIdeal.main_arg5, Cert.KernelIdeal.main_arg6, Cert.KernelIdeal.main_arg7, Cert.KernelIdeal.main_arg8, Cert.KernelIdeal.main_arg9, Cert.KernelIdeal.main_arg10, Cert.KernelIdeal.main_arg11, Cert.KernelIdeal.main_arg12, Cert.KernelIdeal.main_v22, Cert.KernelIdeal.main_v25, Cert.KernelIdeal.main_v29, Cert.KernelIdeal.main_v33, Cert.KernelIdeal.main_v34, Cert.KernelIdeal.main_v35]
/-- The reference-side buffers `Persist` speaks of. -/
abbrev keptR : List (Ref Cert.ReferenceIdeal.sig .tc) := [Cert.ReferenceIdeal.main_arg0, Cert.ReferenceIdeal.main_arg1, Cert.ReferenceIdeal.main_arg2, Cert.ReferenceIdeal.main_arg3, Cert.ReferenceIdeal.main_arg4, Cert.ReferenceIdeal.main_arg5, Cert.ReferenceIdeal.main_arg6, Cert.ReferenceIdeal.main_arg7, Cert.ReferenceIdeal.main_arg8, Cert.ReferenceIdeal.main_arg9, Cert.ReferenceIdeal.main_arg10, Cert.ReferenceIdeal.main_arg11, Cert.ReferenceIdeal.main_arg12, Cert.ReferenceIdeal.main_v22, Cert.ReferenceIdeal.main_v25, Cert.ReferenceIdeal.main_v29, Cert.ReferenceIdeal.main_v33]

variable {VK VK₂ : Valuation Cert.KernelIdeal.τ Cert.KernelIdeal.sig (Elt Ideal)} {VR VR₂ : Valuation Cert.ReferenceIdeal.τ Cert.ReferenceIdeal.sig (Elt Ideal)}

/-- Later kernel contents that keep those buffers keep `Persist`. -/
theorem Persist.kernel (P : Persist VK VR) (hk : ∀ r ∈ keptK, VK₂ (Proc.devRef .tc r) = VK (Proc.devRef .tc r)) : Persist VK₂ VR where
  a0 := P.a0.trans (hk Cert.KernelIdeal.main_arg0 (by decide)).symm
  a1 := P.a1.trans (hk Cert.KernelIdeal.main_arg1 (by decide)).symm
  a2 := P.a2.trans (hk Cert.KernelIdeal.main_arg2 (by decide)).symm
  a3 := P.a3.trans (hk Cert.KernelIdeal.main_arg3 (by decide)).symm
  a4 := P.a4.trans (hk Cert.KernelIdeal.main_arg4 (by decide)).symm
  a5 := P.a5.trans (hk Cert.KernelIdeal.main_arg5 (by decide)).symm
  a6 := P.a6.trans (hk Cert.KernelIdeal.main_arg6 (by decide)).symm
  a7 := P.a7.trans (hk Cert.KernelIdeal.main_arg7 (by decide)).symm
  a8 := P.a8.trans (hk Cert.KernelIdeal.main_arg8 (by decide)).symm
  a9 := P.a9.trans (hk Cert.KernelIdeal.main_arg9 (by decide)).symm
  a10 := P.a10.trans (hk Cert.KernelIdeal.main_arg10 (by decide)).symm
  a11 := P.a11.trans (hk Cert.KernelIdeal.main_arg11 (by decide)).symm
  a12 := P.a12.trans (hk Cert.KernelIdeal.main_arg12 (by decide)).symm
  src := P.src.trans (hk Cert.KernelIdeal.main_v22 (by decide)).symm
  dst := P.dst.trans (hk Cert.KernelIdeal.main_v25 (by decide)).symm
  ea0 := P.ea0.trans (hk Cert.KernelIdeal.main_v29 (by decide)).symm
  ea1 := P.ea1.trans (hk Cert.KernelIdeal.main_v33 (by decide)).symm
  b1m := by rw [hk Cert.KernelIdeal.main_v34 (by decide), hk Cert.KernelIdeal.main_arg8 (by decide)]; exact P.b1m
  b2m := by rw [hk Cert.KernelIdeal.main_v35 (by decide), hk Cert.KernelIdeal.main_arg10 (by decide)]; exact P.b2m

/-- Later reference contents that keep those buffers keep `Persist`. -/
theorem Persist.reference (P : Persist VK VR) (hr : ∀ r ∈ keptR, VR₂ (Proc.devRef .tc r) = VR (Proc.devRef .tc r)) : Persist VK VR₂ where
  a0 := (hr Cert.ReferenceIdeal.main_arg0 (by decide)).trans P.a0
  a1 := (hr Cert.ReferenceIdeal.main_arg1 (by decide)).trans P.a1
  a2 := (hr Cert.ReferenceIdeal.main_arg2 (by decide)).trans P.a2
  a3 := (hr Cert.ReferenceIdeal.main_arg3 (by decide)).trans P.a3
  a4 := (hr Cert.ReferenceIdeal.main_arg4 (by decide)).trans P.a4
  a5 := (hr Cert.ReferenceIdeal.main_arg5 (by decide)).trans P.a5
  a6 := (hr Cert.ReferenceIdeal.main_arg6 (by decide)).trans P.a6
  a7 := (hr Cert.ReferenceIdeal.main_arg7 (by decide)).trans P.a7
  a8 := (hr Cert.ReferenceIdeal.main_arg8 (by decide)).trans P.a8
  a9 := (hr Cert.ReferenceIdeal.main_arg9 (by decide)).trans P.a9
  a10 := (hr Cert.ReferenceIdeal.main_arg10 (by decide)).trans P.a10
  a11 := (hr Cert.ReferenceIdeal.main_arg11 (by decide)).trans P.a11
  a12 := (hr Cert.ReferenceIdeal.main_arg12 (by decide)).trans P.a12
  src := (hr Cert.ReferenceIdeal.main_v22 (by decide)).trans P.src
  dst := (hr Cert.ReferenceIdeal.main_v25 (by decide)).trans P.dst
  ea0 := (hr Cert.ReferenceIdeal.main_v29 (by decide)).trans P.ea0
  ea1 := (hr Cert.ReferenceIdeal.main_v33 (by decide)).trans P.ea1
  b1m := P.b1m
  b2m := P.b2m

end Cert.Agree

end
-- ==== Proof.PersistStretches.lean ====
/-
  Every host stretch after the first, on either side, writes none of the persistent buffers.

  Each stretch's written buffers are listed with it; none of the thirteen arguments, the four index arrays or the kernel's two
  mid-axis bias arrays is among them.
-/
import proofs.«106410_j1503238553652_2_alg».proof.Proof.Persist
import Idealize.ShloMosaic.PureOps.Ideal

set_option maxRecDepth 16384
-- every statement here equates contents of a kernel buffer with contents of a reference buffer: comparing the two buffers' types
-- walks both programs' buffer tables
set_option maxHeartbeats 8000000

noncomputable section

namespace Cert.Agree

open Idealize.ShloMosaic Idealize.ShloMosaic.StableHlo

variable {VK : Valuation Cert.KernelIdeal.τ Cert.KernelIdeal.sig (Elt Ideal)} {VR : Valuation Cert.ReferenceIdeal.τ Cert.ReferenceIdeal.sig (Elt Ideal)}

theorem hostOps1_avoids : ∀ r ∈ keptK, r ∉ Cert.KernelIdeal.Keeps.hostOps1_W := by decide
theorem Persist.hostOps1 (P : Persist VK VR) : Persist (after (Cert.KernelIdeal.Gen.hostOps1 (F := Ideal)) VK) VR :=
  P.kernel fun r hr => Cert.KernelIdeal.Keeps.hostOps1_keeps VK r (hostOps1_avoids r hr)
theorem hostOps1_1_avoids : ∀ r ∈ keptK, r ∉ Cert.KernelIdeal.Keeps.hostOps1_1_W := by decide
theorem Persist.hostOps1_1 (P : Persist VK VR) : Persist (after (Cert.KernelIdeal.Gen.hostOps1_1 (F := Ideal)) VK) VR :=
  P.kernel fun r hr => Cert.KernelIdeal.Keeps.hostOps1_1_keeps VK r (hostOps1_1_avoids r hr)
theorem hostOps1_2_avoids : ∀ r ∈ keptK, r ∉ Cert.KernelIdeal.Keeps.hostOps1_2_W := by decide
theorem Persist.hostOps1_2 (P : Persist VK VR) : Persist (after (Cert.KernelIdeal.Gen.hostOps1_2 (F := Ideal)) VK) VR :=
  P.kernel fun r hr => Cert.KernelIdeal.Keeps.hostOps1_2_keeps VK r (hostOps1_2_avoids r hr)
theorem hostOps2_avoids : ∀ r ∈ keptK, r ∉ Cert.KernelIdeal.Keeps.hostOps2_W := by decide
theorem Persist.hostOps2 (P : Persist VK VR) : Persist (after (Cert.KernelIdeal.Gen.hostOps2 (F := Ideal)) VK) VR :=
  P.kernel fun r hr => Cert.KernelIdeal.Keeps.hostOps2_keeps VK r (hostOps2_avoids r hr)
theorem hostOps2_1_avoids : ∀ r ∈ keptK, r ∉ Cert.KernelIdeal.Keeps.hostOps2_1_W := by decide
theorem Persist.hostOps2_1 (P : Persist VK VR) : Persist (after (Cert.KernelIdeal.Gen.hostOps2_1 (F := Ideal)) VK) VR :=
  P.kernel fun r hr => Cert.KernelIdeal.Keeps.hostOps2_1_keeps VK r (hostOps2_1_avoids r hr)
theorem hostOps2_2_avoids : ∀ r ∈ keptK, r ∉ Cert.KernelIdeal.Keeps.hostOps2_2_W := by decide
theorem Persist.hostOps2_2 (P : Persist VK VR) : Persist (after (Cert.KernelIdeal.Gen.hostOps2_2 (F := Ideal)) VK) VR :=
  P.kernel fun r hr => Cert.KernelIdeal.Keeps.hostOps2_2_keeps VK r (hostOps2_2_avoids r hr)
theorem hostOps3_avoids : ∀ r ∈ keptK, r ∉ Cert.KernelIdeal.Keeps.hostOps3_W := by decide
theorem Persist.hostOps3 (P : Persist VK VR) : Persist (after (Cert.KernelIdeal.Gen.hostOps3 (F := Ideal)) VK) VR :=
  P.kernel fun r hr => Cert.KernelIdeal.Keeps.hostOps3_keeps VK r (hostOps3_avoids r hr)

theorem dense0_avoids : ∀ r ∈ keptR, r ∉ Cert.ReferenceIdeal.Straight.dense0_W := by decide
theorem Persist.dense0 (P : Persist VK VR) : Persist VK (after (Cert.ReferenceIdeal.Straight.dense0 (F := Ideal)) VR) :=
  P.reference fun r hr => Cert.ReferenceIdeal.Straight.dense0_keeps VR r (dense0_avoids r hr)
theorem normalize0_avoids : ∀ r ∈ keptR, r ∉ Cert.ReferenceIdeal.Straight.normalize0_W := by decide
theorem Persist.normalize0 (P : Persist VK VR) : Persist VK (after (Cert.ReferenceIdeal.Straight.normalize0 (F := Ideal)) VR) :=
  P.reference fun r hr => Cert.ReferenceIdeal.Straight.normalize0_keeps VR r (normalize0_avoids r hr)
theorem aggregate1_avoids : ∀ r ∈ keptR, r ∉ Cert.ReferenceIdeal.Straight.aggregate1_W := by decide
theorem Persist.aggregate1 (P : Persist VK VR) : Persist VK (after (Cert.ReferenceIdeal.Straight.aggregate1 (F := Ideal)) VR) :=
  P.reference fun r hr => Cert.ReferenceIdeal.Straight.aggregate1_keeps VR r (aggregate1_avoids r hr)
theorem dense1_avoids : ∀ r ∈ keptR, r ∉ Cert.ReferenceIdeal.Straight.dense1_W := by decide
theorem Persist.dense1 (P : Persist VK VR) : Persist VK (after (Cert.ReferenceIdeal.Straight.dense1 (F := Ideal)) VR) :=
  P.reference fun r hr => Cert.ReferenceIdeal.Straight.dense1_keeps VR r (dense1_avoids r hr)
theorem normalize1_avoids : ∀ r ∈ keptR, r ∉ Cert.ReferenceIdeal.Straight.normalize1_W := by decide
theorem Persist.normalize1 (P : Persist VK VR) : Persist VK (after (Cert.ReferenceIdeal.Straight.normalize1 (F := Ideal)) VR) :=
  P.reference fun r hr => Cert.ReferenceIdeal.Straight.normalize1_keeps VR r (normalize1_avoids r hr)
theorem aggregate2_avoids : ∀ r ∈ keptR, r ∉ Cert.ReferenceIdeal.Straight.aggregate2_W := by decide
theorem Persist.aggregate2 (P : Persist VK VR) : Persist VK (after (Cert.ReferenceIdeal.Straight.aggregate2 (F := Ideal)) VR) :=
  P.reference fun r hr => Cert.ReferenceIdeal.Straight.aggregate2_keeps VR r (aggregate2_avoids r hr)
theorem dense2_avoids : ∀ r ∈ keptR, r ∉ Cert.ReferenceIdeal.Straight.dense2_W := by decide
theorem Persist.dense2 (P : Persist VK VR) : Persist VK (after (Cert.ReferenceIdeal.Straight.dense2 (F := Ideal)) VR) :=
  P.reference fun r hr => Cert.ReferenceIdeal.Straight.dense2_keeps VR r (dense2_avoids r hr)
theorem normalize2_avoids : ∀ r ∈ keptR, r ∉ Cert.ReferenceIdeal.Straight.normalize2_W := by decide
theorem Persist.normalize2 (P : Persist VK VR) : Persist VK (after (Cert.ReferenceIdeal.Straight.normalize2 (F := Ideal)) VR) :=
  P.reference fun r hr => Cert.ReferenceIdeal.Straight.normalize2_keeps VR r (normalize2_avoids r hr)

end Cert.Agree

end
-- ==== Proof.PersistLaunches.lean ====
/-
  A launch changes only its output array.

  Each launch's six arrays — the summed messages, the two weight slices, the two bias rows and the output — are buffers of that
  layer; none of the persistent buffers is among them, so the persistent buffers hold after a launch what they held before.
-/
import proofs.«106410_j1503238553652_2_alg».proof.Proof.Persist
import Idealize.ShloMosaic.PureOps.Ideal

set_option maxRecDepth 16384
-- every statement here equates contents of a kernel buffer with contents of a reference buffer: comparing the two buffers' types
-- walks both programs' buffer tables
set_option maxHeartbeats 8000000

noncomputable section

namespace Cert.Agree

open Idealize.ShloMosaic Idealize.ShloMosaic.StableHlo

variable {VK : Valuation Cert.KernelIdeal.τ Cert.KernelIdeal.sig (Elt Ideal)} {VR : Valuation Cert.ReferenceIdeal.τ Cert.ReferenceIdeal.sig (Elt Ideal)}

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

/-- None of the persistent buffers is one of launch 0's six arrays. -/
theorem launch0_avoids : ∀ r ∈ keptK, ∀ w, Pipeline.arrRef Cert.KernelIdeal.spec0 w ≠ r := by
  intro r hr
  simp only [keptK, List.mem_cons, List.mem_singleton, List.not_mem_nil, or_false] at hr
  rcases hr with rfl | rfl | rfl | rfl | rfl | rfl | rfl | rfl | rfl | rfl | rfl | rfl | rfl | rfl | rfl | rfl | rfl | rfl | rfl <;> decide
theorem Persist.launch0 (P : Persist (Cert.KernelIdeal.Gen.W1 m ρ c) VR) : Persist (Cert.KernelIdeal.Gen.W2 m ρ c) VR :=
  P.kernel fun r hr => Cert.KernelIdeal.Gen.W2_of_ne m ρ c r (launch0_avoids r hr)

/-- None of the persistent buffers is one of launch 1's six arrays. -/
theorem launch1_avoids : ∀ r ∈ keptK, ∀ w, Pipeline.arrRef Cert.KernelIdeal.spec1 w ≠ r := by
  intro r hr
  simp only [keptK, List.mem_cons, List.mem_singleton, List.not_mem_nil, or_false] at hr
  rcases hr with rfl | rfl | rfl | rfl | rfl | rfl | rfl | rfl | rfl | rfl | rfl | rfl | rfl | rfl | rfl | rfl | rfl | rfl | rfl <;> decide
theorem Persist.launch1 (P : Persist (Cert.KernelIdeal.Gen.W5 m ρ c) VR) : Persist (Cert.KernelIdeal.Gen.W6 m ρ c) VR :=
  P.kernel fun r hr => Cert.KernelIdeal.Gen.W6_of_ne m ρ c r (launch1_avoids r hr)

/-- None of the persistent buffers is one of launch 2's six arrays. -/
theorem launch2_avoids : ∀ r ∈ keptK, ∀ w, Pipeline.arrRef Cert.KernelIdeal.spec2 w ≠ r := by
  intro r hr
  simp only [keptK, List.mem_cons, List.mem_singleton, List.not_mem_nil, or_false] at hr
  rcases hr with rfl | rfl | rfl | rfl | rfl | rfl | rfl | rfl | rfl | rfl | rfl | rfl | rfl | rfl | rfl | rfl | rfl | rfl | rfl <;> decide
theorem Persist.launch2 (P : Persist (Cert.KernelIdeal.Gen.W9 m ρ c) VR) : Persist (Cert.KernelIdeal.Gen.W10 m ρ c) VR :=
  P.kernel fun r hr => Cert.KernelIdeal.Gen.W10_of_ne m ρ c r (launch2_avoids r hr)

end Cert.Agree

end
-- ==== Proof.LibReadStretch.lean ====
/-
  Reading a stretch of host operations through a two-operand concatenation.

  The contents a buffer holds after a line of host operations are found by rewriting each operation's result at its own buffer
  to its function's value and at any other buffer to what was there. A concatenation takes its operands as a list of
  shape-tagged vectors together with a witness about the list's tags; because the witness speaks of the list, a rewriting pass
  treats the whole list as fixed and stops there. `cat2` is the same concatenation with its two operands as plain arguments
  and a witness about the two tags only, so the pass goes on into the operands. `read_stretch` is the one-pass reading of a
  stretch with that folding added.
-/
import Idealize.ShloMosaic.Lib.StableHlo.Run

noncomputable section

namespace Idealize.ShloMosaic

/-- The concatenation of two vectors along axis `a` of `t`, its operands as arguments. -/
def cat2 {α : Type} (t : Shape) (a : Fin t.rank) (s₁ s₂ : Shape) (x : s₁.Idx → α) (y : s₂.Idx → α)
    (h : Shape.Concatenates [s₁, s₂] t a) : t.Idx → α :=
  concatenate t a [⟨s₁, x⟩, ⟨s₂, y⟩] h

/-- A printed two-operand concatenation is `cat2` of its operands. -/
theorem concatenate_two {α : Type} (t : Shape) (a : Fin t.rank) (s₁ s₂ : Shape) (x : s₁.Idx → α) (y : s₂.Idx → α)
    (h : Shape.Concatenates [s₁, s₂] t a) :
    concatenate t a [⟨s₁, x⟩, ⟨s₂, y⟩] h = cat2 t a s₁ s₂ x y h := rfl

namespace StableHlo

/-- One pass over a stretch's fold at a buffer: each operation's result at its own buffer becomes its function's value, at any
    other buffer what was there (the buffers' inequality decided), and a two-operand concatenation is folded to `cat2` so that
    the pass reads its operands too. -/
macro "read_stretch" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', concatenate_two]))

end StableHlo

end Idealize.ShloMosaic

end
-- ==== Proof.AgreeAggregate.lean ====
/-
  The message sums agree.

  Both programs build the node embeddings, the edge lists with self loops and each layer's message sums with the same host
  operations on buffers of their own. Read back from contents that agree on what a stretch reads, the two stretches leave the
  same arrays: the summed messages of each layer, and the four index arrays (sources, destinations and the two edge attributes,
  each with the self loops appended) that all three layers use.
-/
import proofs.«106410_j1503238553652_2_alg».proof.Proof.Gen.KernelIdeal.Launch
import proofs.«106410_j1503238553652_2_alg».proof.Proof.ReferenceRun
import proofs.«106410_j1503238553652_2_alg».proof.Proof.LibReadStretch
import Idealize.ShloMosaic.PureOps.Ideal

set_option maxRecDepth 16384

noncomputable section

namespace Cert.Agree

open Idealize.ShloMosaic Idealize.ShloMosaic.StableHlo

variable (V : Valuation Cert.KernelIdeal.τ Cert.KernelIdeal.sig (Elt Ideal)) (V' : Valuation Cert.ReferenceIdeal.τ Cert.ReferenceIdeal.sig (Elt Ideal))

set_option maxHeartbeats 16000000 in
/-- The first layer's summed messages, from argument arrays that agree. -/
theorem aggregate0 (h0 : V' (Proc.devRef .tc Cert.ReferenceIdeal.main_arg0) = V (Proc.devRef .tc Cert.KernelIdeal.main_arg0))
    (h1 : V' (Proc.devRef .tc Cert.ReferenceIdeal.main_arg1) = V (Proc.devRef .tc Cert.KernelIdeal.main_arg1))
    (h2 : V' (Proc.devRef .tc Cert.ReferenceIdeal.main_arg2) = V (Proc.devRef .tc Cert.KernelIdeal.main_arg2))
    (h3 : V' (Proc.devRef .tc Cert.ReferenceIdeal.main_arg3) = V (Proc.devRef .tc Cert.KernelIdeal.main_arg3))
    (h4 : V' (Proc.devRef .tc Cert.ReferenceIdeal.main_arg4) = V (Proc.devRef .tc Cert.KernelIdeal.main_arg4))
    (h5 : V' (Proc.devRef .tc Cert.ReferenceIdeal.main_arg5) = V (Proc.devRef .tc Cert.KernelIdeal.main_arg5))
    (h6 : V' (Proc.devRef .tc Cert.ReferenceIdeal.main_arg6) = V (Proc.devRef .tc Cert.KernelIdeal.main_arg6)) :
    after (Cert.ReferenceIdeal.Straight.embedAggregate0 (F := Ideal)) V' (Proc.devRef .tc Cert.ReferenceIdeal.main_v63)
      = after (Cert.KernelIdeal.Gen.hostOps0 (F := Ideal)) V (Proc.devRef .tc Cert.KernelIdeal.main_v65) := by
  simp only [Cert.ReferenceIdeal.Straight.embedAggregate0, Cert.KernelIdeal.Gen.hostOps0]
  read_stretch
  rw [h0, h1, h2, h3, h4, h5, h6]
  rfl

set_option maxHeartbeats 16000000 in
/-- The edge sources with the self loops appended. -/
theorem sources0 (h1 : V' (Proc.devRef .tc Cert.ReferenceIdeal.main_arg1) = V (Proc.devRef .tc Cert.KernelIdeal.main_arg1)) :
    after (Cert.ReferenceIdeal.Straight.embedAggregate0 (F := Ideal)) V' (Proc.devRef .tc Cert.ReferenceIdeal.main_v22)
      = after (Cert.KernelIdeal.Gen.hostOps0 (F := Ideal)) V (Proc.devRef .tc Cert.KernelIdeal.main_v22) := by
  simp only [Cert.ReferenceIdeal.Straight.embedAggregate0, Cert.KernelIdeal.Gen.hostOps0]
  read_stretch
  rw [h1]
  rfl

set_option maxHeartbeats 16000000 in
/-- The edge destinations with the self loops appended. -/
theorem destinations0 (h1 : V' (Proc.devRef .tc Cert.ReferenceIdeal.main_arg1) = V (Proc.devRef .tc Cert.KernelIdeal.main_arg1)) :
    after (Cert.ReferenceIdeal.Straight.embedAggregate0 (F := Ideal)) V' (Proc.devRef .tc Cert.ReferenceIdeal.main_v25)
      = after (Cert.KernelIdeal.Gen.hostOps0 (F := Ideal)) V (Proc.devRef .tc Cert.KernelIdeal.main_v25) := by
  simp only [Cert.ReferenceIdeal.Straight.embedAggregate0, Cert.KernelIdeal.Gen.hostOps0]
  read_stretch
  rw [h1]
  rfl

set_option maxHeartbeats 16000000 in
/-- The first edge attribute with the self loops' value appended. -/
theorem attr0_0 (h2 : V' (Proc.devRef .tc Cert.ReferenceIdeal.main_arg2) = V (Proc.devRef .tc Cert.KernelIdeal.main_arg2)) :
    after (Cert.ReferenceIdeal.Straight.embedAggregate0 (F := Ideal)) V' (Proc.devRef .tc Cert.ReferenceIdeal.main_v29)
      = after (Cert.KernelIdeal.Gen.hostOps0 (F := Ideal)) V (Proc.devRef .tc Cert.KernelIdeal.main_v29) := by
  simp only [Cert.ReferenceIdeal.Straight.embedAggregate0, Cert.KernelIdeal.Gen.hostOps0]
  read_stretch
  rw [h2]
  rfl

set_option maxHeartbeats 16000000 in
/-- The second edge attribute with the self loops' value appended. -/
theorem attr1_0 (h2 : V' (Proc.devRef .tc Cert.ReferenceIdeal.main_arg2) = V (Proc.devRef .tc Cert.KernelIdeal.main_arg2)) :
    after (Cert.ReferenceIdeal.Straight.embedAggregate0 (F := Ideal)) V' (Proc.devRef .tc Cert.ReferenceIdeal.main_v33)
      = after (Cert.KernelIdeal.Gen.hostOps0 (F := Ideal)) V (Proc.devRef .tc Cert.KernelIdeal.main_v33) := by
  simp only [Cert.ReferenceIdeal.Straight.embedAggregate0, Cert.KernelIdeal.Gen.hostOps0]
  read_stretch
  rw [h2]
  rfl

set_option maxHeartbeats 16000000 in
/-- The second layer's summed messages, from the previous layer's output, the index arrays and the edge embedding tables. -/
theorem aggregate1 (hh : V' (Proc.devRef .tc Cert.ReferenceIdeal.main_v110) = V (Proc.devRef .tc Cert.KernelIdeal.main_v104))
    (hs : V' (Proc.devRef .tc Cert.ReferenceIdeal.main_v22) = V (Proc.devRef .tc Cert.KernelIdeal.main_v22))
    (hd : V' (Proc.devRef .tc Cert.ReferenceIdeal.main_v25) = V (Proc.devRef .tc Cert.KernelIdeal.main_v25))
    (ha0 : V' (Proc.devRef .tc Cert.ReferenceIdeal.main_v29) = V (Proc.devRef .tc Cert.KernelIdeal.main_v29))
    (ha1 : V' (Proc.devRef .tc Cert.ReferenceIdeal.main_v33) = V (Proc.devRef .tc Cert.KernelIdeal.main_v33))
    (h5 : V' (Proc.devRef .tc Cert.ReferenceIdeal.main_arg5) = V (Proc.devRef .tc Cert.KernelIdeal.main_arg5))
    (h6 : V' (Proc.devRef .tc Cert.ReferenceIdeal.main_arg6) = V (Proc.devRef .tc Cert.KernelIdeal.main_arg6)) :
    after (Cert.ReferenceIdeal.Straight.aggregate1 (F := Ideal)) V' (Proc.devRef .tc Cert.ReferenceIdeal.main_v140)
      = after (Cert.KernelIdeal.Gen.hostOps1_2 (F := Ideal)) V (Proc.devRef .tc Cert.KernelIdeal.main_v134) := by
  simp only [Cert.ReferenceIdeal.Straight.aggregate1, Cert.KernelIdeal.Gen.hostOps1_2]
  read_stretch
  rw [hh, hs, hd, ha0, ha1, h5, h6]
  rfl

set_option maxHeartbeats 16000000 in
/-- The third layer's summed messages, from the previous layer's output, the index arrays and the edge embedding tables. -/
theorem aggregate2 (hh : V' (Proc.devRef .tc Cert.ReferenceIdeal.main_v187) = V (Proc.devRef .tc Cert.KernelIdeal.main_v173))
    (hs : V' (Proc.devRef .tc Cert.ReferenceIdeal.main_v22) = V (Proc.devRef .tc Cert.KernelIdeal.main_v22))
    (hd : V' (Proc.devRef .tc Cert.ReferenceIdeal.main_v25) = V (Proc.devRef .tc Cert.KernelIdeal.main_v25))
    (ha0 : V' (Proc.devRef .tc Cert.ReferenceIdeal.main_v29) = V (Proc.devRef .tc Cert.KernelIdeal.main_v29))
    (ha1 : V' (Proc.devRef .tc Cert.ReferenceIdeal.main_v33) = V (Proc.devRef .tc Cert.KernelIdeal.main_v33))
    (h5 : V' (Proc.devRef .tc Cert.ReferenceIdeal.main_arg5) = V (Proc.devRef .tc Cert.KernelIdeal.main_arg5))
    (h6 : V' (Proc.devRef .tc Cert.ReferenceIdeal.main_arg6) = V (Proc.devRef .tc Cert.KernelIdeal.main_arg6)) :
    after (Cert.ReferenceIdeal.Straight.aggregate2 (F := Ideal)) V' (Proc.devRef .tc Cert.ReferenceIdeal.main_v217)
      = after (Cert.KernelIdeal.Gen.hostOps2_2 (F := Ideal)) V (Proc.devRef .tc Cert.KernelIdeal.main_v203) := by
  simp only [Cert.ReferenceIdeal.Straight.aggregate2, Cert.KernelIdeal.Gen.hostOps2_2]
  read_stretch
  rw [hh, hs, hd, ha0, ha1, h5, h6]
  rfl

end Cert.Agree

end
-- ==== Proof.AgreeNormalize.lean ====
/-
  The normalisations agree.

  After the dense update each layer subtracts every column's mean over the 50000 nodes, divides by the square root of the
  column's biased variance plus a small constant, scales and shifts by the layer's rows of the two affine parameters and, in
  the first two layers, keeps the positive part. Both programs do this with the same host operations — the kernel's @main in a
  stretch for the normalisation and a stretch for the called positive part —, so from contents that agree on the dense output
  and on the two parameter arrays they leave the same array.
-/
import proofs.«106410_j1503238553652_2_alg».proof.Proof.Gen.KernelIdeal.Launch
import proofs.«106410_j1503238553652_2_alg».proof.Proof.ReferenceRun
import proofs.«106410_j1503238553652_2_alg».proof.Proof.LibReadStretch
import Idealize.ShloMosaic.PureOps.Ideal

set_option maxRecDepth 16384

noncomputable section

namespace Cert.Agree

open Idealize.ShloMosaic Idealize.ShloMosaic.StableHlo

variable (V : Valuation Cert.KernelIdeal.τ Cert.KernelIdeal.sig (Elt Ideal)) (V' : Valuation Cert.ReferenceIdeal.τ Cert.ReferenceIdeal.sig (Elt Ideal))

set_option maxHeartbeats 16000000 in
/-- The first layer's normalised output with the positive part taken. -/
theorem normalize0 (ho : V' (Proc.devRef .tc Cert.ReferenceIdeal.main_v80) = V (Proc.devRef .tc Cert.KernelIdeal.main_v74))
    (h11 : V' (Proc.devRef .tc Cert.ReferenceIdeal.main_arg11) = V (Proc.devRef .tc Cert.KernelIdeal.main_arg11))
    (h12 : V' (Proc.devRef .tc Cert.ReferenceIdeal.main_arg12) = V (Proc.devRef .tc Cert.KernelIdeal.main_arg12)) :
    after (Cert.ReferenceIdeal.Straight.normalize0 (F := Ideal)) V' (Proc.devRef .tc Cert.ReferenceIdeal.main_v110)
      = after (Cert.KernelIdeal.Gen.hostOps1_1 (F := Ideal)) (after (Cert.KernelIdeal.Gen.hostOps1 (F := Ideal)) V) (Proc.devRef .tc Cert.KernelIdeal.main_v104) := by
  simp only [Cert.ReferenceIdeal.Straight.normalize0, Cert.KernelIdeal.Gen.hostOps1_1, Cert.KernelIdeal.Gen.hostOps1]
  read_stretch
  rw [ho, h11, h12]
  rfl

set_option maxHeartbeats 16000000 in
/-- The second layer's normalised output with the positive part taken. -/
theorem normalize1 (ho : V' (Proc.devRef .tc Cert.ReferenceIdeal.main_v157) = V (Proc.devRef .tc Cert.KernelIdeal.main_v143))
    (h11 : V' (Proc.devRef .tc Cert.ReferenceIdeal.main_arg11) = V (Proc.devRef .tc Cert.KernelIdeal.main_arg11))
    (h12 : V' (Proc.devRef .tc Cert.ReferenceIdeal.main_arg12) = V (Proc.devRef .tc Cert.KernelIdeal.main_arg12)) :
    after (Cert.ReferenceIdeal.Straight.normalize1 (F := Ideal)) V' (Proc.devRef .tc Cert.ReferenceIdeal.main_v187)
      = after (Cert.KernelIdeal.Gen.hostOps2_1 (F := Ideal)) (after (Cert.KernelIdeal.Gen.hostOps2 (F := Ideal)) V) (Proc.devRef .tc Cert.KernelIdeal.main_v173) := by
  simp only [Cert.ReferenceIdeal.Straight.normalize1, Cert.KernelIdeal.Gen.hostOps2_1, Cert.KernelIdeal.Gen.hostOps2]
  read_stretch
  rw [ho, h11, h12]
  rfl

set_option maxHeartbeats 16000000 in
/-- The third layer's normalised output: the result. -/
theorem normalize2 (ho : V' (Proc.devRef .tc Cert.ReferenceIdeal.main_v234) = V (Proc.devRef .tc Cert.KernelIdeal.main_v212))
    (h11 : V' (Proc.devRef .tc Cert.ReferenceIdeal.main_arg11) = V (Proc.devRef .tc Cert.KernelIdeal.main_arg11))
    (h12 : V' (Proc.devRef .tc Cert.ReferenceIdeal.main_arg12) = V (Proc.devRef .tc Cert.KernelIdeal.main_arg12)) :
    after (Cert.ReferenceIdeal.Straight.normalize2 (F := Ideal)) V' (Proc.devRef .tc Cert.ReferenceIdeal.main_v263)
      = after (Cert.KernelIdeal.Gen.hostOps3 (F := Ideal)) V (Proc.devRef .tc Cert.KernelIdeal.main_v241) := by
  simp only [Cert.ReferenceIdeal.Straight.normalize2, Cert.KernelIdeal.Gen.hostOps3]
  read_stretch
  rw [ho, h11, h12]
  rfl

end Cert.Agree

end
-- ==== Proof.MlpSpec.lean ====
/-
  One layer's dense update, one output entry at a time.

  A node's aggregated message is a row `a` of 128 numbers. The update multiplies it by a 128 × 256 matrix `w1`, adds a
  bias row `b1`, keeps the positive part of each of the 256 hidden entries, multiplies by a 256 × 128 matrix `w2` and adds
  a bias row `b2`. Entry `n` of the result is

      ∑ k, max (∑ q, a q · w1 q k + b1 k) 0 · w2 k n + b2 n

  over the extended reals. The statement is per row and per entry and names no array shape, so a block of rows, the whole
  array of rows and a program's own spelling of the same operations can each be read against it. No law of the extended
  reals is used anywhere below this definition beyond a sum's independence of the order of its terms: both programs compute
  in exactly this arrangement.
-/
import Idealize.ShloMosaic.Lib.ValueIdx
import Idealize.ShloMosaic.PureOps.Ideal.Laws

noncomputable section

open scoped BigOperators

namespace Cert.DenseUpdate

/-- Hidden entry `k` of a row: the first linear map, its bias, the positive part. -/
def hidden (a : Fin 128 → EReal) (w1 : Fin 128 → Fin 256 → EReal) (b1 : Fin 256 → EReal) (k : Fin 256) : EReal :=
  max ((∑ q : Fin 128, a q * w1 q k) + b1 k) 0

/-- Output entry `n` of a row: the second linear map of the hidden row, and its bias. -/
def entry (a : Fin 128 → EReal) (w1 : Fin 128 → Fin 256 → EReal) (b1 : Fin 256 → EReal)
    (w2 : Fin 256 → Fin 128 → EReal) (b2 : Fin 128 → EReal) (n : Fin 128) : EReal :=
  (∑ k : Fin 256, hidden a w1 b1 k * w2 k n) + b2 n

/-! ## All rows at once

  The update of a whole array of 50000 rows: entry `(r, n)` of the result is the dense update of row `r`. The weights are
  arrays of 128 × 256 and 256 × 128 numbers, the biases arrays of one row. -/

open Idealize.ShloMosaic Idealize.ShloMosaic.ValueIdx

/-- The dense update applied to every row of `a`. -/
def rowsUpdate (a : (⟨2, ![50000, 128]⟩ : Shape).Idx → EReal) (w1 : (⟨2, ![128, 256]⟩ : Shape).Idx → EReal)
    (b1 : (⟨2, ![1, 256]⟩ : Shape).Idx → EReal) (w2 : (⟨2, ![256, 128]⟩ : Shape).Idx → EReal)
    (b2 : (⟨2, ![1, 128]⟩ : Shape).Idx → EReal) : (⟨2, ![50000, 128]⟩ : Shape).Idx → EReal :=
  fun i => entry (fun q => a (ix2 (⟨(i 0).val, idx2_lt0 i⟩ : Fin 50000) q)) (fun q k => w1 (ix2 q k)) (fun k => b1 (ix2 0 k))
    (fun k n => w2 (ix2 k n)) (fun n => b2 (ix2 0 n)) (⟨(i 1).val, idx2_lt1 i⟩ : Fin 128)

/-- At row `r` and column `n`. -/
theorem rowsUpdate_apply (a : (⟨2, ![50000, 128]⟩ : Shape).Idx → EReal) (w1 : (⟨2, ![128, 256]⟩ : Shape).Idx → EReal)
    (b1 : (⟨2, ![1, 256]⟩ : Shape).Idx → EReal) (w2 : (⟨2, ![256, 128]⟩ : Shape).Idx → EReal)
    (b2 : (⟨2, ![1, 128]⟩ : Shape).Idx → EReal) (r : Fin 50000) (n : Fin 128) :
    rowsUpdate a w1 b1 w2 b2 (ix2 r n)
      = entry (fun q => a (ix2 r q)) (fun q k => w1 (ix2 q k)) (fun k => b1 (ix2 0 k)) (fun k n' => w2 (ix2 k n')) (fun n' => b2 (ix2 0 n')) n := rfl

end Cert.DenseUpdate

end
-- ==== Proof.ReferenceDense.lean ====
/-
  The reference's dense stages as one function of their operands.

  In each layer the reference multiplies the summed messages by the layer's first weight matrix, adds the first bias row spread
  over all rows, keeps the positive part, multiplies by the second weight matrix and adds the second bias row spread over all
  rows. Over the extended reals a host matrix product is the plain sum over the contracted axis, and a row spread over the rows
  reads, at `(r, k)`, the row's entry `k`; so the five operations together are the dense update of every row
  (`Cert.DenseUpdate.rowsUpdate`) of whatever arrays they are applied to.
-/
import proofs.«106410_j1503238553652_2_alg».proof.Proof.Gen.ReferenceIdeal
import proofs.«106410_j1503238553652_2_alg».proof.Proof.MlpSpec
import Idealize.ShloMosaic.Lib.ValueIdx
import Idealize.ShloMosaic.Lib.Pipeline.Value
import Idealize.ShloMosaic.PureOps.Ideal.Laws

noncomputable section

open scoped BigOperators

namespace Cert.ReferenceIdeal.DenseStages

open Cert.ReferenceIdeal Cert.ReferenceIdeal.Gen Idealize.ShloMosaic Idealize.ShloMosaic.ValueIdx

/-! ## The two contractions' operand indices: the left operand's columns against the right operand's rows -/

theorem first_lhs_row (i : S50000x256.Idx) (q : dot_S50000x128_S128x256_S50000x256_1_0_0_1_n_n.contr.Idx) : (dot_S50000x128_S128x256_S50000x256_1_0_0_1_n_n.lhsIdx i q 0).val = (i 0).val := by
  unfold DotDims.lhsIdx
  rw [dif_neg (show ¬(0 : Fin S50000x128.rank) ∈ dot_S50000x128_S128x256_S50000x256_1_0_0_1_n_n.lhsBatch by decide), dif_pos (show (0 : Fin S50000x128.rank) ∈ dot_S50000x128_S128x256_S50000x256_1_0_0_1_n_n.lhsNonContracting by decide)]
  rfl
theorem first_lhs_col (i : S50000x256.Idx) (q : dot_S50000x128_S128x256_S50000x256_1_0_0_1_n_n.contr.Idx) : (dot_S50000x128_S128x256_S50000x256_1_0_0_1_n_n.lhsIdx i q 1).val = (q ⟨0, by decide⟩).val :=
  dot_S50000x128_S128x256_S50000x256_1_0_0_1_n_n.lhsIdx_val_of_single rfl i q
theorem first_rhs_row (i : S50000x256.Idx) (q : dot_S50000x128_S128x256_S50000x256_1_0_0_1_n_n.contr.Idx) : (dot_S50000x128_S128x256_S50000x256_1_0_0_1_n_n.rhsIdx i q 0).val = (q ⟨0, by decide⟩).val :=
  dot_S50000x128_S128x256_S50000x256_1_0_0_1_n_n.rhsIdx_val_of_single rfl i q
theorem first_rhs_col (i : S50000x256.Idx) (q : dot_S50000x128_S128x256_S50000x256_1_0_0_1_n_n.contr.Idx) : (dot_S50000x128_S128x256_S50000x256_1_0_0_1_n_n.rhsIdx i q 1).val = (i 1).val := by
  unfold DotDims.rhsIdx
  rw [dif_neg (show ¬(1 : Fin S128x256.rank) ∈ dot_S50000x128_S128x256_S50000x256_1_0_0_1_n_n.rhsBatch by decide), dif_pos (show (1 : Fin S128x256.rank) ∈ dot_S50000x128_S128x256_S50000x256_1_0_0_1_n_n.rhsNonContracting by decide)]
  rfl
theorem second_lhs_row (i : S50000x128.Idx) (q : dot_S50000x256_S256x128_S50000x128_1_0_0_1_n_n.contr.Idx) : (dot_S50000x256_S256x128_S50000x128_1_0_0_1_n_n.lhsIdx i q 0).val = (i 0).val := by
  unfold DotDims.lhsIdx
  rw [dif_neg (show ¬(0 : Fin S50000x256.rank) ∈ dot_S50000x256_S256x128_S50000x128_1_0_0_1_n_n.lhsBatch by decide), dif_pos (show (0 : Fin S50000x256.rank) ∈ dot_S50000x256_S256x128_S50000x128_1_0_0_1_n_n.lhsNonContracting by decide)]
  rfl
theorem second_lhs_col (i : S50000x128.Idx) (q : dot_S50000x256_S256x128_S50000x128_1_0_0_1_n_n.contr.Idx) : (dot_S50000x256_S256x128_S50000x128_1_0_0_1_n_n.lhsIdx i q 1).val = (q ⟨0, by decide⟩).val :=
  dot_S50000x256_S256x128_S50000x128_1_0_0_1_n_n.lhsIdx_val_of_single rfl i q
theorem second_rhs_row (i : S50000x128.Idx) (q : dot_S50000x256_S256x128_S50000x128_1_0_0_1_n_n.contr.Idx) : (dot_S50000x256_S256x128_S50000x128_1_0_0_1_n_n.rhsIdx i q 0).val = (q ⟨0, by decide⟩).val :=
  dot_S50000x256_S256x128_S50000x128_1_0_0_1_n_n.rhsIdx_val_of_single rfl i q
theorem second_rhs_col (i : S50000x128.Idx) (q : dot_S50000x256_S256x128_S50000x128_1_0_0_1_n_n.contr.Idx) : (dot_S50000x256_S256x128_S50000x128_1_0_0_1_n_n.rhsIdx i q 1).val = (i 1).val := by
  unfold DotDims.rhsIdx
  rw [dif_neg (show ¬(1 : Fin S256x128.rank) ∈ dot_S50000x256_S256x128_S50000x128_1_0_0_1_n_n.rhsBatch by decide), dif_pos (show (1 : Fin S256x128.rank) ∈ dot_S50000x256_S256x128_S50000x128_1_0_0_1_n_n.rhsNonContracting by decide)]
  rfl

/-! ## The two host products at an entry -/

theorem first_product_apply (lhs : FVec Ideal S50000x128 .f32) (rhs : FVec Ideal S128x256 .f32) (r : Fin 50000) (k : Fin 256) :
    Host.dotGeneral (F := Ideal) dot_S50000x128_S128x256_S50000x256_1_0_0_1_n_n none lhs rhs (ix2 r k) = ∑ q : Fin 128, lhs (ix2 r q) * rhs (ix2 q k) := by
  simp only [Host.dotGeneral]
  rw [Ideal.dotGeneral_apply, ← Equiv.sum_comp (contrEquiv1 dot_S50000x128_S128x256_S50000x256_1_0_0_1_n_n 128 rfl rfl).symm]
  refine Finset.sum_congr rfl fun q _ => ?_
  have hq := contrEquiv1_symm_val dot_S50000x128_S128x256_S50000x256_1_0_0_1_n_n 128 rfl rfl q
  have el : dot_S50000x128_S128x256_S50000x256_1_0_0_1_n_n.lhsIdx (ix2 r k) ((contrEquiv1 dot_S50000x128_S128x256_S50000x256_1_0_0_1_n_n 128 rfl rfl).symm q) = ix2 r q := funext fun a => Fin.ext (by
    match a with
    | ⟨0, _⟩ => exact first_lhs_row _ _
    | ⟨1, _⟩ => exact (first_lhs_col _ _).trans hq)
  have er : dot_S50000x128_S128x256_S50000x256_1_0_0_1_n_n.rhsIdx (ix2 r k) ((contrEquiv1 dot_S50000x128_S128x256_S50000x256_1_0_0_1_n_n 128 rfl rfl).symm q) = ix2 q k := funext fun a => Fin.ext (by
    match a with
    | ⟨0, _⟩ => exact (first_rhs_row _ _).trans hq
    | ⟨1, _⟩ => exact first_rhs_col _ _)
  rw [el, er]

theorem second_product_apply (lhs : FVec Ideal S50000x256 .f32) (rhs : FVec Ideal S256x128 .f32) (r : Fin 50000) (n : Fin 128) :
    Host.dotGeneral (F := Ideal) dot_S50000x256_S256x128_S50000x128_1_0_0_1_n_n none lhs rhs (ix2 r n) = ∑ k : Fin 256, lhs (ix2 r k) * rhs (ix2 k n) := by
  simp only [Host.dotGeneral]
  rw [Ideal.dotGeneral_apply, ← Equiv.sum_comp (contrEquiv1 dot_S50000x256_S256x128_S50000x128_1_0_0_1_n_n 256 rfl rfl).symm]
  refine Finset.sum_congr rfl fun k _ => ?_
  have hk := contrEquiv1_symm_val dot_S50000x256_S256x128_S50000x128_1_0_0_1_n_n 256 rfl rfl k
  have el : dot_S50000x256_S256x128_S50000x128_1_0_0_1_n_n.lhsIdx (ix2 r n) ((contrEquiv1 dot_S50000x256_S256x128_S50000x128_1_0_0_1_n_n 256 rfl rfl).symm k) = ix2 r k := funext fun a => Fin.ext (by
    match a with
    | ⟨0, _⟩ => exact second_lhs_row _ _
    | ⟨1, _⟩ => exact (second_lhs_col _ _).trans hk)
  have er : dot_S50000x256_S256x128_S50000x128_1_0_0_1_n_n.rhsIdx (ix2 r n) ((contrEquiv1 dot_S50000x256_S256x128_S50000x128_1_0_0_1_n_n 256 rfl rfl).symm k) = ix2 k n := funext fun a => Fin.ext (by
    match a with
    | ⟨0, _⟩ => exact (second_rhs_row _ _).trans hk
    | ⟨1, _⟩ => exact second_rhs_col _ _)
  rw [el, er]

/-! ## A bias row spread over all rows -/

/-- The first bias: a 1 × 256 row flattened, put back on a unit row axis and repeated down 50000 rows reads, at `(r, k)`, its
    entry `k`. -/
theorem first_bias_apply (b : FVec Ideal S1x256 .f32) (r : Fin 50000) (k : Fin 256) :
    broadcastInDim S50000x256 ![0, 1] bcast_S1x256_S50000x256_0_1
      (broadcastInDim S1x256 ![1] bcast_S256_S1x256_1 (shapeCast S256 b shapeCasts_S1x256_S256)) (ix2 r k) = b (ix2 0 k) := by
  rw [broadcastInDim_apply _ bcast_S1x256_S50000x256_0_1 _ (ix2 r k) (ix2 0 k) (fun a => match a with
      | ⟨0, _⟩ => by show 0 = if (1 : Nat) = 1 then 0 else r.val; rw [if_pos rfl]
      | ⟨1, _⟩ => by show k.val = if (256 : Nat) = 1 then 0 else k.val; rw [if_neg (by decide)]),
    broadcastInDim_apply _ bcast_S256_S1x256_1 _ (ix2 0 k) (ix1 k) (fun a => match a with
      | ⟨0, _⟩ => by show k.val = if (256 : Nat) = 1 then 0 else k.val; rw [if_neg (by decide)])]
  exact shapeCast_apply b shapeCasts_S1x256_S256 (ix1 k) (ix2 0 k)
    (by rewrite [Shape.rowMajor_val_two, Shape.rowMajor_val_one]; show 0 * 256 + k.val = k.val; omega)

/-- The second bias: a 1 × 128 row spread the same way reads, at `(r, n)`, its entry `n`. -/
theorem second_bias_apply (b : FVec Ideal S1x128 .f32) (r : Fin 50000) (n : Fin 128) :
    broadcastInDim S50000x128 ![0, 1] bcast_S1x128_S50000x128_0_1
      (broadcastInDim S1x128 ![1] bcast_S128_S1x128_1 (shapeCast S128 b shapeCasts_S1x128_S128)) (ix2 r n) = b (ix2 0 n) := by
  rw [broadcastInDim_apply _ bcast_S1x128_S50000x128_0_1 _ (ix2 r n) (ix2 0 n) (fun a => match a with
      | ⟨0, _⟩ => by show 0 = if (1 : Nat) = 1 then 0 else r.val; rw [if_pos rfl]
      | ⟨1, _⟩ => by show n.val = if (128 : Nat) = 1 then 0 else n.val; rw [if_neg (by decide)]),
    broadcastInDim_apply _ bcast_S128_S1x128_1 _ (ix2 0 n) (ix1 n) (fun a => match a with
      | ⟨0, _⟩ => by show n.val = if (128 : Nat) = 1 then 0 else n.val; rw [if_neg (by decide)])]
  exact shapeCast_apply b shapeCasts_S1x128_S128 (ix1 n) (ix2 0 n)
    (by rewrite [Shape.rowMajor_val_two, Shape.rowMajor_val_one]; show 0 * 128 + n.val = n.val; omega)

/-! ## The five operations together -/

/-- Product, bias, positive part, product, bias: the dense update of every row. -/
theorem dense_eq (a : FVec Ideal S50000x128 .f32) (w1 : FVec Ideal S128x256 .f32) (b1 : FVec Ideal S1x256 .f32) (w2 : FVec Ideal S256x128 .f32) (b2 : FVec Ideal S1x128 .f32) :
    addf (Host.dotGeneral (F := Ideal) dot_S50000x256_S256x128_S50000x128_1_0_0_1_n_n none
        (maximumf
          (addf (Host.dotGeneral (F := Ideal) dot_S50000x128_S128x256_S50000x256_1_0_0_1_n_n none a w1)
            (broadcastInDim S50000x256 ![0, 1] bcast_S1x256_S50000x256_0_1
              (broadcastInDim S1x256 ![1] bcast_S256_S1x256_1 (shapeCast S256 b1 shapeCasts_S1x256_S256))))
          (broadcastInDim S50000x256 ![] bcast_S_S50000x256 (constant (F := Ideal) S_ .f32 0x00000000#32)))
        w2)
      (broadcastInDim S50000x128 ![0, 1] bcast_S1x128_S50000x128_0_1
        (broadcastInDim S1x128 ![1] bcast_S128_S1x128_1 (shapeCast S128 b2 shapeCasts_S1x128_S128)))
    = Cert.DenseUpdate.rowsUpdate a w1 b1 w2 b2 := by
  funext i
  obtain ⟨r, n, rfl⟩ : ∃ (r : Fin 50000) (n : Fin 128), i = ix2 r n := ⟨i 0, i 1, eq_ix2 i⟩
  rw [Cert.DenseUpdate.rowsUpdate_apply]
  unfold Cert.DenseUpdate.entry Cert.DenseUpdate.hidden
  rw [addf_apply, second_product_apply, second_bias_apply]
  refine congrArg (· + b2 (ix2 0 n)) (Finset.sum_congr rfl fun k _ => ?_)
  refine congrArg (· * w2 (ix2 k n)) ?_
  rw [maximumf_apply, addf_apply, first_product_apply, first_bias_apply]
  refine congrArg (max _) ?_
  rw [broadcastInDim_apply _ bcast_S_S50000x256 _ (ix2 r k) ix0 (fun a => a.elim0)]
  exact Ideal.ofBits_zero_f32

end Cert.ReferenceIdeal.DenseStages

end
-- ==== Proof.DenseOperands.lean ====
/-
  The dense update's operands, on both sides.

  Each layer's dense update takes the layer's summed messages, its 128 × 256 and 256 × 128 slices of the two weight arrays and its
  rows of the two bias arrays. The reference takes the slices inside its dense stretch; the kernel's @main takes them in the host
  stretch before the launch and hands them to the launch as operands, the bias rows through an array with a unit axis put in
  the middle. Read back from any contents, the reference's dense stretch is the dense update of those slices, and the kernel's
  stretch leaves exactly those slices in the launch's operand buffers: a row of a 3 × n array is the same row however the unit
  axes around it are arranged.
-/
import proofs.«106410_j1503238553652_2_alg».proof.Proof.Gen.KernelIdeal.Launch
import proofs.«106410_j1503238553652_2_alg».proof.Proof.ReferenceRun
import proofs.«106410_j1503238553652_2_alg».proof.Proof.ReferenceDense
import proofs.«106410_j1503238553652_2_alg».proof.Proof.LibReadStretch
import Idealize.ShloMosaic.Lib.ValueIdx
import Idealize.ShloMosaic.Lib.Pipeline.Value
import Idealize.ShloMosaic.PureOps.Ideal

set_option maxRecDepth 16384

noncomputable section

namespace Cert.Dense

open Idealize.ShloMosaic Idealize.ShloMosaic.StableHlo Idealize.ShloMosaic.ValueIdx

/-! ## A row of a bias array, two ways -/

/-- Dropping the two unit axes of a 1 × 1 × 256 array: entry `(z, k)` of the result is entry `(0, 0, k)`. -/
theorem b1r0_drop (y : FVec Ideal Cert.KernelIdeal.S1x1x256 .f32) (z : Fin 1) (k : Fin 256) :
    shapeCast Cert.KernelIdeal.S1x256 y Cert.KernelIdeal.Gen.shapeCasts_S1x1x256_S1x256 (ix2 z k) = y (ix3 (0 : Fin 1) (0 : Fin 1) k) :=
  shapeCast_apply y Cert.KernelIdeal.Gen.shapeCasts_S1x1x256_S1x256 (ix2 z k) (ix3 (0 : Fin 1) (0 : Fin 1) k)
    (by rewrite [Shape.rowMajor_val_three, Shape.rowMajor_val_two]; have hz : z.val < 1 := z.isLt; show (0 * 1 + 0) * 256 + k.val = z.val * 256 + k.val; omega)

/-- The slice at `[0, 0, 0]` of a 3 × 1 × 256 array: entry `(0, 0, k)` of the result is entry `(0, 0, k)`. -/
theorem b1r0_slice (y : FVec Ideal Cert.KernelIdeal.S3x1x256 .f32) (k : Fin 256) :
    extractStridedSlice Cert.KernelIdeal.S1x1x256 ![0, 0, 0] y Cert.KernelIdeal.Gen.slices_S3x1x256_S1x1x256_0_0_0 (ix3 (0 : Fin 1) (0 : Fin 1) k) = y (ix3 (0 : Fin 3) (0 : Fin 1) k) :=
  extractStridedSlice_apply ![0, 0, 0] y Cert.KernelIdeal.Gen.slices_S3x1x256_S1x1x256_0_0_0 (ix3 (0 : Fin 1) (0 : Fin 1) k) (ix3 (0 : Fin 3) (0 : Fin 1) k) (fun a => match a with
    | ⟨0, _⟩ => by show 0 = 0 + 0; omega
    | ⟨1, _⟩ => by show 0 = 0 + 0; omega
    | ⟨2, _⟩ => by show k.val = 0 + k.val; omega)

/-- Putting a unit axis in the middle of a 3 × 256 array: entry `(0, 0, k)` of the result is entry `(0, k)`. -/
theorem b1r0_mid (x : FVec Ideal Cert.KernelIdeal.S3x256 .f32) (k : Fin 256) :
    shapeCast Cert.KernelIdeal.S3x1x256 x Cert.KernelIdeal.Gen.shapeCasts_S3x256_S3x1x256 (ix3 (0 : Fin 3) (0 : Fin 1) k) = x (ix2 (0 : Fin 3) k) :=
  shapeCast_apply x Cert.KernelIdeal.Gen.shapeCasts_S3x256_S3x1x256 (ix3 (0 : Fin 3) (0 : Fin 1) k) (ix2 (0 : Fin 3) k)
    (by rewrite [Shape.rowMajor_val_two, Shape.rowMajor_val_three]; show 0 * 256 + k.val = (0 * 1 + 0) * 256 + k.val; omega)

/-- The reference's slice at `[0, 0]` of a 3 × 256 array: entry `(z, k)` of the result is entry `(0, k)`. -/
theorem b1r0_ref (x : FVec Ideal Cert.ReferenceIdeal.S3x256 .f32) (z : Fin 1) (k : Fin 256) :
    extractStridedSlice Cert.ReferenceIdeal.S1x256 ![0, 0] x Cert.ReferenceIdeal.Gen.slices_S3x256_S1x256_0_0 (ix2 z k) = x (ix2 (0 : Fin 3) k) :=
  extractStridedSlice_apply ![0, 0] x Cert.ReferenceIdeal.Gen.slices_S3x256_S1x256_0_0 (ix2 z k) (ix2 (0 : Fin 3) k) (fun a => match a with
    | ⟨0, _⟩ => by have hz : z.val < 1 := z.isLt; show 0 = 0 + z.val; omega
    | ⟨1, _⟩ => by show k.val = 0 + k.val; omega)

/-- Row 0 of a 3 × 256 array, taken the kernel's way (a unit axis put in the middle, a 1 × 1 × 256 slice, the unit axes dropped) and the
    reference's way (a 1 × 256 slice): both read the array at `(0, k)`. -/
theorem bias1_row0 (x : FVec Ideal Cert.KernelIdeal.S3x256 .f32) :
    shapeCast Cert.KernelIdeal.S1x256 (extractStridedSlice Cert.KernelIdeal.S1x1x256 ![0, 0, 0] (shapeCast Cert.KernelIdeal.S3x1x256 x Cert.KernelIdeal.Gen.shapeCasts_S3x256_S3x1x256) Cert.KernelIdeal.Gen.slices_S3x1x256_S1x1x256_0_0_0) Cert.KernelIdeal.Gen.shapeCasts_S1x1x256_S1x256
      = extractStridedSlice Cert.ReferenceIdeal.S1x256 ![0, 0] x Cert.ReferenceIdeal.Gen.slices_S3x256_S1x256_0_0 := by
  funext i
  obtain ⟨z, k, rfl⟩ : ∃ (z : Fin 1) (k : Fin 256), i = ix2 z k := ⟨i 0, i 1, eq_ix2 i⟩
  exact ((b1r0_drop _ z k).trans ((b1r0_slice _ k).trans (b1r0_mid x k))).trans (b1r0_ref x z k).symm

/-- Dropping the two unit axes of a 1 × 1 × 256 array: entry `(z, k)` of the result is entry `(0, 0, k)`. -/
theorem b1r1_drop (y : FVec Ideal Cert.KernelIdeal.S1x1x256 .f32) (z : Fin 1) (k : Fin 256) :
    shapeCast Cert.KernelIdeal.S1x256 y Cert.KernelIdeal.Gen.shapeCasts_S1x1x256_S1x256 (ix2 z k) = y (ix3 (0 : Fin 1) (0 : Fin 1) k) :=
  shapeCast_apply y Cert.KernelIdeal.Gen.shapeCasts_S1x1x256_S1x256 (ix2 z k) (ix3 (0 : Fin 1) (0 : Fin 1) k)
    (by rewrite [Shape.rowMajor_val_three, Shape.rowMajor_val_two]; have hz : z.val < 1 := z.isLt; show (0 * 1 + 0) * 256 + k.val = z.val * 256 + k.val; omega)

/-- The slice at `[1, 0, 0]` of a 3 × 1 × 256 array: entry `(0, 0, k)` of the result is entry `(1, 0, k)`. -/
theorem b1r1_slice (y : FVec Ideal Cert.KernelIdeal.S3x1x256 .f32) (k : Fin 256) :
    extractStridedSlice Cert.KernelIdeal.S1x1x256 ![1, 0, 0] y Cert.KernelIdeal.Gen.slices_S3x1x256_S1x1x256_1_0_0 (ix3 (0 : Fin 1) (0 : Fin 1) k) = y (ix3 (1 : Fin 3) (0 : Fin 1) k) :=
  extractStridedSlice_apply ![1, 0, 0] y Cert.KernelIdeal.Gen.slices_S3x1x256_S1x1x256_1_0_0 (ix3 (0 : Fin 1) (0 : Fin 1) k) (ix3 (1 : Fin 3) (0 : Fin 1) k) (fun a => match a with
    | ⟨0, _⟩ => by show 1 = 1 + 0; omega
    | ⟨1, _⟩ => by show 0 = 0 + 0; omega
    | ⟨2, _⟩ => by show k.val = 0 + k.val; omega)

/-- Putting a unit axis in the middle of a 3 × 256 array: entry `(1, 0, k)` of the result is entry `(1, k)`. -/
theorem b1r1_mid (x : FVec Ideal Cert.KernelIdeal.S3x256 .f32) (k : Fin 256) :
    shapeCast Cert.KernelIdeal.S3x1x256 x Cert.KernelIdeal.Gen.shapeCasts_S3x256_S3x1x256 (ix3 (1 : Fin 3) (0 : Fin 1) k) = x (ix2 (1 : Fin 3) k) :=
  shapeCast_apply x Cert.KernelIdeal.Gen.shapeCasts_S3x256_S3x1x256 (ix3 (1 : Fin 3) (0 : Fin 1) k) (ix2 (1 : Fin 3) k)
    (by rewrite [Shape.rowMajor_val_two, Shape.rowMajor_val_three]; show 1 * 256 + k.val = (1 * 1 + 0) * 256 + k.val; omega)

/-- The reference's slice at `[1, 0]` of a 3 × 256 array: entry `(z, k)` of the result is entry `(1, k)`. -/
theorem b1r1_ref (x : FVec Ideal Cert.ReferenceIdeal.S3x256 .f32) (z : Fin 1) (k : Fin 256) :
    extractStridedSlice Cert.ReferenceIdeal.S1x256 ![1, 0] x Cert.ReferenceIdeal.Gen.slices_S3x256_S1x256_1_0 (ix2 z k) = x (ix2 (1 : Fin 3) k) :=
  extractStridedSlice_apply ![1, 0] x Cert.ReferenceIdeal.Gen.slices_S3x256_S1x256_1_0 (ix2 z k) (ix2 (1 : Fin 3) k) (fun a => match a with
    | ⟨0, _⟩ => by have hz : z.val < 1 := z.isLt; show 1 = 1 + z.val; omega
    | ⟨1, _⟩ => by show k.val = 0 + k.val; omega)

/-- Row 1 of a 3 × 256 array, taken the kernel's way (a unit axis put in the middle, a 1 × 1 × 256 slice, the unit axes dropped) and the
    reference's way (a 1 × 256 slice): both read the array at `(1, k)`. -/
theorem bias1_row1 (x : FVec Ideal Cert.KernelIdeal.S3x256 .f32) :
    shapeCast Cert.KernelIdeal.S1x256 (extractStridedSlice Cert.KernelIdeal.S1x1x256 ![1, 0, 0] (shapeCast Cert.KernelIdeal.S3x1x256 x Cert.KernelIdeal.Gen.shapeCasts_S3x256_S3x1x256) Cert.KernelIdeal.Gen.slices_S3x1x256_S1x1x256_1_0_0) Cert.KernelIdeal.Gen.shapeCasts_S1x1x256_S1x256
      = extractStridedSlice Cert.ReferenceIdeal.S1x256 ![1, 0] x Cert.ReferenceIdeal.Gen.slices_S3x256_S1x256_1_0 := by
  funext i
  obtain ⟨z, k, rfl⟩ : ∃ (z : Fin 1) (k : Fin 256), i = ix2 z k := ⟨i 0, i 1, eq_ix2 i⟩
  exact ((b1r1_drop _ z k).trans ((b1r1_slice _ k).trans (b1r1_mid x k))).trans (b1r1_ref x z k).symm

/-- Dropping the two unit axes of a 1 × 1 × 256 array: entry `(z, k)` of the result is entry `(0, 0, k)`. -/
theorem b1r2_drop (y : FVec Ideal Cert.KernelIdeal.S1x1x256 .f32) (z : Fin 1) (k : Fin 256) :
    shapeCast Cert.KernelIdeal.S1x256 y Cert.KernelIdeal.Gen.shapeCasts_S1x1x256_S1x256 (ix2 z k) = y (ix3 (0 : Fin 1) (0 : Fin 1) k) :=
  shapeCast_apply y Cert.KernelIdeal.Gen.shapeCasts_S1x1x256_S1x256 (ix2 z k) (ix3 (0 : Fin 1) (0 : Fin 1) k)
    (by rewrite [Shape.rowMajor_val_three, Shape.rowMajor_val_two]; have hz : z.val < 1 := z.isLt; show (0 * 1 + 0) * 256 + k.val = z.val * 256 + k.val; omega)

/-- The slice at `[2, 0, 0]` of a 3 × 1 × 256 array: entry `(0, 0, k)` of the result is entry `(2, 0, k)`. -/
theorem b1r2_slice (y : FVec Ideal Cert.KernelIdeal.S3x1x256 .f32) (k : Fin 256) :
    extractStridedSlice Cert.KernelIdeal.S1x1x256 ![2, 0, 0] y Cert.KernelIdeal.Gen.slices_S3x1x256_S1x1x256_2_0_0 (ix3 (0 : Fin 1) (0 : Fin 1) k) = y (ix3 (2 : Fin 3) (0 : Fin 1) k) :=
  extractStridedSlice_apply ![2, 0, 0] y Cert.KernelIdeal.Gen.slices_S3x1x256_S1x1x256_2_0_0 (ix3 (0 : Fin 1) (0 : Fin 1) k) (ix3 (2 : Fin 3) (0 : Fin 1) k) (fun a => match a with
    | ⟨0, _⟩ => by show 2 = 2 + 0; omega
    | ⟨1, _⟩ => by show 0 = 0 + 0; omega
    | ⟨2, _⟩ => by show k.val = 0 + k.val; omega)

/-- Putting a unit axis in the middle of a 3 × 256 array: entry `(2, 0, k)` of the result is entry `(2, k)`. -/
theorem b1r2_mid (x : FVec Ideal Cert.KernelIdeal.S3x256 .f32) (k : Fin 256) :
    shapeCast Cert.KernelIdeal.S3x1x256 x Cert.KernelIdeal.Gen.shapeCasts_S3x256_S3x1x256 (ix3 (2 : Fin 3) (0 : Fin 1) k) = x (ix2 (2 : Fin 3) k) :=
  shapeCast_apply x Cert.KernelIdeal.Gen.shapeCasts_S3x256_S3x1x256 (ix3 (2 : Fin 3) (0 : Fin 1) k) (ix2 (2 : Fin 3) k)
    (by rewrite [Shape.rowMajor_val_two, Shape.rowMajor_val_three]; show 2 * 256 + k.val = (2 * 1 + 0) * 256 + k.val; omega)

/-- The reference's slice at `[2, 0]` of a 3 × 256 array: entry `(z, k)` of the result is entry `(2, k)`. -/
theorem b1r2_ref (x : FVec Ideal Cert.ReferenceIdeal.S3x256 .f32) (z : Fin 1) (k : Fin 256) :
    extractStridedSlice Cert.ReferenceIdeal.S1x256 ![2, 0] x Cert.ReferenceIdeal.Gen.slices_S3x256_S1x256_2_0 (ix2 z k) = x (ix2 (2 : Fin 3) k) :=
  extractStridedSlice_apply ![2, 0] x Cert.ReferenceIdeal.Gen.slices_S3x256_S1x256_2_0 (ix2 z k) (ix2 (2 : Fin 3) k) (fun a => match a with
    | ⟨0, _⟩ => by have hz : z.val < 1 := z.isLt; show 2 = 2 + z.val; omega
    | ⟨1, _⟩ => by show k.val = 0 + k.val; omega)

/-- Row 2 of a 3 × 256 array, taken the kernel's way (a unit axis put in the middle, a 1 × 1 × 256 slice, the unit axes dropped) and the
    reference's way (a 1 × 256 slice): both read the array at `(2, k)`. -/
theorem bias1_row2 (x : FVec Ideal Cert.KernelIdeal.S3x256 .f32) :
    shapeCast Cert.KernelIdeal.S1x256 (extractStridedSlice Cert.KernelIdeal.S1x1x256 ![2, 0, 0] (shapeCast Cert.KernelIdeal.S3x1x256 x Cert.KernelIdeal.Gen.shapeCasts_S3x256_S3x1x256) Cert.KernelIdeal.Gen.slices_S3x1x256_S1x1x256_2_0_0) Cert.KernelIdeal.Gen.shapeCasts_S1x1x256_S1x256
      = extractStridedSlice Cert.ReferenceIdeal.S1x256 ![2, 0] x Cert.ReferenceIdeal.Gen.slices_S3x256_S1x256_2_0 := by
  funext i
  obtain ⟨z, k, rfl⟩ : ∃ (z : Fin 1) (k : Fin 256), i = ix2 z k := ⟨i 0, i 1, eq_ix2 i⟩
  exact ((b1r2_drop _ z k).trans ((b1r2_slice _ k).trans (b1r2_mid x k))).trans (b1r2_ref x z k).symm

/-- Dropping the two unit axes of a 1 × 1 × 128 array: entry `(z, k)` of the result is entry `(0, 0, k)`. -/
theorem b2r0_drop (y : FVec Ideal Cert.KernelIdeal.S1x1x128 .f32) (z : Fin 1) (k : Fin 128) :
    shapeCast Cert.KernelIdeal.S1x128 y Cert.KernelIdeal.Gen.shapeCasts_S1x1x128_S1x128 (ix2 z k) = y (ix3 (0 : Fin 1) (0 : Fin 1) k) :=
  shapeCast_apply y Cert.KernelIdeal.Gen.shapeCasts_S1x1x128_S1x128 (ix2 z k) (ix3 (0 : Fin 1) (0 : Fin 1) k)
    (by rewrite [Shape.rowMajor_val_three, Shape.rowMajor_val_two]; have hz : z.val < 1 := z.isLt; show (0 * 1 + 0) * 128 + k.val = z.val * 128 + k.val; omega)

/-- The slice at `[0, 0, 0]` of a 3 × 1 × 128 array: entry `(0, 0, k)` of the result is entry `(0, 0, k)`. -/
theorem b2r0_slice (y : FVec Ideal Cert.KernelIdeal.S3x1x128 .f32) (k : Fin 128) :
    extractStridedSlice Cert.KernelIdeal.S1x1x128 ![0, 0, 0] y Cert.KernelIdeal.Gen.slices_S3x1x128_S1x1x128_0_0_0 (ix3 (0 : Fin 1) (0 : Fin 1) k) = y (ix3 (0 : Fin 3) (0 : Fin 1) k) :=
  extractStridedSlice_apply ![0, 0, 0] y Cert.KernelIdeal.Gen.slices_S3x1x128_S1x1x128_0_0_0 (ix3 (0 : Fin 1) (0 : Fin 1) k) (ix3 (0 : Fin 3) (0 : Fin 1) k) (fun a => match a with
    | ⟨0, _⟩ => by show 0 = 0 + 0; omega
    | ⟨1, _⟩ => by show 0 = 0 + 0; omega
    | ⟨2, _⟩ => by show k.val = 0 + k.val; omega)

/-- Putting a unit axis in the middle of a 3 × 128 array: entry `(0, 0, k)` of the result is entry `(0, k)`. -/
theorem b2r0_mid (x : FVec Ideal Cert.KernelIdeal.S3x128 .f32) (k : Fin 128) :
    shapeCast Cert.KernelIdeal.S3x1x128 x Cert.KernelIdeal.Gen.shapeCasts_S3x128_S3x1x128 (ix3 (0 : Fin 3) (0 : Fin 1) k) = x (ix2 (0 : Fin 3) k) :=
  shapeCast_apply x Cert.KernelIdeal.Gen.shapeCasts_S3x128_S3x1x128 (ix3 (0 : Fin 3) (0 : Fin 1) k) (ix2 (0 : Fin 3) k)
    (by rewrite [Shape.rowMajor_val_two, Shape.rowMajor_val_three]; show 0 * 128 + k.val = (0 * 1 + 0) * 128 + k.val; omega)

/-- The reference's slice at `[0, 0]` of a 3 × 128 array: entry `(z, k)` of the result is entry `(0, k)`. -/
theorem b2r0_ref (x : FVec Ideal Cert.ReferenceIdeal.S3x128 .f32) (z : Fin 1) (k : Fin 128) :
    extractStridedSlice Cert.ReferenceIdeal.S1x128 ![0, 0] x Cert.ReferenceIdeal.Gen.slices_S3x128_S1x128_0_0 (ix2 z k) = x (ix2 (0 : Fin 3) k) :=
  extractStridedSlice_apply ![0, 0] x Cert.ReferenceIdeal.Gen.slices_S3x128_S1x128_0_0 (ix2 z k) (ix2 (0 : Fin 3) k) (fun a => match a with
    | ⟨0, _⟩ => by have hz : z.val < 1 := z.isLt; show 0 = 0 + z.val; omega
    | ⟨1, _⟩ => by show k.val = 0 + k.val; omega)

/-- Row 0 of a 3 × 128 array, taken the kernel's way (a unit axis put in the middle, a 1 × 1 × 128 slice, the unit axes dropped) and the
    reference's way (a 1 × 128 slice): both read the array at `(0, k)`. -/
theorem bias2_row0 (x : FVec Ideal Cert.KernelIdeal.S3x128 .f32) :
    shapeCast Cert.KernelIdeal.S1x128 (extractStridedSlice Cert.KernelIdeal.S1x1x128 ![0, 0, 0] (shapeCast Cert.KernelIdeal.S3x1x128 x Cert.KernelIdeal.Gen.shapeCasts_S3x128_S3x1x128) Cert.KernelIdeal.Gen.slices_S3x1x128_S1x1x128_0_0_0) Cert.KernelIdeal.Gen.shapeCasts_S1x1x128_S1x128
      = extractStridedSlice Cert.ReferenceIdeal.S1x128 ![0, 0] x Cert.ReferenceIdeal.Gen.slices_S3x128_S1x128_0_0 := by
  funext i
  obtain ⟨z, k, rfl⟩ : ∃ (z : Fin 1) (k : Fin 128), i = ix2 z k := ⟨i 0, i 1, eq_ix2 i⟩
  exact ((b2r0_drop _ z k).trans ((b2r0_slice _ k).trans (b2r0_mid x k))).trans (b2r0_ref x z k).symm

/-- Dropping the two unit axes of a 1 × 1 × 128 array: entry `(z, k)` of the result is entry `(0, 0, k)`. -/
theorem b2r1_drop (y : FVec Ideal Cert.KernelIdeal.S1x1x128 .f32) (z : Fin 1) (k : Fin 128) :
    shapeCast Cert.KernelIdeal.S1x128 y Cert.KernelIdeal.Gen.shapeCasts_S1x1x128_S1x128 (ix2 z k) = y (ix3 (0 : Fin 1) (0 : Fin 1) k) :=
  shapeCast_apply y Cert.KernelIdeal.Gen.shapeCasts_S1x1x128_S1x128 (ix2 z k) (ix3 (0 : Fin 1) (0 : Fin 1) k)
    (by rewrite [Shape.rowMajor_val_three, Shape.rowMajor_val_two]; have hz : z.val < 1 := z.isLt; show (0 * 1 + 0) * 128 + k.val = z.val * 128 + k.val; omega)

/-- The slice at `[1, 0, 0]` of a 3 × 1 × 128 array: entry `(0, 0, k)` of the result is entry `(1, 0, k)`. -/
theorem b2r1_slice (y : FVec Ideal Cert.KernelIdeal.S3x1x128 .f32) (k : Fin 128) :
    extractStridedSlice Cert.KernelIdeal.S1x1x128 ![1, 0, 0] y Cert.KernelIdeal.Gen.slices_S3x1x128_S1x1x128_1_0_0 (ix3 (0 : Fin 1) (0 : Fin 1) k) = y (ix3 (1 : Fin 3) (0 : Fin 1) k) :=
  extractStridedSlice_apply ![1, 0, 0] y Cert.KernelIdeal.Gen.slices_S3x1x128_S1x1x128_1_0_0 (ix3 (0 : Fin 1) (0 : Fin 1) k) (ix3 (1 : Fin 3) (0 : Fin 1) k) (fun a => match a with
    | ⟨0, _⟩ => by show 1 = 1 + 0; omega
    | ⟨1, _⟩ => by show 0 = 0 + 0; omega
    | ⟨2, _⟩ => by show k.val = 0 + k.val; omega)

/-- Putting a unit axis in the middle of a 3 × 128 array: entry `(1, 0, k)` of the result is entry `(1, k)`. -/
theorem b2r1_mid (x : FVec Ideal Cert.KernelIdeal.S3x128 .f32) (k : Fin 128) :
    shapeCast Cert.KernelIdeal.S3x1x128 x Cert.KernelIdeal.Gen.shapeCasts_S3x128_S3x1x128 (ix3 (1 : Fin 3) (0 : Fin 1) k) = x (ix2 (1 : Fin 3) k) :=
  shapeCast_apply x Cert.KernelIdeal.Gen.shapeCasts_S3x128_S3x1x128 (ix3 (1 : Fin 3) (0 : Fin 1) k) (ix2 (1 : Fin 3) k)
    (by rewrite [Shape.rowMajor_val_two, Shape.rowMajor_val_three]; show 1 * 128 + k.val = (1 * 1 + 0) * 128 + k.val; omega)

/-- The reference's slice at `[1, 0]` of a 3 × 128 array: entry `(z, k)` of the result is entry `(1, k)`. -/
theorem b2r1_ref (x : FVec Ideal Cert.ReferenceIdeal.S3x128 .f32) (z : Fin 1) (k : Fin 128) :
    extractStridedSlice Cert.ReferenceIdeal.S1x128 ![1, 0] x Cert.ReferenceIdeal.Gen.slices_S3x128_S1x128_1_0 (ix2 z k) = x (ix2 (1 : Fin 3) k) :=
  extractStridedSlice_apply ![1, 0] x Cert.ReferenceIdeal.Gen.slices_S3x128_S1x128_1_0 (ix2 z k) (ix2 (1 : Fin 3) k) (fun a => match a with
    | ⟨0, _⟩ => by have hz : z.val < 1 := z.isLt; show 1 = 1 + z.val; omega
    | ⟨1, _⟩ => by show k.val = 0 + k.val; omega)

/-- Row 1 of a 3 × 128 array, taken the kernel's way (a unit axis put in the middle, a 1 × 1 × 128 slice, the unit axes dropped) and the
    reference's way (a 1 × 128 slice): both read the array at `(1, k)`. -/
theorem bias2_row1 (x : FVec Ideal Cert.KernelIdeal.S3x128 .f32) :
    shapeCast Cert.KernelIdeal.S1x128 (extractStridedSlice Cert.KernelIdeal.S1x1x128 ![1, 0, 0] (shapeCast Cert.KernelIdeal.S3x1x128 x Cert.KernelIdeal.Gen.shapeCasts_S3x128_S3x1x128) Cert.KernelIdeal.Gen.slices_S3x1x128_S1x1x128_1_0_0) Cert.KernelIdeal.Gen.shapeCasts_S1x1x128_S1x128
      = extractStridedSlice Cert.ReferenceIdeal.S1x128 ![1, 0] x Cert.ReferenceIdeal.Gen.slices_S3x128_S1x128_1_0 := by
  funext i
  obtain ⟨z, k, rfl⟩ : ∃ (z : Fin 1) (k : Fin 128), i = ix2 z k := ⟨i 0, i 1, eq_ix2 i⟩
  exact ((b2r1_drop _ z k).trans ((b2r1_slice _ k).trans (b2r1_mid x k))).trans (b2r1_ref x z k).symm

/-- Dropping the two unit axes of a 1 × 1 × 128 array: entry `(z, k)` of the result is entry `(0, 0, k)`. -/
theorem b2r2_drop (y : FVec Ideal Cert.KernelIdeal.S1x1x128 .f32) (z : Fin 1) (k : Fin 128) :
    shapeCast Cert.KernelIdeal.S1x128 y Cert.KernelIdeal.Gen.shapeCasts_S1x1x128_S1x128 (ix2 z k) = y (ix3 (0 : Fin 1) (0 : Fin 1) k) :=
  shapeCast_apply y Cert.KernelIdeal.Gen.shapeCasts_S1x1x128_S1x128 (ix2 z k) (ix3 (0 : Fin 1) (0 : Fin 1) k)
    (by rewrite [Shape.rowMajor_val_three, Shape.rowMajor_val_two]; have hz : z.val < 1 := z.isLt; show (0 * 1 + 0) * 128 + k.val = z.val * 128 + k.val; omega)

/-- The slice at `[2, 0, 0]` of a 3 × 1 × 128 array: entry `(0, 0, k)` of the result is entry `(2, 0, k)`. -/
theorem b2r2_slice (y : FVec Ideal Cert.KernelIdeal.S3x1x128 .f32) (k : Fin 128) :
    extractStridedSlice Cert.KernelIdeal.S1x1x128 ![2, 0, 0] y Cert.KernelIdeal.Gen.slices_S3x1x128_S1x1x128_2_0_0 (ix3 (0 : Fin 1) (0 : Fin 1) k) = y (ix3 (2 : Fin 3) (0 : Fin 1) k) :=
  extractStridedSlice_apply ![2, 0, 0] y Cert.KernelIdeal.Gen.slices_S3x1x128_S1x1x128_2_0_0 (ix3 (0 : Fin 1) (0 : Fin 1) k) (ix3 (2 : Fin 3) (0 : Fin 1) k) (fun a => match a with
    | ⟨0, _⟩ => by show 2 = 2 + 0; omega
    | ⟨1, _⟩ => by show 0 = 0 + 0; omega
    | ⟨2, _⟩ => by show k.val = 0 + k.val; omega)

/-- Putting a unit axis in the middle of a 3 × 128 array: entry `(2, 0, k)` of the result is entry `(2, k)`. -/
theorem b2r2_mid (x : FVec Ideal Cert.KernelIdeal.S3x128 .f32) (k : Fin 128) :
    shapeCast Cert.KernelIdeal.S3x1x128 x Cert.KernelIdeal.Gen.shapeCasts_S3x128_S3x1x128 (ix3 (2 : Fin 3) (0 : Fin 1) k) = x (ix2 (2 : Fin 3) k) :=
  shapeCast_apply x Cert.KernelIdeal.Gen.shapeCasts_S3x128_S3x1x128 (ix3 (2 : Fin 3) (0 : Fin 1) k) (ix2 (2 : Fin 3) k)
    (by rewrite [Shape.rowMajor_val_two, Shape.rowMajor_val_three]; show 2 * 128 + k.val = (2 * 1 + 0) * 128 + k.val; omega)

/-- The reference's slice at `[2, 0]` of a 3 × 128 array: entry `(z, k)` of the result is entry `(2, k)`. -/
theorem b2r2_ref (x : FVec Ideal Cert.ReferenceIdeal.S3x128 .f32) (z : Fin 1) (k : Fin 128) :
    extractStridedSlice Cert.ReferenceIdeal.S1x128 ![2, 0] x Cert.ReferenceIdeal.Gen.slices_S3x128_S1x128_2_0 (ix2 z k) = x (ix2 (2 : Fin 3) k) :=
  extractStridedSlice_apply ![2, 0] x Cert.ReferenceIdeal.Gen.slices_S3x128_S1x128_2_0 (ix2 z k) (ix2 (2 : Fin 3) k) (fun a => match a with
    | ⟨0, _⟩ => by have hz : z.val < 1 := z.isLt; show 2 = 2 + z.val; omega
    | ⟨1, _⟩ => by show k.val = 0 + k.val; omega)

/-- Row 2 of a 3 × 128 array, taken the kernel's way (a unit axis put in the middle, a 1 × 1 × 128 slice, the unit axes dropped) and the
    reference's way (a 1 × 128 slice): both read the array at `(2, k)`. -/
theorem bias2_row2 (x : FVec Ideal Cert.KernelIdeal.S3x128 .f32) :
    shapeCast Cert.KernelIdeal.S1x128 (extractStridedSlice Cert.KernelIdeal.S1x1x128 ![2, 0, 0] (shapeCast Cert.KernelIdeal.S3x1x128 x Cert.KernelIdeal.Gen.shapeCasts_S3x128_S3x1x128) Cert.KernelIdeal.Gen.slices_S3x1x128_S1x1x128_2_0_0) Cert.KernelIdeal.Gen.shapeCasts_S1x1x128_S1x128
      = extractStridedSlice Cert.ReferenceIdeal.S1x128 ![2, 0] x Cert.ReferenceIdeal.Gen.slices_S3x128_S1x128_2_0 := by
  funext i
  obtain ⟨z, k, rfl⟩ : ∃ (z : Fin 1) (k : Fin 128), i = ix2 z k := ⟨i 0, i 1, eq_ix2 i⟩
  exact ((b2r2_drop _ z k).trans ((b2r2_slice _ k).trans (b2r2_mid x k))).trans (b2r2_ref x z k).symm

/-! ## The reference's dense stretches -/

set_option maxHeartbeats 16000000 in
/-- The first layer's dense stretch, from any contents `B`: the dense update of the summed messages `B` holds, with layer 0's slices of
    the weight and bias arrays `B` holds. -/
theorem ref_dense0 (B : Valuation Cert.ReferenceIdeal.τ Cert.ReferenceIdeal.sig (Elt Ideal)) :
    after (Cert.ReferenceIdeal.Straight.dense0 (F := Ideal)) B (Proc.devRef .tc Cert.ReferenceIdeal.main_v80)
      = Cert.DenseUpdate.rowsUpdate (B (Proc.devRef .tc Cert.ReferenceIdeal.main_v63)) (shapeCast Cert.ReferenceIdeal.S128x256 (extractStridedSlice Cert.ReferenceIdeal.S1x128x256 ![0, 0, 0] (B (Proc.devRef .tc Cert.ReferenceIdeal.main_arg7)) Cert.ReferenceIdeal.Gen.slices_S3x128x256_S1x128x256_0_0_0) Cert.ReferenceIdeal.Gen.shapeCasts_S1x128x256_S128x256)
          (extractStridedSlice Cert.ReferenceIdeal.S1x256 ![0, 0] (B (Proc.devRef .tc Cert.ReferenceIdeal.main_arg8)) Cert.ReferenceIdeal.Gen.slices_S3x256_S1x256_0_0) (shapeCast Cert.ReferenceIdeal.S256x128 (extractStridedSlice Cert.ReferenceIdeal.S1x256x128 ![0, 0, 0] (B (Proc.devRef .tc Cert.ReferenceIdeal.main_arg9)) Cert.ReferenceIdeal.Gen.slices_S3x256x128_S1x256x128_0_0_0) Cert.ReferenceIdeal.Gen.shapeCasts_S1x256x128_S256x128)
          (extractStridedSlice Cert.ReferenceIdeal.S1x128 ![0, 0] (B (Proc.devRef .tc Cert.ReferenceIdeal.main_arg10)) Cert.ReferenceIdeal.Gen.slices_S3x128_S1x128_0_0) := by
  simp only [Cert.ReferenceIdeal.Straight.dense0]
  read_stretch
  exact Cert.ReferenceIdeal.DenseStages.dense_eq _ _ _ _ _

set_option maxHeartbeats 16000000 in
/-- The second layer's dense stretch, from any contents `B`: the dense update of the summed messages `B` holds, with layer 1's slices of
    the weight and bias arrays `B` holds. -/
theorem ref_dense1 (B : Valuation Cert.ReferenceIdeal.τ Cert.ReferenceIdeal.sig (Elt Ideal)) :
    after (Cert.ReferenceIdeal.Straight.dense1 (F := Ideal)) B (Proc.devRef .tc Cert.ReferenceIdeal.main_v157)
      = Cert.DenseUpdate.rowsUpdate (B (Proc.devRef .tc Cert.ReferenceIdeal.main_v140)) (shapeCast Cert.ReferenceIdeal.S128x256 (extractStridedSlice Cert.ReferenceIdeal.S1x128x256 ![1, 0, 0] (B (Proc.devRef .tc Cert.ReferenceIdeal.main_arg7)) Cert.ReferenceIdeal.Gen.slices_S3x128x256_S1x128x256_1_0_0) Cert.ReferenceIdeal.Gen.shapeCasts_S1x128x256_S128x256)
          (extractStridedSlice Cert.ReferenceIdeal.S1x256 ![1, 0] (B (Proc.devRef .tc Cert.ReferenceIdeal.main_arg8)) Cert.ReferenceIdeal.Gen.slices_S3x256_S1x256_1_0) (shapeCast Cert.ReferenceIdeal.S256x128 (extractStridedSlice Cert.ReferenceIdeal.S1x256x128 ![1, 0, 0] (B (Proc.devRef .tc Cert.ReferenceIdeal.main_arg9)) Cert.ReferenceIdeal.Gen.slices_S3x256x128_S1x256x128_1_0_0) Cert.ReferenceIdeal.Gen.shapeCasts_S1x256x128_S256x128)
          (extractStridedSlice Cert.ReferenceIdeal.S1x128 ![1, 0] (B (Proc.devRef .tc Cert.ReferenceIdeal.main_arg10)) Cert.ReferenceIdeal.Gen.slices_S3x128_S1x128_1_0) := by
  simp only [Cert.ReferenceIdeal.Straight.dense1]
  read_stretch
  exact Cert.ReferenceIdeal.DenseStages.dense_eq _ _ _ _ _

set_option maxHeartbeats 16000000 in
/-- The third layer's dense stretch, from any contents `B`: the dense update of the summed messages `B` holds, with layer 2's slices of
    the weight and bias arrays `B` holds. -/
theorem ref_dense2 (B : Valuation Cert.ReferenceIdeal.τ Cert.ReferenceIdeal.sig (Elt Ideal)) :
    after (Cert.ReferenceIdeal.Straight.dense2 (F := Ideal)) B (Proc.devRef .tc Cert.ReferenceIdeal.main_v234)
      = Cert.DenseUpdate.rowsUpdate (B (Proc.devRef .tc Cert.ReferenceIdeal.main_v217)) (shapeCast Cert.ReferenceIdeal.S128x256 (extractStridedSlice Cert.ReferenceIdeal.S1x128x256 ![2, 0, 0] (B (Proc.devRef .tc Cert.ReferenceIdeal.main_arg7)) Cert.ReferenceIdeal.Gen.slices_S3x128x256_S1x128x256_2_0_0) Cert.ReferenceIdeal.Gen.shapeCasts_S1x128x256_S128x256)
          (extractStridedSlice Cert.ReferenceIdeal.S1x256 ![2, 0] (B (Proc.devRef .tc Cert.ReferenceIdeal.main_arg8)) Cert.ReferenceIdeal.Gen.slices_S3x256_S1x256_2_0) (shapeCast Cert.ReferenceIdeal.S256x128 (extractStridedSlice Cert.ReferenceIdeal.S1x256x128 ![2, 0, 0] (B (Proc.devRef .tc Cert.ReferenceIdeal.main_arg9)) Cert.ReferenceIdeal.Gen.slices_S3x256x128_S1x256x128_2_0_0) Cert.ReferenceIdeal.Gen.shapeCasts_S1x256x128_S256x128)
          (extractStridedSlice Cert.ReferenceIdeal.S1x128 ![2, 0] (B (Proc.devRef .tc Cert.ReferenceIdeal.main_arg10)) Cert.ReferenceIdeal.Gen.slices_S3x128_S1x128_2_0) := by
  simp only [Cert.ReferenceIdeal.Straight.dense2]
  read_stretch
  exact Cert.ReferenceIdeal.DenseStages.dense_eq _ _ _ _ _

/-! ## The launches' operands -/

set_option maxHeartbeats 16000000 in
/-- The first launch's first weight operand: layer 0's 128 × 256 slice of the first weight array. -/
theorem k_w1_0 (V : Valuation Cert.KernelIdeal.τ Cert.KernelIdeal.sig (Elt Ideal)) :
    after (Cert.KernelIdeal.Gen.hostOps0 (F := Ideal)) V (Proc.devRef .tc Cert.KernelIdeal.main_v67) = shapeCast Cert.ReferenceIdeal.S128x256 (extractStridedSlice Cert.ReferenceIdeal.S1x128x256 ![0, 0, 0] (V (Proc.devRef .tc Cert.KernelIdeal.main_arg7)) Cert.ReferenceIdeal.Gen.slices_S3x128x256_S1x128x256_0_0_0) Cert.ReferenceIdeal.Gen.shapeCasts_S1x128x256_S128x256 := by
  simp only [Cert.KernelIdeal.Gen.hostOps0]
  read_stretch
  rfl

set_option maxHeartbeats 16000000 in
/-- The first launch's second weight operand: layer 0's 256 × 128 slice of the second weight array. -/
theorem k_w2_0 (V : Valuation Cert.KernelIdeal.τ Cert.KernelIdeal.sig (Elt Ideal)) :
    after (Cert.KernelIdeal.Gen.hostOps0 (F := Ideal)) V (Proc.devRef .tc Cert.KernelIdeal.main_v71) = shapeCast Cert.ReferenceIdeal.S256x128 (extractStridedSlice Cert.ReferenceIdeal.S1x256x128 ![0, 0, 0] (V (Proc.devRef .tc Cert.KernelIdeal.main_arg9)) Cert.ReferenceIdeal.Gen.slices_S3x256x128_S1x256x128_0_0_0) Cert.ReferenceIdeal.Gen.shapeCasts_S1x256x128_S256x128 := by
  simp only [Cert.KernelIdeal.Gen.hostOps0]
  read_stretch
  rfl

set_option maxHeartbeats 16000000 in
/-- The first launch's first bias operand: row 0 of the first bias array. -/
theorem k_b1_0 (V : Valuation Cert.KernelIdeal.τ Cert.KernelIdeal.sig (Elt Ideal)) :
    after (Cert.KernelIdeal.Gen.hostOps0 (F := Ideal)) V (Proc.devRef .tc Cert.KernelIdeal.main_v69) = extractStridedSlice Cert.ReferenceIdeal.S1x256 ![0, 0] (V (Proc.devRef .tc Cert.KernelIdeal.main_arg8)) Cert.ReferenceIdeal.Gen.slices_S3x256_S1x256_0_0 := by
  simp only [Cert.KernelIdeal.Gen.hostOps0]
  read_stretch
  exact bias1_row0 _

set_option maxHeartbeats 16000000 in
/-- The first launch's second bias operand: row 0 of the second bias array. -/
theorem k_b2_0 (V : Valuation Cert.KernelIdeal.τ Cert.KernelIdeal.sig (Elt Ideal)) :
    after (Cert.KernelIdeal.Gen.hostOps0 (F := Ideal)) V (Proc.devRef .tc Cert.KernelIdeal.main_v73) = extractStridedSlice Cert.ReferenceIdeal.S1x128 ![0, 0] (V (Proc.devRef .tc Cert.KernelIdeal.main_arg10)) Cert.ReferenceIdeal.Gen.slices_S3x128_S1x128_0_0 := by
  simp only [Cert.KernelIdeal.Gen.hostOps0]
  read_stretch
  exact bias2_row0 _

set_option maxHeartbeats 16000000 in
/-- The first bias array with a unit axis put in the middle, as the first host stretch leaves it for the later launches. -/
theorem k_b1_mid (V : Valuation Cert.KernelIdeal.τ Cert.KernelIdeal.sig (Elt Ideal)) :
    after (Cert.KernelIdeal.Gen.hostOps0 (F := Ideal)) V (Proc.devRef .tc Cert.KernelIdeal.main_v34) = shapeCast Cert.KernelIdeal.S3x1x256 (V (Proc.devRef .tc Cert.KernelIdeal.main_arg8)) Cert.KernelIdeal.Gen.shapeCasts_S3x256_S3x1x256 := by
  simp only [Cert.KernelIdeal.Gen.hostOps0]
  read_stretch
  rfl

set_option maxHeartbeats 16000000 in
/-- The second bias array with a unit axis put in the middle. -/
theorem k_b2_mid (V : Valuation Cert.KernelIdeal.τ Cert.KernelIdeal.sig (Elt Ideal)) :
    after (Cert.KernelIdeal.Gen.hostOps0 (F := Ideal)) V (Proc.devRef .tc Cert.KernelIdeal.main_v35) = shapeCast Cert.KernelIdeal.S3x1x128 (V (Proc.devRef .tc Cert.KernelIdeal.main_arg10)) Cert.KernelIdeal.Gen.shapeCasts_S3x128_S3x1x128 := by
  simp only [Cert.KernelIdeal.Gen.hostOps0]
  read_stretch
  rfl

set_option maxHeartbeats 16000000 in
/-- The second launch's first weight operand: layer 1's 128 × 256 slice of the first weight array. -/
theorem k_w1_1 (V : Valuation Cert.KernelIdeal.τ Cert.KernelIdeal.sig (Elt Ideal)) :
    after (Cert.KernelIdeal.Gen.hostOps1_2 (F := Ideal)) V (Proc.devRef .tc Cert.KernelIdeal.main_v136) = shapeCast Cert.ReferenceIdeal.S128x256 (extractStridedSlice Cert.ReferenceIdeal.S1x128x256 ![1, 0, 0] (V (Proc.devRef .tc Cert.KernelIdeal.main_arg7)) Cert.ReferenceIdeal.Gen.slices_S3x128x256_S1x128x256_1_0_0) Cert.ReferenceIdeal.Gen.shapeCasts_S1x128x256_S128x256 := by
  simp only [Cert.KernelIdeal.Gen.hostOps1_2]
  read_stretch
  rfl

set_option maxHeartbeats 16000000 in
/-- The second launch's second weight operand: layer 1's 256 × 128 slice of the second weight array. -/
theorem k_w2_1 (V : Valuation Cert.KernelIdeal.τ Cert.KernelIdeal.sig (Elt Ideal)) :
    after (Cert.KernelIdeal.Gen.hostOps1_2 (F := Ideal)) V (Proc.devRef .tc Cert.KernelIdeal.main_v140) = shapeCast Cert.ReferenceIdeal.S256x128 (extractStridedSlice Cert.ReferenceIdeal.S1x256x128 ![1, 0, 0] (V (Proc.devRef .tc Cert.KernelIdeal.main_arg9)) Cert.ReferenceIdeal.Gen.slices_S3x256x128_S1x256x128_1_0_0) Cert.ReferenceIdeal.Gen.shapeCasts_S1x256x128_S256x128 := by
  simp only [Cert.KernelIdeal.Gen.hostOps1_2]
  read_stretch
  rfl

set_option maxHeartbeats 16000000 in
/-- The second launch's first bias operand: row 1 of the first bias array `x`, given that the stretch finds `x` with a unit axis in
    the middle. -/
theorem k_b1_1 (V : Valuation Cert.KernelIdeal.τ Cert.KernelIdeal.sig (Elt Ideal)) (x : FVec Ideal Cert.KernelIdeal.S3x256 .f32)
    (hm : V (Proc.devRef .tc Cert.KernelIdeal.main_v34) = shapeCast Cert.KernelIdeal.S3x1x256 x Cert.KernelIdeal.Gen.shapeCasts_S3x256_S3x1x256) :
    after (Cert.KernelIdeal.Gen.hostOps1_2 (F := Ideal)) V (Proc.devRef .tc Cert.KernelIdeal.main_v138) = extractStridedSlice Cert.ReferenceIdeal.S1x256 ![1, 0] x Cert.ReferenceIdeal.Gen.slices_S3x256_S1x256_1_0 := by
  simp only [Cert.KernelIdeal.Gen.hostOps1_2]
  read_stretch
  rw [hm]
  exact bias1_row1 x

set_option maxHeartbeats 16000000 in
/-- The second launch's second bias operand: row 1 of the second bias array `x`. -/
theorem k_b2_1 (V : Valuation Cert.KernelIdeal.τ Cert.KernelIdeal.sig (Elt Ideal)) (x : FVec Ideal Cert.KernelIdeal.S3x128 .f32)
    (hm : V (Proc.devRef .tc Cert.KernelIdeal.main_v35) = shapeCast Cert.KernelIdeal.S3x1x128 x Cert.KernelIdeal.Gen.shapeCasts_S3x128_S3x1x128) :
    after (Cert.KernelIdeal.Gen.hostOps1_2 (F := Ideal)) V (Proc.devRef .tc Cert.KernelIdeal.main_v142) = extractStridedSlice Cert.ReferenceIdeal.S1x128 ![1, 0] x Cert.ReferenceIdeal.Gen.slices_S3x128_S1x128_1_0 := by
  simp only [Cert.KernelIdeal.Gen.hostOps1_2]
  read_stretch
  rw [hm]
  exact bias2_row1 x

set_option maxHeartbeats 16000000 in
/-- The third launch's first weight operand: layer 2's 128 × 256 slice of the first weight array. -/
theorem k_w1_2 (V : Valuation Cert.KernelIdeal.τ Cert.KernelIdeal.sig (Elt Ideal)) :
    after (Cert.KernelIdeal.Gen.hostOps2_2 (F := Ideal)) V (Proc.devRef .tc Cert.KernelIdeal.main_v205) = shapeCast Cert.ReferenceIdeal.S128x256 (extractStridedSlice Cert.ReferenceIdeal.S1x128x256 ![2, 0, 0] (V (Proc.devRef .tc Cert.KernelIdeal.main_arg7)) Cert.ReferenceIdeal.Gen.slices_S3x128x256_S1x128x256_2_0_0) Cert.ReferenceIdeal.Gen.shapeCasts_S1x128x256_S128x256 := by
  simp only [Cert.KernelIdeal.Gen.hostOps2_2]
  read_stretch
  rfl

set_option maxHeartbeats 16000000 in
/-- The third launch's second weight operand: layer 2's 256 × 128 slice of the second weight array. -/
theorem k_w2_2 (V : Valuation Cert.KernelIdeal.τ Cert.KernelIdeal.sig (Elt Ideal)) :
    after (Cert.KernelIdeal.Gen.hostOps2_2 (F := Ideal)) V (Proc.devRef .tc Cert.KernelIdeal.main_v209) = shapeCast Cert.ReferenceIdeal.S256x128 (extractStridedSlice Cert.ReferenceIdeal.S1x256x128 ![2, 0, 0] (V (Proc.devRef .tc Cert.KernelIdeal.main_arg9)) Cert.ReferenceIdeal.Gen.slices_S3x256x128_S1x256x128_2_0_0) Cert.ReferenceIdeal.Gen.shapeCasts_S1x256x128_S256x128 := by
  simp only [Cert.KernelIdeal.Gen.hostOps2_2]
  read_stretch
  rfl

set_option maxHeartbeats 16000000 in
/-- The third launch's first bias operand: row 2 of the first bias array `x`, given that the stretch finds `x` with a unit axis in
    the middle. -/
theorem k_b1_2 (V : Valuation Cert.KernelIdeal.τ Cert.KernelIdeal.sig (Elt Ideal)) (x : FVec Ideal Cert.KernelIdeal.S3x256 .f32)
    (hm : V (Proc.devRef .tc Cert.KernelIdeal.main_v34) = shapeCast Cert.KernelIdeal.S3x1x256 x Cert.KernelIdeal.Gen.shapeCasts_S3x256_S3x1x256) :
    after (Cert.KernelIdeal.Gen.hostOps2_2 (F := Ideal)) V (Proc.devRef .tc Cert.KernelIdeal.main_v207) = extractStridedSlice Cert.ReferenceIdeal.S1x256 ![2, 0] x Cert.ReferenceIdeal.Gen.slices_S3x256_S1x256_2_0 := by
  simp only [Cert.KernelIdeal.Gen.hostOps2_2]
  read_stretch
  rw [hm]
  exact bias1_row2 x

set_option maxHeartbeats 16000000 in
/-- The third launch's second bias operand: row 2 of the second bias array `x`. -/
theorem k_b2_2 (V : Valuation Cert.KernelIdeal.τ Cert.KernelIdeal.sig (Elt Ideal)) (x : FVec Ideal Cert.KernelIdeal.S3x128 .f32)
    (hm : V (Proc.devRef .tc Cert.KernelIdeal.main_v35) = shapeCast Cert.KernelIdeal.S3x1x128 x Cert.KernelIdeal.Gen.shapeCasts_S3x128_S3x1x128) :
    after (Cert.KernelIdeal.Gen.hostOps2_2 (F := Ideal)) V (Proc.devRef .tc Cert.KernelIdeal.main_v211) = extractStridedSlice Cert.ReferenceIdeal.S1x128 ![2, 0] x Cert.ReferenceIdeal.Gen.slices_S3x128_S1x128_2_0 := by
  simp only [Cert.KernelIdeal.Gen.hostOps2_2]
  read_stretch
  rw [hm]
  exact bias2_row2 x

end Cert.Dense

end
-- ==== Proof.BlockPayload.lean ====
/-
  What one grid point's body computes, entry by entry.

  The body loads a block of 5000 rows of aggregated messages and the layer's two weight matrices and two bias rows, and stores
  one value: the dense update of the block. Over the extended reals a change of float format is the identity and a matrix
  product into a zero accumulator is the plain sum over the contracted axis, so entry `(p, n)` of the stored value is the
  dense update (`Cert.DenseUpdate.entry`) of row `p` of the block. The three layers run the same body.
-/
import proofs.«106410_j1503238553652_2_alg».proof.Proof.Gen.KernelIdeal.Skeleton
import proofs.«106410_j1503238553652_2_alg».proof.Proof.MlpSpec
import Idealize.ShloMosaic.Lib.ValueIdx
import Idealize.ShloMosaic.Lib.Pipeline.Value
import Idealize.ShloMosaic.PureOps.Ideal.Laws

noncomputable section

open scoped BigOperators

namespace Cert.KernelIdeal.BlockPayload

open Cert.KernelIdeal Cert.KernelIdeal.Gen Idealize.ShloMosaic Idealize.ShloMosaic.ValueIdx

/-! ## The two contractions' operand indices

  Both products contract the left operand's columns with the right operand's rows: at output `(r, c)` and contraction
  index `q` the left operand is read at `(r, q)` and the right at `(q, c)`. -/

theorem first_lhs_row (i : S5000x256.Idx) (q : dot_S5000x128_S128x256_S5000x256_1_0_0_1_n_n.contr.Idx) : (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem first_lhs_col (i : S5000x256.Idx) (q : dot_S5000x128_S128x256_S5000x256_1_0_0_1_n_n.contr.Idx) : (dot_S5000x128_S128x256_S5000x256_1_0_0_1_n_n.lhsIdx i q 1).val = (q ⟨0, by decide⟩).val :=
  dot_S5000x128_S128x256_S5000x256_1_0_0_1_n_n.lhsIdx_val_of_single rfl i q
theorem first_rhs_row (i : S5000x256.Idx) (q : dot_S5000x128_S128x256_S5000x256_1_0_0_1_n_n.contr.Idx) : (dot_S5000x128_S128x256_S5000x256_1_0_0_1_n_n.rhsIdx i q 0).val = (q ⟨0, by decide⟩).val :=
  dot_S5000x128_S128x256_S5000x256_1_0_0_1_n_n.rhsIdx_val_of_single rfl i q
theorem first_rhs_col (i : S5000x256.Idx) (q : dot_S5000x128_S128x256_S5000x256_1_0_0_1_n_n.contr.Idx) : (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

theorem second_lhs_row (i : S5000x128.Idx) (q : dot_S5000x256_S256x128_S5000x128_1_0_0_1_n_n.contr.Idx) : (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem second_lhs_col (i : S5000x128.Idx) (q : dot_S5000x256_S256x128_S5000x128_1_0_0_1_n_n.contr.Idx) : (dot_S5000x256_S256x128_S5000x128_1_0_0_1_n_n.lhsIdx i q 1).val = (q ⟨0, by decide⟩).val :=
  dot_S5000x256_S256x128_S5000x128_1_0_0_1_n_n.lhsIdx_val_of_single rfl i q
theorem second_rhs_row (i : S5000x128.Idx) (q : dot_S5000x256_S256x128_S5000x128_1_0_0_1_n_n.contr.Idx) : (dot_S5000x256_S256x128_S5000x128_1_0_0_1_n_n.rhsIdx i q 0).val = (q ⟨0, by decide⟩).val :=
  dot_S5000x256_S256x128_S5000x128_1_0_0_1_n_n.rhsIdx_val_of_single rfl i q
theorem second_rhs_col (i : S5000x128.Idx) (q : dot_S5000x256_S256x128_S5000x128_1_0_0_1_n_n.contr.Idx) : (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-! ## The two products into a zero accumulator, at an entry -/

/-- Rows of 128 times a 128 × 256 matrix: entry `(p, k)` is the sum over `q` of `lhs (p, q) · rhs (q, k)`. -/
theorem first_product_apply {φ₁ φ₂ : FTy} (lhs : FVec Ideal S5000x128 φ₁) (rhs : FVec Ideal S128x256 φ₂) (p : Fin 5000) (k : Fin 256) :
    matmul dot_S5000x128_S128x256_S5000x256_1_0_0_1_n_n none lhs rhs (constant S5000x256 .f32 0x00000000#32) (ix2 p k)
      = ∑ q : Fin 128, lhs (ix2 p q) * rhs (ix2 q k) := by
  simp only [matmul]
  rw [Ideal.matmul_constant_zero_apply, ← Equiv.sum_comp (contrEquiv1 dot_S5000x128_S128x256_S5000x256_1_0_0_1_n_n 128 rfl rfl).symm]
  refine Finset.sum_congr rfl fun q _ => ?_
  have hq := contrEquiv1_symm_val dot_S5000x128_S128x256_S5000x256_1_0_0_1_n_n 128 rfl rfl q
  have el : dot_S5000x128_S128x256_S5000x256_1_0_0_1_n_n.lhsIdx (ix2 p k) ((contrEquiv1 dot_S5000x128_S128x256_S5000x256_1_0_0_1_n_n 128 rfl rfl).symm q) = ix2 p q := funext fun a => Fin.ext (by
    match a with
    | ⟨0, _⟩ => exact first_lhs_row _ _
    | ⟨1, _⟩ => exact (first_lhs_col _ _).trans hq)
  have er : dot_S5000x128_S128x256_S5000x256_1_0_0_1_n_n.rhsIdx (ix2 p k) ((contrEquiv1 dot_S5000x128_S128x256_S5000x256_1_0_0_1_n_n 128 rfl rfl).symm q) = ix2 q k := funext fun a => Fin.ext (by
    match a with
    | ⟨0, _⟩ => exact (first_rhs_row _ _).trans hq
    | ⟨1, _⟩ => exact first_rhs_col _ _)
  rw [el, er]

/-- Rows of 256 times a 256 × 128 matrix: entry `(p, n)` is the sum over `k` of `lhs (p, k) · rhs (k, n)`. -/
theorem second_product_apply {φ₁ φ₂ : FTy} (lhs : FVec Ideal S5000x256 φ₁) (rhs : FVec Ideal S256x128 φ₂) (p : Fin 5000) (n : Fin 128) :
    matmul dot_S5000x256_S256x128_S5000x128_1_0_0_1_n_n none lhs rhs (constant S5000x128 .f32 0x00000000#32) (ix2 p n)
      = ∑ k : Fin 256, lhs (ix2 p k) * rhs (ix2 k n) := by
  simp only [matmul]
  rw [Ideal.matmul_constant_zero_apply, ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p n) ((contrEquiv1 dot_S5000x256_S256x128_S5000x128_1_0_0_1_n_n 256 rfl rfl).symm k) = ix2 p k := funext fun a => Fin.ext (by
    match a with
    | ⟨0, _⟩ => exact second_lhs_row _ _
    | ⟨1, _⟩ => exact (second_lhs_col _ _).trans hk)
  have er : dot_S5000x256_S256x128_S5000x128_1_0_0_1_n_n.rhsIdx (ix2 p n) ((contrEquiv1 dot_S5000x256_S256x128_S5000x128_1_0_0_1_n_n 256 rfl rfl).symm k) = ix2 k n := funext fun a => Fin.ext (by
    match a with
    | ⟨0, _⟩ => exact (second_rhs_row _ _).trans hk
    | ⟨1, _⟩ => exact second_rhs_col _ _)
  rw [el, er]

/-! ## A bias row spread over the block's rows -/

/-- The first bias, a 1 × 256 row repeated down 5000 rows: entry `(p, k)` is the row's entry `k`. -/
theorem first_bias_apply (b : FVec Ideal S1x256 .f32) (p : Fin 5000) (k : Fin 256) :
    broadcastTo S5000x256 b broadcasts_S1x256_S5000x256 (ix2 p k) = b (ix2 0 k) :=
  broadcastTo_apply b broadcasts_S1x256_S5000x256 (ix2 p k) (ix2 0 k) (fun a => by
    match a with
    | ⟨0, _⟩ => rfl
    | ⟨1, _⟩ => rfl)

/-- The second bias, a 1 × 128 row repeated down 5000 rows: entry `(p, n)` is the row's entry `n`. -/
theorem second_bias_apply (b : FVec Ideal S1x128 .f32) (p : Fin 5000) (n : Fin 128) :
    broadcastTo S5000x128 b broadcasts_S1x128_S5000x128 (ix2 p n) = b (ix2 0 n) :=
  broadcastTo_apply b broadcasts_S1x128_S5000x128 (ix2 p n) (ix2 0 n) (fun a => by
    match a with
    | ⟨0, _⟩ => rfl
    | ⟨1, _⟩ => rfl)

/-! ## The stored value -/

/-- Entry `(p, n)` of the value the body stores is the dense update of row `p` of the loaded block. -/
theorem stored_apply (x0 : Vec Ideal S5000x128 .f32) (x1 : Vec Ideal S128x256 .f32) (x2 : Vec Ideal S1x256 .f32)
    (x3 : Vec Ideal S256x128 .f32) (x4 : Vec Ideal S1x128 .f32) (p : Fin 5000) (n : Fin 128) :
    k0_pay1 (F := Ideal) x0 x1 x2 x3 x4 (ix2 p n)
      = Cert.DenseUpdate.entry (fun q => x0 (ix2 p q)) (fun q k => x1 (ix2 q k)) (fun k => x2 (ix2 0 k))
          (fun k n' => x3 (ix2 k n')) (fun n' => x4 (ix2 0 n')) n := by
  unfold k0_pay1 Cert.DenseUpdate.entry Cert.DenseUpdate.hidden
  simp only [shapeCast_self]
  rw [addf_apply, second_product_apply, second_bias_apply]
  refine congrArg (· + x4 (ix2 0 n)) (Finset.sum_congr rfl fun k _ => ?_)
  refine congrArg (· * x3 (ix2 k n)) ?_
  rw [truncf_apply, maximumf_apply, addf_apply, first_product_apply, first_bias_apply, broadcast_apply]
  refine congrArg₂ max ?_ Ideal.ofBits_zero_f32
  rfl

/-- The second and third layers' bodies store the same function of their loads. -/
theorem second_layer_same : @k1_pay1 = @k0_pay1 := rfl
theorem third_layer_same : @k2_pay1 = @k0_pay1 := rfl

/-- Entry `(p, n)` of the value the second layer's body stores. -/
theorem stored_apply1 (x0 : Vec Ideal S5000x128 .f32) (x1 : Vec Ideal S128x256 .f32) (x2 : Vec Ideal S1x256 .f32)
    (x3 : Vec Ideal S256x128 .f32) (x4 : Vec Ideal S1x128 .f32) (p : Fin 5000) (n : Fin 128) :
    k1_pay1 (F := Ideal) x0 x1 x2 x3 x4 (ix2 p n)
      = Cert.DenseUpdate.entry (fun q => x0 (ix2 p q)) (fun q k => x1 (ix2 q k)) (fun k => x2 (ix2 0 k))
          (fun k n' => x3 (ix2 k n')) (fun n' => x4 (ix2 0 n')) n :=
  stored_apply x0 x1 x2 x3 x4 p n

/-- Entry `(p, n)` of the value the third layer's body stores. -/
theorem stored_apply2 (x0 : Vec Ideal S5000x128 .f32) (x1 : Vec Ideal S128x256 .f32) (x2 : Vec Ideal S1x256 .f32)
    (x3 : Vec Ideal S256x128 .f32) (x4 : Vec Ideal S1x128 .f32) (p : Fin 5000) (n : Fin 128) :
    k2_pay1 (F := Ideal) x0 x1 x2 x3 x4 (ix2 p n)
      = Cert.DenseUpdate.entry (fun q => x0 (ix2 p q)) (fun q k => x1 (ix2 q k)) (fun k => x2 (ix2 0 k))
          (fun k n' => x3 (ix2 k n')) (fun n' => x4 (ix2 0 n')) n :=
  stored_apply x0 x1 x2 x3 x4 p n

end Cert.KernelIdeal.BlockPayload

end
-- ==== Proof.RegionValue.lean ====
/-
  What a launch of the dense update leaves in its output array.

  A launch runs the body at ten grid points. Point `t` is handed rows `5000 t … 5000 t + 4999` of the summed messages and the
  whole of the two weight matrices and the two bias rows, and writes back rows `5000 t … 5000 t + 4999` of the output. The ten
  row blocks tile the 50000 rows, so after the launch the output array is the dense update (`Cert.DenseUpdate.rowsUpdate`) of
  the arrays the launch found, row by row. Stated at an arbitrary assignment `V` of contents to the buffers at the launch's
  entry: each of the three launches is entered at different contents.
-/
import proofs.«106410_j1503238553652_2_alg».proof.Proof.Gen.KernelIdeal.Frame
import proofs.«106410_j1503238553652_2_alg».proof.Proof.BlockPayload
import proofs.«106410_j1503238553652_2_alg».proof.Proof.MlpSpec
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem offsets_zero : (![0, 0] : Fin 2 → Nat) = fun _ => 0 := funext fun a => by fin_cases a <;> rfl

/-! ## The first launch -/

/-- The printed index maps over the ten grid points: the block of summed messages moves with the output block, the weights and
    biases sit at block zero, the output's row block runs over 0 … 9 and its column block is 0. -/
theorem first_blocks : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 9 :=
  (by decide +kernel : ∀ t : Fin grid0.N, _)

/-- Every one of the ten row blocks is some grid point's. -/
theorem first_onto : ∀ q : Fin 10, ∃ t : Fin cfg0.N, win0_5.index t = ![q.val, 0] :=
  (by decide +kernel : ∀ q : Fin 10, ∃ t : Fin grid0.N, win0_5.index t = ![q.val, 0])

/-- What grid point `t` writes back is block `t` of the dense update of the arrays the launch is handed: row `p` of the block
    is row `5000 · (block index) + p` of the summed messages, and the weights and biases are read whole. -/
theorem first_flushed (c : Dev nD) (t : Fin cfg0.N) :
    (dat0 (F := Ideal) V c).flushed 5 t = ((cfg0.win 5).blk t).view.read (Elt Ideal)
      (Cert.DenseUpdate.rowsUpdate (V c main_v65) (V c main_v67) (V c main_v69) (V c main_v71) (V c main_v73)) := by
  show (cfg0.win 5).cut (grid0.coords t) ((dat0 (F := Ideal) V c).after 5 t) = _
  rw [after0_5]
  unfold out0_5
  rw [View.canon_unit_zero offsets_zero]
  simp only [View.ld_unit_zero (S := S5000x128) offsets_zero, View.ld_unit_zero (S := S128x256) offsets_zero,
    View.ld_unit_zero (S := S1x256) offsets_zero, View.ld_unit_zero (S := S256x128) offsets_zero, View.ld_unit_zero (S := S1x128) offsets_zero]
  obtain ⟨e00, e01, e10, e11, e20, e21, e30, e31, e40, e41, e51, e5⟩ := first_blocks t
  funext j
  obtain ⟨p, n, rfl⟩ : ∃ (p : Fin 5000) (n : Fin 128), j = ix2 p n := ⟨j 0, j 1, eq_ix2 j⟩
  refine (BlockPayload.stored_apply _ _ _ _ _ p n).trans ?_
  have hp : p.val < 5000 := p.isLt
  have hn : n.val < 128 := n.isLt
  have hR : win0_5.index t (0 : Fin 2) * 5000 + p.val < 50000 := by omega
  have hemb : ((cfg0.win 5).blk t).view.emb (ix2 p n) = ix2 (⟨win0_5.index t (0 : Fin 2) * 5000 + p.val, hR⟩ : Fin 50000) n := by
    funext a; apply Fin.ext
    match a with
    | ⟨0, _⟩ => show win0_5.index t (0 : Fin 2) * 5000 + 1 * p.val = win0_5.index t (0 : Fin 2) * 5000 + p.val; omega
    | ⟨1, _⟩ => show win0_5.index t (1 : Fin 2) * 128 + 1 * n.val = n.val; omega
  show _ = Cert.DenseUpdate.rowsUpdate (V c main_v65) (V c main_v67) (V c main_v69) (V c main_v71) (V c main_v73) (((cfg0.win 5).blk t).view.emb (ix2 p n))
  rw [hemb, Cert.DenseUpdate.rowsUpdate_apply]
  have r0 : ∀ q : Fin 128, iblk0 V c 0 t (ix2 p q) = V c main_v65 (ix2 (⟨win0_5.index t (0 : Fin 2) * 5000 + p.val, hR⟩ : Fin 50000) q) := fun q => by
    show V c main_v65 (((cfg0.win 0).blk t).view.emb (ix2 p q)) = _
    refine congrArg (V c main_v65) (funext fun a => Fin.ext ?_)
    have hq : q.val < 128 := q.isLt
    match a with
    | ⟨0, _⟩ => show win0_0.index t (0 : Fin 2) * 5000 + 1 * p.val = win0_5.index t (0 : Fin 2) * 5000 + p.val; omega
    | ⟨1, _⟩ => show win0_0.index t (1 : Fin 2) * 128 + 1 * q.val = q.val; omega
  have r1 : ∀ (q : Fin 128) (k : Fin 256), iblk0 V c 1 t (ix2 q k) = V c main_v67 (ix2 q k) := fun q k => by
    show V c main_v67 (((cfg0.win 1).blk t).view.emb (ix2 q k)) = _
    refine congrArg (V c main_v67) (funext fun a => Fin.ext ?_)
    match a with
    | ⟨0, _⟩ => show win0_1.index t (0 : Fin 2) * 128 + 1 * q.val = q.val; omega
    | ⟨1, _⟩ => show win0_1.index t (1 : Fin 2) * 256 + 1 * k.val = k.val; omega
  have r2 : ∀ k : Fin 256, iblk0 V c 2 t (ix2 0 k) = V c main_v69 (ix2 0 k) := fun k => by
    show V c main_v69 (((cfg0.win 2).blk t).view.emb (ix2 0 k)) = _
    refine congrArg (V c main_v69) (funext fun a => Fin.ext ?_)
    match a with
    | ⟨0, _⟩ => show win0_2.index t (0 : Fin 2) * 1 + 1 * 0 = 0; omega
    | ⟨1, _⟩ => show win0_2.index t (1 : Fin 2) * 256 + 1 * k.val = k.val; omega
  have r3 : ∀ (k : Fin 256) (n' : Fin 128), iblk0 V c 3 t (ix2 k n') = V c main_v71 (ix2 k n') := fun k n' => by
    show V c main_v71 (((cfg0.win 3).blk t).view.emb (ix2 k n')) = _
    refine congrArg (V c main_v71) (funext fun a => Fin.ext ?_)
    match a with
    | ⟨0, _⟩ => show win0_3.index t (0 : Fin 2) * 256 + 1 * k.val = k.val; omega
    | ⟨1, _⟩ => show win0_3.index t (1 : Fin 2) * 128 + 1 * n'.val = n'.val; omega
  have r4 : ∀ n' : Fin 128, iblk0 V c 4 t (ix2 0 n') = V c main_v73 (ix2 0 n') := fun n' => by
    show V c main_v73 (((cfg0.win 4).blk t).view.emb (ix2 0 n')) = _
    refine congrArg (V c main_v73) (funext fun a => Fin.ext ?_)
    match a with
    | ⟨0, _⟩ => show win0_4.index t (0 : Fin 2) * 1 + 1 * 0 = 0; omega
    | ⟨1, _⟩ => show win0_4.index t (1 : Fin 2) * 128 + 1 * n'.val = n'.val; omega
  simp only [r0, r1, r2, r3, r4]

/-- An index of the output array is in point `t`'s block iff each coordinate is in the block's range on its axis. -/
theorem first_mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v74).slice (win0_5.rect t)).set ↔ _
  rw [View.set_slice_whole, Rect.mem_set_unit]
  exact Iff.rfl

/-- Every index of the output array is in the block of the point whose row block holds its row: rows `5000 q … 5000 q + 4999`
    belong to row block `q`. -/
theorem first_cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := first_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [first_mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- After the first launch's ten points the output array holds the dense update of the summed messages, whatever the buffers
    held when the launch was entered. -/
theorem first_value (c : Dev nD) :
    (dat0 (F := Ideal) V c).arrAt 5 cfg0.N
      = Cert.DenseUpdate.rowsUpdate (V c main_v65) (V c main_v67) (V c main_v69) (V c main_v71) (V c main_v73) :=
  (dat0 (F := Ideal) V c).arrAt_eq_of_cover 5 _ (fun t _ => first_flushed V c t) (first_cover)

/-! ## The second launch -/

/-- The printed index maps over the ten grid points: the block of summed messages moves with the output block, the weights and
    biases sit at block zero, the output's row block runs over 0 … 9 and its column block is 0. -/
theorem second_blocks : ∀ t : Fin cfg1.N,
    win1_0.index t (0 : Fin 2) = win1_5.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 9 :=
  (by decide +kernel : ∀ t : Fin grid1.N, _)

/-- Every one of the ten row blocks is some grid point's. -/
theorem second_onto : ∀ q : Fin 10, ∃ t : Fin cfg1.N, win1_5.index t = ![q.val, 0] :=
  (by decide +kernel : ∀ q : Fin 10, ∃ t : Fin grid1.N, win1_5.index t = ![q.val, 0])

/-- What grid point `t` writes back is block `t` of the dense update of the arrays the launch is handed: row `p` of the block
    is row `5000 · (block index) + p` of the summed messages, and the weights and biases are read whole. -/
theorem second_flushed (c : Dev nD) (t : Fin cfg1.N) :
    (dat1 (F := Ideal) V c).flushed 5 t = ((cfg1.win 5).blk t).view.read (Elt Ideal)
      (Cert.DenseUpdate.rowsUpdate (V c main_v134) (V c main_v136) (V c main_v138) (V c main_v140) (V c main_v142)) := by
  show (cfg1.win 5).cut (grid1.coords t) ((dat1 (F := Ideal) V c).after 5 t) = _
  rw [after1_5]
  unfold out1_5
  rw [View.canon_unit_zero offsets_zero]
  simp only [View.ld_unit_zero (S := S5000x128) offsets_zero, View.ld_unit_zero (S := S128x256) offsets_zero,
    View.ld_unit_zero (S := S1x256) offsets_zero, View.ld_unit_zero (S := S256x128) offsets_zero, View.ld_unit_zero (S := S1x128) offsets_zero]
  obtain ⟨e00, e01, e10, e11, e20, e21, e30, e31, e40, e41, e51, e5⟩ := second_blocks t
  funext j
  obtain ⟨p, n, rfl⟩ : ∃ (p : Fin 5000) (n : Fin 128), j = ix2 p n := ⟨j 0, j 1, eq_ix2 j⟩
  refine (BlockPayload.stored_apply1 _ _ _ _ _ p n).trans ?_
  have hp : p.val < 5000 := p.isLt
  have hn : n.val < 128 := n.isLt
  have hR : win1_5.index t (0 : Fin 2) * 5000 + p.val < 50000 := by omega
  have hemb : ((cfg1.win 5).blk t).view.emb (ix2 p n) = ix2 (⟨win1_5.index t (0 : Fin 2) * 5000 + p.val, hR⟩ : Fin 50000) n := by
    funext a; apply Fin.ext
    match a with
    | ⟨0, _⟩ => show win1_5.index t (0 : Fin 2) * 5000 + 1 * p.val = win1_5.index t (0 : Fin 2) * 5000 + p.val; omega
    | ⟨1, _⟩ => show win1_5.index t (1 : Fin 2) * 128 + 1 * n.val = n.val; omega
  show _ = Cert.DenseUpdate.rowsUpdate (V c main_v134) (V c main_v136) (V c main_v138) (V c main_v140) (V c main_v142) (((cfg1.win 5).blk t).view.emb (ix2 p n))
  rw [hemb, Cert.DenseUpdate.rowsUpdate_apply]
  have r0 : ∀ q : Fin 128, iblk1 V c 0 t (ix2 p q) = V c main_v134 (ix2 (⟨win1_5.index t (0 : Fin 2) * 5000 + p.val, hR⟩ : Fin 50000) q) := fun q => by
    show V c main_v134 (((cfg1.win 0).blk t).view.emb (ix2 p q)) = _
    refine congrArg (V c main_v134) (funext fun a => Fin.ext ?_)
    have hq : q.val < 128 := q.isLt
    match a with
    | ⟨0, _⟩ => show win1_0.index t (0 : Fin 2) * 5000 + 1 * p.val = win1_5.index t (0 : Fin 2) * 5000 + p.val; omega
    | ⟨1, _⟩ => show win1_0.index t (1 : Fin 2) * 128 + 1 * q.val = q.val; omega
  have r1 : ∀ (q : Fin 128) (k : Fin 256), iblk1 V c 1 t (ix2 q k) = V c main_v136 (ix2 q k) := fun q k => by
    show V c main_v136 (((cfg1.win 1).blk t).view.emb (ix2 q k)) = _
    refine congrArg (V c main_v136) (funext fun a => Fin.ext ?_)
    match a with
    | ⟨0, _⟩ => show win1_1.index t (0 : Fin 2) * 128 + 1 * q.val = q.val; omega
    | ⟨1, _⟩ => show win1_1.index t (1 : Fin 2) * 256 + 1 * k.val = k.val; omega
  have r2 : ∀ k : Fin 256, iblk1 V c 2 t (ix2 0 k) = V c main_v138 (ix2 0 k) := fun k => by
    show V c main_v138 (((cfg1.win 2).blk t).view.emb (ix2 0 k)) = _
    refine congrArg (V c main_v138) (funext fun a => Fin.ext ?_)
    match a with
    | ⟨0, _⟩ => show win1_2.index t (0 : Fin 2) * 1 + 1 * 0 = 0; omega
    | ⟨1, _⟩ => show win1_2.index t (1 : Fin 2) * 256 + 1 * k.val = k.val; omega
  have r3 : ∀ (k : Fin 256) (n' : Fin 128), iblk1 V c 3 t (ix2 k n') = V c main_v140 (ix2 k n') := fun k n' => by
    show V c main_v140 (((cfg1.win 3).blk t).view.emb (ix2 k n')) = _
    refine congrArg (V c main_v140) (funext fun a => Fin.ext ?_)
    match a with
    | ⟨0, _⟩ => show win1_3.index t (0 : Fin 2) * 256 + 1 * k.val = k.val; omega
    | ⟨1, _⟩ => show win1_3.index t (1 : Fin 2) * 128 + 1 * n'.val = n'.val; omega
  have r4 : ∀ n' : Fin 128, iblk1 V c 4 t (ix2 0 n') = V c main_v142 (ix2 0 n') := fun n' => by
    show V c main_v142 (((cfg1.win 4).blk t).view.emb (ix2 0 n')) = _
    refine congrArg (V c main_v142) (funext fun a => Fin.ext ?_)
    match a with
    | ⟨0, _⟩ => show win1_4.index t (0 : Fin 2) * 1 + 1 * 0 = 0; omega
    | ⟨1, _⟩ => show win1_4.index t (1 : Fin 2) * 128 + 1 * n'.val = n'.val; omega
  simp only [r0, r1, r2, r3, r4]

/-- An index of the output array is in point `t`'s block iff each coordinate is in the block's range on its axis. -/
theorem second_mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v143).slice (win1_5.rect t)).set ↔ _
  rw [View.set_slice_whole, Rect.mem_set_unit]
  exact Iff.rfl

/-- Every index of the output array is in the block of the point whose row block holds its row: rows `5000 q … 5000 q + 4999`
    belong to row block `q`. -/
theorem second_cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := second_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [second_mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- After the second launch's ten points the output array holds the dense update of the summed messages, whatever the buffers
    held when the launch was entered. -/
theorem second_value (c : Dev nD) :
    (dat1 (F := Ideal) V c).arrAt 5 cfg1.N
      = Cert.DenseUpdate.rowsUpdate (V c main_v134) (V c main_v136) (V c main_v138) (V c main_v140) (V c main_v142) :=
  (dat1 (F := Ideal) V c).arrAt_eq_of_cover 5 _ (fun t _ => second_flushed V c t) (second_cover)

/-! ## The third launch -/

/-- The printed index maps over the ten grid points: the block of summed messages moves with the output block, the weights and
    biases sit at block zero, the output's row block runs over 0 … 9 and its column block is 0. -/
theorem third_blocks : ∀ t : Fin cfg2.N,
    win2_0.index t (0 : Fin 2) = win2_5.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (1 : Fin 2) = 0 ∧ win2_5.index t (0 : Fin 2) ≤ 9 :=
  (by decide +kernel : ∀ t : Fin grid2.N, _)

/-- Every one of the ten row blocks is some grid point's. -/
theorem third_onto : ∀ q : Fin 10, ∃ t : Fin cfg2.N, win2_5.index t = ![q.val, 0] :=
  (by decide +kernel : ∀ q : Fin 10, ∃ t : Fin grid2.N, win2_5.index t = ![q.val, 0])

/-- What grid point `t` writes back is block `t` of the dense update of the arrays the launch is handed: row `p` of the block
    is row `5000 · (block index) + p` of the summed messages, and the weights and biases are read whole. -/
theorem third_flushed (c : Dev nD) (t : Fin cfg2.N) :
    (dat2 (F := Ideal) V c).flushed 5 t = ((cfg2.win 5).blk t).view.read (Elt Ideal)
      (Cert.DenseUpdate.rowsUpdate (V c main_v203) (V c main_v205) (V c main_v207) (V c main_v209) (V c main_v211)) := by
  show (cfg2.win 5).cut (grid2.coords t) ((dat2 (F := Ideal) V c).after 5 t) = _
  rw [after2_5]
  unfold out2_5
  rw [View.canon_unit_zero offsets_zero]
  simp only [View.ld_unit_zero (S := S5000x128) offsets_zero, View.ld_unit_zero (S := S128x256) offsets_zero,
    View.ld_unit_zero (S := S1x256) offsets_zero, View.ld_unit_zero (S := S256x128) offsets_zero, View.ld_unit_zero (S := S1x128) offsets_zero]
  obtain ⟨e00, e01, e10, e11, e20, e21, e30, e31, e40, e41, e51, e5⟩ := third_blocks t
  funext j
  obtain ⟨p, n, rfl⟩ : ∃ (p : Fin 5000) (n : Fin 128), j = ix2 p n := ⟨j 0, j 1, eq_ix2 j⟩
  refine (BlockPayload.stored_apply2 _ _ _ _ _ p n).trans ?_
  have hp : p.val < 5000 := p.isLt
  have hn : n.val < 128 := n.isLt
  have hR : win2_5.index t (0 : Fin 2) * 5000 + p.val < 50000 := by omega
  have hemb : ((cfg2.win 5).blk t).view.emb (ix2 p n) = ix2 (⟨win2_5.index t (0 : Fin 2) * 5000 + p.val, hR⟩ : Fin 50000) n := by
    funext a; apply Fin.ext
    match a with
    | ⟨0, _⟩ => show win2_5.index t (0 : Fin 2) * 5000 + 1 * p.val = win2_5.index t (0 : Fin 2) * 5000 + p.val; omega
    | ⟨1, _⟩ => show win2_5.index t (1 : Fin 2) * 128 + 1 * n.val = n.val; omega
  show _ = Cert.DenseUpdate.rowsUpdate (V c main_v203) (V c main_v205) (V c main_v207) (V c main_v209) (V c main_v211) (((cfg2.win 5).blk t).view.emb (ix2 p n))
  rw [hemb, Cert.DenseUpdate.rowsUpdate_apply]
  have r0 : ∀ q : Fin 128, iblk2 V c 0 t (ix2 p q) = V c main_v203 (ix2 (⟨win2_5.index t (0 : Fin 2) * 5000 + p.val, hR⟩ : Fin 50000) q) := fun q => by
    show V c main_v203 (((cfg2.win 0).blk t).view.emb (ix2 p q)) = _
    refine congrArg (V c main_v203) (funext fun a => Fin.ext ?_)
    have hq : q.val < 128 := q.isLt
    match a with
    | ⟨0, _⟩ => show win2_0.index t (0 : Fin 2) * 5000 + 1 * p.val = win2_5.index t (0 : Fin 2) * 5000 + p.val; omega
    | ⟨1, _⟩ => show win2_0.index t (1 : Fin 2) * 128 + 1 * q.val = q.val; omega
  have r1 : ∀ (q : Fin 128) (k : Fin 256), iblk2 V c 1 t (ix2 q k) = V c main_v205 (ix2 q k) := fun q k => by
    show V c main_v205 (((cfg2.win 1).blk t).view.emb (ix2 q k)) = _
    refine congrArg (V c main_v205) (funext fun a => Fin.ext ?_)
    match a with
    | ⟨0, _⟩ => show win2_1.index t (0 : Fin 2) * 128 + 1 * q.val = q.val; omega
    | ⟨1, _⟩ => show win2_1.index t (1 : Fin 2) * 256 + 1 * k.val = k.val; omega
  have r2 : ∀ k : Fin 256, iblk2 V c 2 t (ix2 0 k) = V c main_v207 (ix2 0 k) := fun k => by
    show V c main_v207 (((cfg2.win 2).blk t).view.emb (ix2 0 k)) = _
    refine congrArg (V c main_v207) (funext fun a => Fin.ext ?_)
    match a with
    | ⟨0, _⟩ => show win2_2.index t (0 : Fin 2) * 1 + 1 * 0 = 0; omega
    | ⟨1, _⟩ => show win2_2.index t (1 : Fin 2) * 256 + 1 * k.val = k.val; omega
  have r3 : ∀ (k : Fin 256) (n' : Fin 128), iblk2 V c 3 t (ix2 k n') = V c main_v209 (ix2 k n') := fun k n' => by
    show V c main_v209 (((cfg2.win 3).blk t).view.emb (ix2 k n')) = _
    refine congrArg (V c main_v209) (funext fun a => Fin.ext ?_)
    match a with
    | ⟨0, _⟩ => show win2_3.index t (0 : Fin 2) * 256 + 1 * k.val = k.val; omega
    | ⟨1, _⟩ => show win2_3.index t (1 : Fin 2) * 128 + 1 * n'.val = n'.val; omega
  have r4 : ∀ n' : Fin 128, iblk2 V c 4 t (ix2 0 n') = V c main_v211 (ix2 0 n') := fun n' => by
    show V c main_v211 (((cfg2.win 4).blk t).view.emb (ix2 0 n')) = _
    refine congrArg (V c main_v211) (funext fun a => Fin.ext ?_)
    match a with
    | ⟨0, _⟩ => show win2_4.index t (0 : Fin 2) * 1 + 1 * 0 = 0; omega
    | ⟨1, _⟩ => show win2_4.index t (1 : Fin 2) * 128 + 1 * n'.val = n'.val; omega
  simp only [r0, r1, r2, r3, r4]

/-- An index of the output array is in point `t`'s block iff each coordinate is in the block's range on its axis. -/
theorem third_mem_blk (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v212).slice (win2_5.rect t)).set ↔ _
  rw [View.set_slice_whole, Rect.mem_set_unit]
  exact Iff.rfl

/-- Every index of the output array is in the block of the point whose row block holds its row: rows `5000 q … 5000 q + 4999`
    belong to row block `q`. -/
theorem third_cover (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  obtain ⟨t, ht⟩ := third_onto ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [third_mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- After the third launch's ten points the output array holds the dense update of the summed messages, whatever the buffers
    held when the launch was entered. -/
theorem third_value (c : Dev nD) :
    (dat2 (F := Ideal) V c).arrAt 5 cfg2.N
      = Cert.DenseUpdate.rowsUpdate (V c main_v203) (V c main_v205) (V c main_v207) (V c main_v209) (V c main_v211) :=
  (dat2 (F := Ideal) V c).arrAt_eq_of_cover 5 _ (fun t _ => third_flushed V c t) (third_cover)

end Cert.KernelIdeal.RegionValue

end
-- ==== Proof.Chain.lean ====
/-
  The two runs end with the same result.

  Start both programs from contents that agree on the thirteen argument arrays. After the first stretch the node embeddings'
  message sums and the four index arrays agree. Then, layer by layer: the dense update agrees (the reference's dense stretch
  against the launch, both the dense update of the same arrays), the normalisation agrees, and the next layer's message sums
  agree; the argument and index arrays pass every stretch and launch untouched. After the third normalisation the result
  buffers agree.
-/
import proofs.«106410_j1503238553652_2_alg».proof.Proof.Persist
import proofs.«106410_j1503238553652_2_alg».proof.Proof.PersistStretches
import proofs.«106410_j1503238553652_2_alg».proof.Proof.PersistLaunches
import proofs.«106410_j1503238553652_2_alg».proof.Proof.AgreeAggregate
import proofs.«106410_j1503238553652_2_alg».proof.Proof.AgreeNormalize
import proofs.«106410_j1503238553652_2_alg».proof.Proof.DenseOperands
import proofs.«106410_j1503238553652_2_alg».proof.Proof.RegionValue

set_option maxRecDepth 16384
-- the statements equate contents of kernel buffers with contents of reference buffers: comparing the buffers' types walks both
-- programs' buffer tables
set_option maxHeartbeats 16000000

noncomputable section

namespace Cert.Agree

open Idealize.ShloMosaic Idealize.ShloMosaic.StableHlo

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

/-- The first layer's dense update agrees: the reference's dense stretch from contents `VRa` and the first launch from the contents
    `W1` leave the same array, when the summed messages agree, the persistent buffers agree and the launch's four operand buffers
    hold the layer's slices. -/
theorem dense_step0 {VRa : Valuation Cert.ReferenceIdeal.τ Cert.ReferenceIdeal.sig (Elt Ideal)} (P : Persist (Cert.KernelIdeal.Gen.W1 m ρ c) VRa)
    (ha : VRa (Proc.devRef .tc Cert.ReferenceIdeal.main_v63) = Cert.KernelIdeal.Gen.W1 m ρ c (Proc.devRef .tc Cert.KernelIdeal.main_v65))
    (hw1 : Cert.KernelIdeal.Gen.W1 m ρ c (Proc.devRef .tc Cert.KernelIdeal.main_v67) = shapeCast Cert.ReferenceIdeal.S128x256 (extractStridedSlice Cert.ReferenceIdeal.S1x128x256 ![0, 0, 0] (Cert.KernelIdeal.Gen.W1 m ρ c (Proc.devRef .tc Cert.KernelIdeal.main_arg7)) Cert.ReferenceIdeal.Gen.slices_S3x128x256_S1x128x256_0_0_0) Cert.ReferenceIdeal.Gen.shapeCasts_S1x128x256_S128x256)
    (hb1 : Cert.KernelIdeal.Gen.W1 m ρ c (Proc.devRef .tc Cert.KernelIdeal.main_v69) = extractStridedSlice Cert.ReferenceIdeal.S1x256 ![0, 0] (Cert.KernelIdeal.Gen.W1 m ρ c (Proc.devRef .tc Cert.KernelIdeal.main_arg8)) Cert.ReferenceIdeal.Gen.slices_S3x256_S1x256_0_0)
    (hw2 : Cert.KernelIdeal.Gen.W1 m ρ c (Proc.devRef .tc Cert.KernelIdeal.main_v71) = shapeCast Cert.ReferenceIdeal.S256x128 (extractStridedSlice Cert.ReferenceIdeal.S1x256x128 ![0, 0, 0] (Cert.KernelIdeal.Gen.W1 m ρ c (Proc.devRef .tc Cert.KernelIdeal.main_arg9)) Cert.ReferenceIdeal.Gen.slices_S3x256x128_S1x256x128_0_0_0) Cert.ReferenceIdeal.Gen.shapeCasts_S1x256x128_S256x128)
    (hb2 : Cert.KernelIdeal.Gen.W1 m ρ c (Proc.devRef .tc Cert.KernelIdeal.main_v73) = extractStridedSlice Cert.ReferenceIdeal.S1x128 ![0, 0] (Cert.KernelIdeal.Gen.W1 m ρ c (Proc.devRef .tc Cert.KernelIdeal.main_arg10)) Cert.ReferenceIdeal.Gen.slices_S3x128_S1x128_0_0) :
    after (Cert.ReferenceIdeal.Straight.dense0 (F := Ideal)) VRa (Proc.devRef .tc Cert.ReferenceIdeal.main_v80) = Cert.KernelIdeal.Gen.W2 m ρ c (Proc.devRef .tc Cert.KernelIdeal.main_v74) := by
  have e := Cert.Dense.ref_dense0 VRa
  rw [ha, P.a7, P.a8, P.a9, P.a10, ← hw1, ← hb1, ← hw2, ← hb2] at e
  exact e.trans ((Cert.KernelIdeal.Gen.W2_arr m ρ c 5).trans (Cert.KernelIdeal.RegionValue.first_value (Cert.KernelIdeal.Gen.V1 m ρ) c)).symm

/-- The second layer's dense update agrees: the reference's dense stretch from contents `VRa` and the second launch from the contents
    `W5` leave the same array, when the summed messages agree, the persistent buffers agree and the launch's four operand buffers
    hold the layer's slices. -/
theorem dense_step1 {VRa : Valuation Cert.ReferenceIdeal.τ Cert.ReferenceIdeal.sig (Elt Ideal)} (P : Persist (Cert.KernelIdeal.Gen.W5 m ρ c) VRa)
    (ha : VRa (Proc.devRef .tc Cert.ReferenceIdeal.main_v140) = Cert.KernelIdeal.Gen.W5 m ρ c (Proc.devRef .tc Cert.KernelIdeal.main_v134))
    (hw1 : Cert.KernelIdeal.Gen.W5 m ρ c (Proc.devRef .tc Cert.KernelIdeal.main_v136) = shapeCast Cert.ReferenceIdeal.S128x256 (extractStridedSlice Cert.ReferenceIdeal.S1x128x256 ![1, 0, 0] (Cert.KernelIdeal.Gen.W5 m ρ c (Proc.devRef .tc Cert.KernelIdeal.main_arg7)) Cert.ReferenceIdeal.Gen.slices_S3x128x256_S1x128x256_1_0_0) Cert.ReferenceIdeal.Gen.shapeCasts_S1x128x256_S128x256)
    (hb1 : Cert.KernelIdeal.Gen.W5 m ρ c (Proc.devRef .tc Cert.KernelIdeal.main_v138) = extractStridedSlice Cert.ReferenceIdeal.S1x256 ![1, 0] (Cert.KernelIdeal.Gen.W5 m ρ c (Proc.devRef .tc Cert.KernelIdeal.main_arg8)) Cert.ReferenceIdeal.Gen.slices_S3x256_S1x256_1_0)
    (hw2 : Cert.KernelIdeal.Gen.W5 m ρ c (Proc.devRef .tc Cert.KernelIdeal.main_v140) = shapeCast Cert.ReferenceIdeal.S256x128 (extractStridedSlice Cert.ReferenceIdeal.S1x256x128 ![1, 0, 0] (Cert.KernelIdeal.Gen.W5 m ρ c (Proc.devRef .tc Cert.KernelIdeal.main_arg9)) Cert.ReferenceIdeal.Gen.slices_S3x256x128_S1x256x128_1_0_0) Cert.ReferenceIdeal.Gen.shapeCasts_S1x256x128_S256x128)
    (hb2 : Cert.KernelIdeal.Gen.W5 m ρ c (Proc.devRef .tc Cert.KernelIdeal.main_v142) = extractStridedSlice Cert.ReferenceIdeal.S1x128 ![1, 0] (Cert.KernelIdeal.Gen.W5 m ρ c (Proc.devRef .tc Cert.KernelIdeal.main_arg10)) Cert.ReferenceIdeal.Gen.slices_S3x128_S1x128_1_0) :
    after (Cert.ReferenceIdeal.Straight.dense1 (F := Ideal)) VRa (Proc.devRef .tc Cert.ReferenceIdeal.main_v157) = Cert.KernelIdeal.Gen.W6 m ρ c (Proc.devRef .tc Cert.KernelIdeal.main_v143) := by
  have e := Cert.Dense.ref_dense1 VRa
  rw [ha, P.a7, P.a8, P.a9, P.a10, ← hw1, ← hb1, ← hw2, ← hb2] at e
  exact e.trans ((Cert.KernelIdeal.Gen.W6_arr m ρ c 5).trans (Cert.KernelIdeal.RegionValue.second_value (Cert.KernelIdeal.Gen.V5 m ρ) c)).symm

/-- The third layer's dense update agrees: the reference's dense stretch from contents `VRa` and the third launch from the contents
    `W9` leave the same array, when the summed messages agree, the persistent buffers agree and the launch's four operand buffers
    hold the layer's slices. -/
theorem dense_step2 {VRa : Valuation Cert.ReferenceIdeal.τ Cert.ReferenceIdeal.sig (Elt Ideal)} (P : Persist (Cert.KernelIdeal.Gen.W9 m ρ c) VRa)
    (ha : VRa (Proc.devRef .tc Cert.ReferenceIdeal.main_v217) = Cert.KernelIdeal.Gen.W9 m ρ c (Proc.devRef .tc Cert.KernelIdeal.main_v203))
    (hw1 : Cert.KernelIdeal.Gen.W9 m ρ c (Proc.devRef .tc Cert.KernelIdeal.main_v205) = shapeCast Cert.ReferenceIdeal.S128x256 (extractStridedSlice Cert.ReferenceIdeal.S1x128x256 ![2, 0, 0] (Cert.KernelIdeal.Gen.W9 m ρ c (Proc.devRef .tc Cert.KernelIdeal.main_arg7)) Cert.ReferenceIdeal.Gen.slices_S3x128x256_S1x128x256_2_0_0) Cert.ReferenceIdeal.Gen.shapeCasts_S1x128x256_S128x256)
    (hb1 : Cert.KernelIdeal.Gen.W9 m ρ c (Proc.devRef .tc Cert.KernelIdeal.main_v207) = extractStridedSlice Cert.ReferenceIdeal.S1x256 ![2, 0] (Cert.KernelIdeal.Gen.W9 m ρ c (Proc.devRef .tc Cert.KernelIdeal.main_arg8)) Cert.ReferenceIdeal.Gen.slices_S3x256_S1x256_2_0)
    (hw2 : Cert.KernelIdeal.Gen.W9 m ρ c (Proc.devRef .tc Cert.KernelIdeal.main_v209) = shapeCast Cert.ReferenceIdeal.S256x128 (extractStridedSlice Cert.ReferenceIdeal.S1x256x128 ![2, 0, 0] (Cert.KernelIdeal.Gen.W9 m ρ c (Proc.devRef .tc Cert.KernelIdeal.main_arg9)) Cert.ReferenceIdeal.Gen.slices_S3x256x128_S1x256x128_2_0_0) Cert.ReferenceIdeal.Gen.shapeCasts_S1x256x128_S256x128)
    (hb2 : Cert.KernelIdeal.Gen.W9 m ρ c (Proc.devRef .tc Cert.KernelIdeal.main_v211) = extractStridedSlice Cert.ReferenceIdeal.S1x128 ![2, 0] (Cert.KernelIdeal.Gen.W9 m ρ c (Proc.devRef .tc Cert.KernelIdeal.main_arg10)) Cert.ReferenceIdeal.Gen.slices_S3x128_S1x128_2_0) :
    after (Cert.ReferenceIdeal.Straight.dense2 (F := Ideal)) VRa (Proc.devRef .tc Cert.ReferenceIdeal.main_v234) = Cert.KernelIdeal.Gen.W10 m ρ c (Proc.devRef .tc Cert.KernelIdeal.main_v212) := by
  have e := Cert.Dense.ref_dense2 VRa
  rw [ha, P.a7, P.a8, P.a9, P.a10, ← hw1, ← hb1, ← hw2, ← hb2] at e
  exact e.trans ((Cert.KernelIdeal.Gen.W10_arr m ρ c 5).trans (Cert.KernelIdeal.RegionValue.third_value (Cert.KernelIdeal.Gen.V9 m ρ) c)).symm

/-- From launch contents that agree on the argument arrays, the reference's result buffer after its nine stretches holds what the
    kernel's result buffer holds at its @main's return. -/
theorem result_agree (VR0 : Valuation Cert.ReferenceIdeal.τ Cert.ReferenceIdeal.sig (Elt Ideal))
    (h0 : VR0 (Proc.devRef .tc Cert.ReferenceIdeal.main_arg0) = Cert.KernelIdeal.Gen.W0 m ρ c (Proc.devRef .tc Cert.KernelIdeal.main_arg0))
    (h1 : VR0 (Proc.devRef .tc Cert.ReferenceIdeal.main_arg1) = Cert.KernelIdeal.Gen.W0 m ρ c (Proc.devRef .tc Cert.KernelIdeal.main_arg1))
    (h2 : VR0 (Proc.devRef .tc Cert.ReferenceIdeal.main_arg2) = Cert.KernelIdeal.Gen.W0 m ρ c (Proc.devRef .tc Cert.KernelIdeal.main_arg2))
    (h3 : VR0 (Proc.devRef .tc Cert.ReferenceIdeal.main_arg3) = Cert.KernelIdeal.Gen.W0 m ρ c (Proc.devRef .tc Cert.KernelIdeal.main_arg3))
    (h4 : VR0 (Proc.devRef .tc Cert.ReferenceIdeal.main_arg4) = Cert.KernelIdeal.Gen.W0 m ρ c (Proc.devRef .tc Cert.KernelIdeal.main_arg4))
    (h5 : VR0 (Proc.devRef .tc Cert.ReferenceIdeal.main_arg5) = Cert.KernelIdeal.Gen.W0 m ρ c (Proc.devRef .tc Cert.KernelIdeal.main_arg5))
    (h6 : VR0 (Proc.devRef .tc Cert.ReferenceIdeal.main_arg6) = Cert.KernelIdeal.Gen.W0 m ρ c (Proc.devRef .tc Cert.KernelIdeal.main_arg6))
    (h7 : VR0 (Proc.devRef .tc Cert.ReferenceIdeal.main_arg7) = Cert.KernelIdeal.Gen.W0 m ρ c (Proc.devRef .tc Cert.KernelIdeal.main_arg7))
    (h8 : VR0 (Proc.devRef .tc Cert.ReferenceIdeal.main_arg8) = Cert.KernelIdeal.Gen.W0 m ρ c (Proc.devRef .tc Cert.KernelIdeal.main_arg8))
    (h9 : VR0 (Proc.devRef .tc Cert.ReferenceIdeal.main_arg9) = Cert.KernelIdeal.Gen.W0 m ρ c (Proc.devRef .tc Cert.KernelIdeal.main_arg9))
    (h10 : VR0 (Proc.devRef .tc Cert.ReferenceIdeal.main_arg10) = Cert.KernelIdeal.Gen.W0 m ρ c (Proc.devRef .tc Cert.KernelIdeal.main_arg10))
    (h11 : VR0 (Proc.devRef .tc Cert.ReferenceIdeal.main_arg11) = Cert.KernelIdeal.Gen.W0 m ρ c (Proc.devRef .tc Cert.KernelIdeal.main_arg11))
    (h12 : VR0 (Proc.devRef .tc Cert.ReferenceIdeal.main_arg12) = Cert.KernelIdeal.Gen.W0 m ρ c (Proc.devRef .tc Cert.KernelIdeal.main_arg12)) :
    Cert.ReferenceIdeal.Straight.stage9 VR0 (Proc.devRef .tc Cert.ReferenceIdeal.main_v263) = Cert.KernelIdeal.Gen.W11 m ρ c (Proc.devRef .tc Cert.KernelIdeal.main_v241) := by
  have P1 : Persist (Cert.KernelIdeal.Gen.W1 m ρ c) (Cert.ReferenceIdeal.Straight.stage1 VR0) := {
    a0 := (Cert.ReferenceIdeal.Straight.embedAggregate0_keeps VR0 Cert.ReferenceIdeal.main_arg0 (by decide)).trans (h0.trans (Cert.KernelIdeal.Keeps.hostOps0_keeps (Cert.KernelIdeal.Gen.W0 m ρ c) Cert.KernelIdeal.main_arg0 (by decide)).symm)
    a1 := (Cert.ReferenceIdeal.Straight.embedAggregate0_keeps VR0 Cert.ReferenceIdeal.main_arg1 (by decide)).trans (h1.trans (Cert.KernelIdeal.Keeps.hostOps0_keeps (Cert.KernelIdeal.Gen.W0 m ρ c) Cert.KernelIdeal.main_arg1 (by decide)).symm)
    a2 := (Cert.ReferenceIdeal.Straight.embedAggregate0_keeps VR0 Cert.ReferenceIdeal.main_arg2 (by decide)).trans (h2.trans (Cert.KernelIdeal.Keeps.hostOps0_keeps (Cert.KernelIdeal.Gen.W0 m ρ c) Cert.KernelIdeal.main_arg2 (by decide)).symm)
    a3 := (Cert.ReferenceIdeal.Straight.embedAggregate0_keeps VR0 Cert.ReferenceIdeal.main_arg3 (by decide)).trans (h3.trans (Cert.KernelIdeal.Keeps.hostOps0_keeps (Cert.KernelIdeal.Gen.W0 m ρ c) Cert.KernelIdeal.main_arg3 (by decide)).symm)
    a4 := (Cert.ReferenceIdeal.Straight.embedAggregate0_keeps VR0 Cert.ReferenceIdeal.main_arg4 (by decide)).trans (h4.trans (Cert.KernelIdeal.Keeps.hostOps0_keeps (Cert.KernelIdeal.Gen.W0 m ρ c) Cert.KernelIdeal.main_arg4 (by decide)).symm)
    a5 := (Cert.ReferenceIdeal.Straight.embedAggregate0_keeps VR0 Cert.ReferenceIdeal.main_arg5 (by decide)).trans (h5.trans (Cert.KernelIdeal.Keeps.hostOps0_keeps (Cert.KernelIdeal.Gen.W0 m ρ c) Cert.KernelIdeal.main_arg5 (by decide)).symm)
    a6 := (Cert.ReferenceIdeal.Straight.embedAggregate0_keeps VR0 Cert.ReferenceIdeal.main_arg6 (by decide)).trans (h6.trans (Cert.KernelIdeal.Keeps.hostOps0_keeps (Cert.KernelIdeal.Gen.W0 m ρ c) Cert.KernelIdeal.main_arg6 (by decide)).symm)
    a7 := (Cert.ReferenceIdeal.Straight.embedAggregate0_keeps VR0 Cert.ReferenceIdeal.main_arg7 (by decide)).trans (h7.trans (Cert.KernelIdeal.Keeps.hostOps0_keeps (Cert.KernelIdeal.Gen.W0 m ρ c) Cert.KernelIdeal.main_arg7 (by decide)).symm)
    a8 := (Cert.ReferenceIdeal.Straight.embedAggregate0_keeps VR0 Cert.ReferenceIdeal.main_arg8 (by decide)).trans (h8.trans (Cert.KernelIdeal.Keeps.hostOps0_keeps (Cert.KernelIdeal.Gen.W0 m ρ c) Cert.KernelIdeal.main_arg8 (by decide)).symm)
    a9 := (Cert.ReferenceIdeal.Straight.embedAggregate0_keeps VR0 Cert.ReferenceIdeal.main_arg9 (by decide)).trans (h9.trans (Cert.KernelIdeal.Keeps.hostOps0_keeps (Cert.KernelIdeal.Gen.W0 m ρ c) Cert.KernelIdeal.main_arg9 (by decide)).symm)
    a10 := (Cert.ReferenceIdeal.Straight.embedAggregate0_keeps VR0 Cert.ReferenceIdeal.main_arg10 (by decide)).trans (h10.trans (Cert.KernelIdeal.Keeps.hostOps0_keeps (Cert.KernelIdeal.Gen.W0 m ρ c) Cert.KernelIdeal.main_arg10 (by decide)).symm)
    a11 := (Cert.ReferenceIdeal.Straight.embedAggregate0_keeps VR0 Cert.ReferenceIdeal.main_arg11 (by decide)).trans (h11.trans (Cert.KernelIdeal.Keeps.hostOps0_keeps (Cert.KernelIdeal.Gen.W0 m ρ c) Cert.KernelIdeal.main_arg11 (by decide)).symm)
    a12 := (Cert.ReferenceIdeal.Straight.embedAggregate0_keeps VR0 Cert.ReferenceIdeal.main_arg12 (by decide)).trans (h12.trans (Cert.KernelIdeal.Keeps.hostOps0_keeps (Cert.KernelIdeal.Gen.W0 m ρ c) Cert.KernelIdeal.main_arg12 (by decide)).symm)
    src := Cert.Agree.sources0 (Cert.KernelIdeal.Gen.W0 m ρ c) VR0 h1
    dst := Cert.Agree.destinations0 (Cert.KernelIdeal.Gen.W0 m ρ c) VR0 h1
    ea0 := Cert.Agree.attr0_0 (Cert.KernelIdeal.Gen.W0 m ρ c) VR0 h2
    ea1 := Cert.Agree.attr1_0 (Cert.KernelIdeal.Gen.W0 m ρ c) VR0 h2
    b1m := by
      show after (Cert.KernelIdeal.Gen.hostOps0 (F := Ideal)) (Cert.KernelIdeal.Gen.W0 m ρ c) (Proc.devRef .tc Cert.KernelIdeal.main_v34) = shapeCast Cert.KernelIdeal.S3x1x256 (after (Cert.KernelIdeal.Gen.hostOps0 (F := Ideal)) (Cert.KernelIdeal.Gen.W0 m ρ c) (Proc.devRef .tc Cert.KernelIdeal.main_arg8)) Cert.KernelIdeal.Gen.shapeCasts_S3x256_S3x1x256
      rw [Cert.KernelIdeal.Keeps.hostOps0_keeps (Cert.KernelIdeal.Gen.W0 m ρ c) Cert.KernelIdeal.main_arg8 (by decide)]; exact Cert.Dense.k_b1_mid _
    b2m := by
      show after (Cert.KernelIdeal.Gen.hostOps0 (F := Ideal)) (Cert.KernelIdeal.Gen.W0 m ρ c) (Proc.devRef .tc Cert.KernelIdeal.main_v35) = shapeCast Cert.KernelIdeal.S3x1x128 (after (Cert.KernelIdeal.Gen.hostOps0 (F := Ideal)) (Cert.KernelIdeal.Gen.W0 m ρ c) (Proc.devRef .tc Cert.KernelIdeal.main_arg10)) Cert.KernelIdeal.Gen.shapeCasts_S3x128_S3x1x128
      rw [Cert.KernelIdeal.Keeps.hostOps0_keeps (Cert.KernelIdeal.Gen.W0 m ρ c) Cert.KernelIdeal.main_arg10 (by decide)]; exact Cert.Dense.k_b2_mid _ }
  have A1 : Cert.ReferenceIdeal.Straight.stage1 VR0 (Proc.devRef .tc Cert.ReferenceIdeal.main_v63) = Cert.KernelIdeal.Gen.W1 m ρ c (Proc.devRef .tc Cert.KernelIdeal.main_v65) := Cert.Agree.aggregate0 (Cert.KernelIdeal.Gen.W0 m ρ c) VR0 h0 h1 h2 h3 h4 h5 h6
  -- the first layer
  have D1 : Cert.ReferenceIdeal.Straight.stage2 VR0 (Proc.devRef .tc Cert.ReferenceIdeal.main_v80) = Cert.KernelIdeal.Gen.W2 m ρ c (Proc.devRef .tc Cert.KernelIdeal.main_v74) := dense_step0 m ρ c P1 A1
    (by show after (Cert.KernelIdeal.Gen.hostOps0 (F := Ideal)) (Cert.KernelIdeal.Gen.W0 m ρ c) (Proc.devRef .tc Cert.KernelIdeal.main_v67) = shapeCast Cert.ReferenceIdeal.S128x256 (extractStridedSlice Cert.ReferenceIdeal.S1x128x256 ![0, 0, 0] (after (Cert.KernelIdeal.Gen.hostOps0 (F := Ideal)) (Cert.KernelIdeal.Gen.W0 m ρ c) (Proc.devRef .tc Cert.KernelIdeal.main_arg7)) Cert.ReferenceIdeal.Gen.slices_S3x128x256_S1x128x256_0_0_0) Cert.ReferenceIdeal.Gen.shapeCasts_S1x128x256_S128x256; rw [Cert.KernelIdeal.Keeps.hostOps0_keeps (Cert.KernelIdeal.Gen.W0 m ρ c) Cert.KernelIdeal.main_arg7 (by decide)]; exact Cert.Dense.k_w1_0 _)
    (by show after (Cert.KernelIdeal.Gen.hostOps0 (F := Ideal)) (Cert.KernelIdeal.Gen.W0 m ρ c) (Proc.devRef .tc Cert.KernelIdeal.main_v69) = extractStridedSlice Cert.ReferenceIdeal.S1x256 ![0, 0] (after (Cert.KernelIdeal.Gen.hostOps0 (F := Ideal)) (Cert.KernelIdeal.Gen.W0 m ρ c) (Proc.devRef .tc Cert.KernelIdeal.main_arg8)) Cert.ReferenceIdeal.Gen.slices_S3x256_S1x256_0_0; rw [Cert.KernelIdeal.Keeps.hostOps0_keeps (Cert.KernelIdeal.Gen.W0 m ρ c) Cert.KernelIdeal.main_arg8 (by decide)]; exact Cert.Dense.k_b1_0 _)
    (by show after (Cert.KernelIdeal.Gen.hostOps0 (F := Ideal)) (Cert.KernelIdeal.Gen.W0 m ρ c) (Proc.devRef .tc Cert.KernelIdeal.main_v71) = shapeCast Cert.ReferenceIdeal.S256x128 (extractStridedSlice Cert.ReferenceIdeal.S1x256x128 ![0, 0, 0] (after (Cert.KernelIdeal.Gen.hostOps0 (F := Ideal)) (Cert.KernelIdeal.Gen.W0 m ρ c) (Proc.devRef .tc Cert.KernelIdeal.main_arg9)) Cert.ReferenceIdeal.Gen.slices_S3x256x128_S1x256x128_0_0_0) Cert.ReferenceIdeal.Gen.shapeCasts_S1x256x128_S256x128; rw [Cert.KernelIdeal.Keeps.hostOps0_keeps (Cert.KernelIdeal.Gen.W0 m ρ c) Cert.KernelIdeal.main_arg9 (by decide)]; exact Cert.Dense.k_w2_0 _)
    (by show after (Cert.KernelIdeal.Gen.hostOps0 (F := Ideal)) (Cert.KernelIdeal.Gen.W0 m ρ c) (Proc.devRef .tc Cert.KernelIdeal.main_v73) = extractStridedSlice Cert.ReferenceIdeal.S1x128 ![0, 0] (after (Cert.KernelIdeal.Gen.hostOps0 (F := Ideal)) (Cert.KernelIdeal.Gen.W0 m ρ c) (Proc.devRef .tc Cert.KernelIdeal.main_arg10)) Cert.ReferenceIdeal.Gen.slices_S3x128_S1x128_0_0; rw [Cert.KernelIdeal.Keeps.hostOps0_keeps (Cert.KernelIdeal.Gen.W0 m ρ c) Cert.KernelIdeal.main_arg10 (by decide)]; exact Cert.Dense.k_b2_0 _)
  have P2 : Persist (Cert.KernelIdeal.Gen.W2 m ρ c) (Cert.ReferenceIdeal.Straight.stage2 VR0) := (P1.launch0 m ρ c).dense0
  have N1 : Cert.ReferenceIdeal.Straight.stage3 VR0 (Proc.devRef .tc Cert.ReferenceIdeal.main_v110) = Cert.KernelIdeal.Gen.W4 m ρ c (Proc.devRef .tc Cert.KernelIdeal.main_v104) := Cert.Agree.normalize0 (Cert.KernelIdeal.Gen.W2 m ρ c) (Cert.ReferenceIdeal.Straight.stage2 VR0) D1 P2.a11 P2.a12
  have P3 : Persist (Cert.KernelIdeal.Gen.W4 m ρ c) (Cert.ReferenceIdeal.Straight.stage3 VR0) := P2.hostOps1.hostOps1_1.normalize0
  -- the second layer
  have A2 : Cert.ReferenceIdeal.Straight.stage4 VR0 (Proc.devRef .tc Cert.ReferenceIdeal.main_v140) = Cert.KernelIdeal.Gen.W5 m ρ c (Proc.devRef .tc Cert.KernelIdeal.main_v134) := Cert.Agree.aggregate1 (Cert.KernelIdeal.Gen.W4 m ρ c) (Cert.ReferenceIdeal.Straight.stage3 VR0) N1 P3.src P3.dst P3.ea0 P3.ea1 P3.a5 P3.a6
  have P4 : Persist (Cert.KernelIdeal.Gen.W5 m ρ c) (Cert.ReferenceIdeal.Straight.stage4 VR0) := P3.hostOps1_2.aggregate1
  have D2 : Cert.ReferenceIdeal.Straight.stage5 VR0 (Proc.devRef .tc Cert.ReferenceIdeal.main_v157) = Cert.KernelIdeal.Gen.W6 m ρ c (Proc.devRef .tc Cert.KernelIdeal.main_v143) := dense_step1 m ρ c P4 A2
    (by show after (Cert.KernelIdeal.Gen.hostOps1_2 (F := Ideal)) (Cert.KernelIdeal.Gen.W4 m ρ c) (Proc.devRef .tc Cert.KernelIdeal.main_v136) = shapeCast Cert.ReferenceIdeal.S128x256 (extractStridedSlice Cert.ReferenceIdeal.S1x128x256 ![1, 0, 0] (after (Cert.KernelIdeal.Gen.hostOps1_2 (F := Ideal)) (Cert.KernelIdeal.Gen.W4 m ρ c) (Proc.devRef .tc Cert.KernelIdeal.main_arg7)) Cert.ReferenceIdeal.Gen.slices_S3x128x256_S1x128x256_1_0_0) Cert.ReferenceIdeal.Gen.shapeCasts_S1x128x256_S128x256; rw [Cert.KernelIdeal.Keeps.hostOps1_2_keeps (Cert.KernelIdeal.Gen.W4 m ρ c) Cert.KernelIdeal.main_arg7 (by decide)]; exact Cert.Dense.k_w1_1 _)
    (by show after (Cert.KernelIdeal.Gen.hostOps1_2 (F := Ideal)) (Cert.KernelIdeal.Gen.W4 m ρ c) (Proc.devRef .tc Cert.KernelIdeal.main_v138) = extractStridedSlice Cert.ReferenceIdeal.S1x256 ![1, 0] (after (Cert.KernelIdeal.Gen.hostOps1_2 (F := Ideal)) (Cert.KernelIdeal.Gen.W4 m ρ c) (Proc.devRef .tc Cert.KernelIdeal.main_arg8)) Cert.ReferenceIdeal.Gen.slices_S3x256_S1x256_1_0; rw [Cert.KernelIdeal.Keeps.hostOps1_2_keeps (Cert.KernelIdeal.Gen.W4 m ρ c) Cert.KernelIdeal.main_arg8 (by decide)]; exact Cert.Dense.k_b1_1 _ _ P3.b1m)
    (by show after (Cert.KernelIdeal.Gen.hostOps1_2 (F := Ideal)) (Cert.KernelIdeal.Gen.W4 m ρ c) (Proc.devRef .tc Cert.KernelIdeal.main_v140) = shapeCast Cert.ReferenceIdeal.S256x128 (extractStridedSlice Cert.ReferenceIdeal.S1x256x128 ![1, 0, 0] (after (Cert.KernelIdeal.Gen.hostOps1_2 (F := Ideal)) (Cert.KernelIdeal.Gen.W4 m ρ c) (Proc.devRef .tc Cert.KernelIdeal.main_arg9)) Cert.ReferenceIdeal.Gen.slices_S3x256x128_S1x256x128_1_0_0) Cert.ReferenceIdeal.Gen.shapeCasts_S1x256x128_S256x128; rw [Cert.KernelIdeal.Keeps.hostOps1_2_keeps (Cert.KernelIdeal.Gen.W4 m ρ c) Cert.KernelIdeal.main_arg9 (by decide)]; exact Cert.Dense.k_w2_1 _)
    (by show after (Cert.KernelIdeal.Gen.hostOps1_2 (F := Ideal)) (Cert.KernelIdeal.Gen.W4 m ρ c) (Proc.devRef .tc Cert.KernelIdeal.main_v142) = extractStridedSlice Cert.ReferenceIdeal.S1x128 ![1, 0] (after (Cert.KernelIdeal.Gen.hostOps1_2 (F := Ideal)) (Cert.KernelIdeal.Gen.W4 m ρ c) (Proc.devRef .tc Cert.KernelIdeal.main_arg10)) Cert.ReferenceIdeal.Gen.slices_S3x128_S1x128_1_0; rw [Cert.KernelIdeal.Keeps.hostOps1_2_keeps (Cert.KernelIdeal.Gen.W4 m ρ c) Cert.KernelIdeal.main_arg10 (by decide)]; exact Cert.Dense.k_b2_1 _ _ P3.b2m)
  have P5 : Persist (Cert.KernelIdeal.Gen.W6 m ρ c) (Cert.ReferenceIdeal.Straight.stage5 VR0) := (P4.launch1 m ρ c).dense1
  have N2 : Cert.ReferenceIdeal.Straight.stage6 VR0 (Proc.devRef .tc Cert.ReferenceIdeal.main_v187) = Cert.KernelIdeal.Gen.W8 m ρ c (Proc.devRef .tc Cert.KernelIdeal.main_v173) := Cert.Agree.normalize1 (Cert.KernelIdeal.Gen.W6 m ρ c) (Cert.ReferenceIdeal.Straight.stage5 VR0) D2 P5.a11 P5.a12
  have P6 : Persist (Cert.KernelIdeal.Gen.W8 m ρ c) (Cert.ReferenceIdeal.Straight.stage6 VR0) := P5.hostOps2.hostOps2_1.normalize1
  -- the third layer
  have A3 : Cert.ReferenceIdeal.Straight.stage7 VR0 (Proc.devRef .tc Cert.ReferenceIdeal.main_v217) = Cert.KernelIdeal.Gen.W9 m ρ c (Proc.devRef .tc Cert.KernelIdeal.main_v203) := Cert.Agree.aggregate2 (Cert.KernelIdeal.Gen.W8 m ρ c) (Cert.ReferenceIdeal.Straight.stage6 VR0) N2 P6.src P6.dst P6.ea0 P6.ea1 P6.a5 P6.a6
  have P7 : Persist (Cert.KernelIdeal.Gen.W9 m ρ c) (Cert.ReferenceIdeal.Straight.stage7 VR0) := P6.hostOps2_2.aggregate2
  have D3 : Cert.ReferenceIdeal.Straight.stage8 VR0 (Proc.devRef .tc Cert.ReferenceIdeal.main_v234) = Cert.KernelIdeal.Gen.W10 m ρ c (Proc.devRef .tc Cert.KernelIdeal.main_v212) := dense_step2 m ρ c P7 A3
    (by show after (Cert.KernelIdeal.Gen.hostOps2_2 (F := Ideal)) (Cert.KernelIdeal.Gen.W8 m ρ c) (Proc.devRef .tc Cert.KernelIdeal.main_v205) = shapeCast Cert.ReferenceIdeal.S128x256 (extractStridedSlice Cert.ReferenceIdeal.S1x128x256 ![2, 0, 0] (after (Cert.KernelIdeal.Gen.hostOps2_2 (F := Ideal)) (Cert.KernelIdeal.Gen.W8 m ρ c) (Proc.devRef .tc Cert.KernelIdeal.main_arg7)) Cert.ReferenceIdeal.Gen.slices_S3x128x256_S1x128x256_2_0_0) Cert.ReferenceIdeal.Gen.shapeCasts_S1x128x256_S128x256; rw [Cert.KernelIdeal.Keeps.hostOps2_2_keeps (Cert.KernelIdeal.Gen.W8 m ρ c) Cert.KernelIdeal.main_arg7 (by decide)]; exact Cert.Dense.k_w1_2 _)
    (by show after (Cert.KernelIdeal.Gen.hostOps2_2 (F := Ideal)) (Cert.KernelIdeal.Gen.W8 m ρ c) (Proc.devRef .tc Cert.KernelIdeal.main_v207) = extractStridedSlice Cert.ReferenceIdeal.S1x256 ![2, 0] (after (Cert.KernelIdeal.Gen.hostOps2_2 (F := Ideal)) (Cert.KernelIdeal.Gen.W8 m ρ c) (Proc.devRef .tc Cert.KernelIdeal.main_arg8)) Cert.ReferenceIdeal.Gen.slices_S3x256_S1x256_2_0; rw [Cert.KernelIdeal.Keeps.hostOps2_2_keeps (Cert.KernelIdeal.Gen.W8 m ρ c) Cert.KernelIdeal.main_arg8 (by decide)]; exact Cert.Dense.k_b1_2 _ _ P6.b1m)
    (by show after (Cert.KernelIdeal.Gen.hostOps2_2 (F := Ideal)) (Cert.KernelIdeal.Gen.W8 m ρ c) (Proc.devRef .tc Cert.KernelIdeal.main_v209) = shapeCast Cert.ReferenceIdeal.S256x128 (extractStridedSlice Cert.ReferenceIdeal.S1x256x128 ![2, 0, 0] (after (Cert.KernelIdeal.Gen.hostOps2_2 (F := Ideal)) (Cert.KernelIdeal.Gen.W8 m ρ c) (Proc.devRef .tc Cert.KernelIdeal.main_arg9)) Cert.ReferenceIdeal.Gen.slices_S3x256x128_S1x256x128_2_0_0) Cert.ReferenceIdeal.Gen.shapeCasts_S1x256x128_S256x128; rw [Cert.KernelIdeal.Keeps.hostOps2_2_keeps (Cert.KernelIdeal.Gen.W8 m ρ c) Cert.KernelIdeal.main_arg9 (by decide)]; exact Cert.Dense.k_w2_2 _)
    (by show after (Cert.KernelIdeal.Gen.hostOps2_2 (F := Ideal)) (Cert.KernelIdeal.Gen.W8 m ρ c) (Proc.devRef .tc Cert.KernelIdeal.main_v211) = extractStridedSlice Cert.ReferenceIdeal.S1x128 ![2, 0] (after (Cert.KernelIdeal.Gen.hostOps2_2 (F := Ideal)) (Cert.KernelIdeal.Gen.W8 m ρ c) (Proc.devRef .tc Cert.KernelIdeal.main_arg10)) Cert.ReferenceIdeal.Gen.slices_S3x128_S1x128_2_0; rw [Cert.KernelIdeal.Keeps.hostOps2_2_keeps (Cert.KernelIdeal.Gen.W8 m ρ c) Cert.KernelIdeal.main_arg10 (by decide)]; exact Cert.Dense.k_b2_2 _ _ P6.b2m)
  have P8 : Persist (Cert.KernelIdeal.Gen.W10 m ρ c) (Cert.ReferenceIdeal.Straight.stage8 VR0) := (P7.launch2 m ρ c).dense2
  exact Cert.Agree.normalize2 (Cert.KernelIdeal.Gen.W10 m ρ c) (Cert.ReferenceIdeal.Straight.stage8 VR0) D3 P8.a11 P8.a12

end Cert.Agree

end
-- ==== Proof.lean ====
/-
  A three-layer message-passing network on a graph of 50000 nodes and 500000 edges, computed two ways.

  Each layer sums, into every node, the embeddings of the nodes that send it a message plus the embeddings of the edges they come
  along (a self loop added per node); applies a dense update to each node's sum — a 128 × 256 linear map, a bias, the positive
  part, a 256 × 128 linear map, a bias —; and normalises every column over the nodes (mean, biased variance, an affine map),
  keeping the positive part after the first two layers. The reference does all of it with host operations. The kernel's
  program does the gathering, summing and normalising with the same host operations and the dense update in a launch over ten
  blocks of 5000 nodes, rounding the operands of its two matrix products to a shorter float format first.

  Over the extended reals a change of float format is the identity and a matrix product — the launch's, into a zero accumulator,
  or the host's — is the plain sum over the contracted axis, so a launch leaves in its output exactly the reference's dense
  update of the same arrays (Proof/MlpSpec.lean states the update, Proof/BlockPayload.lean and Proof/RegionValue.lean read it off
  the launch, Proof/ReferenceDense.lean off the reference's operations). Everything else the two programs do is the same
  operations on buffers of their own, so from launch contents that agree on the thirteen argument arrays the two runs keep
  agreeing, stretch by stretch, to the result (Proof/Chain.lean). No law of the extended reals beyond a sum's independence of
  the order of its terms is used, and the finiteness of the inputs is never needed.

  The three frames: the kernel's two programs' are the generated frame certificates; the reference writes no argument array
  (Proof/ReferenceFrame.lean over Proof/ReferenceRun.lean, the reference as a straight line of 316 host operations). The ideal
  pass rewrote nothing, so the idealized kernel is the kernel's own text read over the extended reals.
-/
import proofs.«106410_j1503238553652_2_alg».proof.Defs
import proofs.«106410_j1503238553652_2_alg».proof.Proof.Gen.Kernel
import proofs.«106410_j1503238553652_2_alg».proof.Proof.Gen.Kernel.Frame
import proofs.«106410_j1503238553652_2_alg».proof.Proof.Gen.KernelIdeal
import proofs.«106410_j1503238553652_2_alg».proof.Proof.Gen.KernelIdeal.Frame
import proofs.«106410_j1503238553652_2_alg».proof.Proof.Gen.ReferenceIdeal
import proofs.«106410_j1503238553652_2_alg».proof.Proof.Gen.Pre_finite_inputs
import proofs.«106410_j1503238553652_2_alg».proof.Proof.KernelRun
import proofs.«106410_j1503238553652_2_alg».proof.Proof.ReferenceFrame
import proofs.«106410_j1503238553652_2_alg».proof.Proof.Chain
import Idealize.ShloMosaic.Adequacy
import Idealize.ShloMosaic.Init

set_option maxRecDepth 16384

noncomputable section

namespace Cert.Proof

open Idealize.ShloMosaic Idealize.ShloMosaic.StableHlo Idealize.SL.Sem

theorem frame_kernel : Cert.frame_Kernel := fun m ρ _ => Cert.Kernel.Gen.frame m ρ
theorem frame_kernel_ideal : Cert.frame_KernelIdeal := fun m ρ _ => Cert.KernelIdeal.Gen.frame m ρ
theorem frame_reference_ideal : Cert.frame_ReferenceIdeal := fun m ρ _ => Cert.ReferenceIdeal.Straight.frame (F := Ideal) m ρ

/-- The ideal pass rewrote no operation. -/
theorem preserves : Cert.preserves_Kernel_KernelIdeal := trivial

set_option maxHeartbeats 8000000 in
/-- From memories that agree on the argument arrays both programs run to the end, and the reference's result buffer holds what
    the kernel's holds: the contents of the kernel's result buffer at its @main's return. -/
theorem algebraic : Cert.algebraic_KernelIdeal_ReferenceIdeal := by
  intro m ρ m' ρ' _ hagree
  refine ⟨fun c => Cert.KernelIdeal.Gen.W11 m ρ c (Proc.devRef .tc Cert.KernelIdeal.main_v241),
    Cert.KernelIdeal.ResultRun.run (F := Ideal) m ρ, ?_⟩
  refine (θ_run (Cert.ReferenceIdeal.defs (F := Ideal)) _ _).mono (fun r h c => ⟨(h c).1.trans ?_, (h c).2⟩)
    (Cert.ReferenceIdeal.Straight.run_result (F := Ideal) m' ρ')
  exact Cert.Agree.result_agree m ρ c (launchContents m' c)
    (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
